-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x4096 : Shape := ⟨3, ![64, 256, 4096]⟩
abbrev S256 : Shape := ⟨1, ![256]⟩
abbrev S_ : Shape := ⟨0, ![]⟩

class Facts : Prop where
  bcast_S_S64x256x4096 : S_.BroadcastsInDim S64x256x4096 (![] : Fin 0 → Fin S64x256x4096.rank)
  reducesTo_S64x256x4096_S_d0_1_2 : S64x256x4096.ReducesTo [0, 1, 2] S_
  h_S_ : 0 < S_.numel
  bcast_S_S256 : S_.BroadcastsInDim S256 (![] : Fin 0 → Fin S256.rank)
  reducesTo_S256_S_d0 : S256.ReducesTo [0] S_

variable [Facts]

def fn {F : FTy → Type} [FloatOps F] (main_arg0 : FVec F S64x256x4096 .f32) (main_arg1 : FVec F S256 .f32) (main_arg2 : FVec F S256 .f32) : IVec S_ 1 :=
  let main_v0 : FVec F S64x256x4096 .f32 := Host.absf main_arg0
  let main_cst : FVec F S_ .f32 := constant S_ .f32 0x7F800000#32
  let main_v1 : FVec F S64x256x4096 .f32 := broadcastInDim S64x256x4096 ![] bcast_S_S64x256x4096 main_cst
  let main_v2 : IVec S64x256x4096 1 := cmpf .olt main_v0 main_v1
  let main_c : IVec S_ 1 := constantI S_ 1 1#1
  let main_v3 : IVec S_ 1 := (fun x v => Host.reduce IntOp.andi x v reducesTo_S64x256x4096_S_d0_1_2 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S64x256x4096 : Shape := ⟨3, ![64, 256, 4096]⟩
abbrev S256 : Shape := ⟨1, ![256]⟩
abbrev S256x1 : Shape := ⟨2, ![256, 1]⟩
abbrev S256x2 : Shape := ⟨2, ![256, 2]⟩
abbrev S64x256x2048x2 : Shape := ⟨4, ![64, 256, 2048, 2]⟩
abbrev S_ : Shape := ⟨0, ![]⟩
abbrev S64x256x2048 : Shape := ⟨3, ![64, 256, 2048]⟩
abbrev S2x256x2 : Shape := ⟨3, ![2, 256, 2]⟩
abbrev S4x256x2048 : Shape := ⟨3, ![4, 256, 2048]⟩
abbrev S1x256x2 : Shape := ⟨3, ![1, 256, 2]⟩
abbrev S4x256 : Shape := ⟨2, ![4, 256]⟩
abbrev S4x256x1 : Shape := ⟨3, ![4, 256, 1]⟩
abbrev S2x256x2048 : Shape := ⟨3, ![2, 256, 2048]⟩
abbrev S1x256x1 : Shape := ⟨3, ![1, 256, 1]⟩

abbrev nBuf : Space → Nat
  | .hbm => 11
  | .vmem => 10
  | .smem => 0
  | _ => 0

abbrev bufTy : (tb : Table) → Fin (tcTables nBuf tb) → BufTy
  | .hbm, ⟨0, _⟩ => ⟨S64x256x4096, .f32⟩
  | .hbm, ⟨1, _⟩ => ⟨S256, .f32⟩
  | .hbm, ⟨2, _⟩ => ⟨S256, .f32⟩
  | .hbm, ⟨3, _⟩ => ⟨S256x1, .f32⟩
  | .hbm, ⟨4, _⟩ => ⟨S256x1, .f32⟩
  | .hbm, ⟨5, _⟩ => ⟨S256x2, .f32⟩
  | .hbm, ⟨6, _⟩ => ⟨S64x256x2048x2, .f32⟩
  | .hbm, ⟨7, _⟩ => ⟨S_, .f32⟩
  | .hbm, ⟨8, _⟩ => ⟨S64x256x2048, .f32⟩
  | .hbm, ⟨9, _⟩ => ⟨S2x256x2, .f32⟩
  | .hbm, ⟨10, _⟩ => ⟨S64x256x2048, .f32⟩
  | .local _ .vmem, ⟨0, _⟩ => ⟨S4x256x2048, .f32⟩
  | .local _ .vmem, ⟨1, _⟩ => ⟨S4x256x2048, .f32⟩
  | .local _ .vmem, ⟨2, _⟩ => ⟨S1x256x2, .f32⟩
  | .local _ .vmem, ⟨3, _⟩ => ⟨S1x256x2, .f32⟩
  | .local _ .vmem, ⟨4, _⟩ => ⟨S2x256x2048, .f32⟩
  | .local _ .vmem, ⟨5, _⟩ => ⟨S2x256x2048, .f32⟩
  | .local _ .vmem, ⟨6, _⟩ => ⟨S2x256x2, .f32⟩
  | .local _ .vmem, ⟨7, _⟩ => ⟨S256x2, .f32⟩
  | .local _ .vmem, ⟨8, _⟩ => ⟨S2x256x2048, .f32⟩
  | .local _ .vmem, ⟨9, _⟩ => ⟨S2x256x2048, .f32⟩
  | _, _ => ⟨S64x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_cst : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg3_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem3_1 : DmaSem sig := 9

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg1 : BitVec 32 := BitVec.ofNat 32 (i 1).val
  let c0_i32 : BitVec 32 := 0#32
  let v11 : BitVec 1 := Scalar.cmpi .eq arg1 c0_i32
  let v12 : BitVec 32 := Scalar.extui v11
  let c0_i32_5 : BitVec 32 := 0#32
  let v13 : BitVec 1 := Scalar.cmpi .ne v12 c0_i32_5
  v13

def k0_cond2 (i : grid0.Coords) : BitVec 1 :=
  let arg1 : BitVec 32 := BitVec.ofNat 32 (i 1).val
  let c0_i32_6 : BitVec 32 := 0#32
  let v14 : BitVec 1 := Scalar.cmpi .sgt arg1 c0_i32_6
  let v15 : BitVec 32 := Scalar.extui v14
  let c0_i32_7 : BitVec 32 := 0#32
  let v16 : BitVec 1 := Scalar.cmpi .ne v15 c0_i32_7
  v16

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![2, 16], ![false, false]⟩

def cc1_transform_0 (i : grid1.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage1_0 : Fin 2 → Memref sig .tc .vmem S2x256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S2x256x2 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S256x2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S2x256x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  bcast_S256_S256x1_0 : S256.BroadcastsInDim S256x1 (![0] : Fin 1 → Fin S256x1.rank)
  concatenates_S256x1_S256x1_S256x2_d1 : Shape.Concatenates [S256x1, S256x1] S256x2 1
  shapeCasts_S64x256x4096_S64x256x2048x2 : S64x256x4096.ShapeCasts S64x256x2048x2
  reducesTo_S64x256x2048x2_S64x256x2048_d3 : S64x256x2048x2.ReducesTo [3] S64x256x2048
  h_S_ : 0 < S_.numel
  inb_S4x256x2048_S4x256x2048_0_0_0 : ∀ a, (![0, 0, 0] : Fin 3 → Nat) a + S4x256x2048.size a ≤ S4x256x2048.size a
  h_S4x256x2048 : 0 < S4x256x2048.numel
  shapeCasts_S4x256x2048_S4x256x2048 : S4x256x2048.ShapeCasts S4x256x2048
  reduces_S4x256x2048_S4x256 : S4x256x2048.Reduces [2] S4x256
  shapeCasts_S4x256_S4x256x1 : S4x256.ShapeCasts S4x256x1
  reduces_S4x256x1_S256x1 : S4x256x1.Reduces [0] S256x1
  shapeCasts_S256x2_S1x256x2 : S256x2.ShapeCasts S1x256x2
  inb_S1x256x2_S1x256x2_0_0_0 : ∀ a, (![0, 0, 0] : Fin 3 → Nat) a + S1x256x2.size a ≤ S1x256x2.size a
  h_S1x256x2 : 0 < S1x256x2.numel
  shapeCasts_S1x256x2_S1x256x2 : S1x256x2.ShapeCasts S1x256x2
  inb_S2x256x2_S2x256x2_0_0_0 : ∀ a, (![0, 0, 0] : Fin 3 → Nat) a + S2x256x2.size a ≤ S2x256x2.size a
  h_S2x256x2 : 0 < S2x256x2.numel
  shapeCasts_S2x256x2_S2x256x2 : S2x256x2.ShapeCasts S2x256x2
  slices_S2x256x2_o0_0_0_S1x256x2 : S2x256x2.Slices ![0, 0, 0] S1x256x2
  shapeCasts_S1x256x2_S256x2 : S1x256x2.ShapeCasts S256x2
  slices_S2x256x2_o1_0_0_S1x256x2 : S2x256x2.Slices ![1, 0, 0] S1x256x2
  slices_S256x2_o0_0_S256x1 : S256x2.Slices ![0, 0] S256x1
  slices_S256x2_o0_1_S256x1 : S256x2.Slices ![0, 1] S256x1
  inb_S256x2_S256x1_0_0 : ∀ a, (![0, 0] : Fin 2 → Nat) a + S256x1.size a ≤ S256x2.size a
  h_S256x1 : 0 < S256x1.numel
  shapeCasts_S256x1_S256x1 : S256x1.ShapeCasts S256x1
  inb_S256x2_S256x1_0_1 : ∀ a, (![0, 1] : Fin 2 → Nat) a + S256x1.size a ≤ S256x2.size a
  inb_S2x256x2048_S2x256x2048_0_0_0 : ∀ a, (![0, 0, 0] : Fin 3 → Nat) a + S2x256x2048.size a ≤ S2x256x2048.size a
  h_S2x256x2048 : 0 < S2x256x2048.numel
  shapeCasts_S2x256x2048_S2x256x2048 : S2x256x2048.ShapeCasts S2x256x2048
  shapeCasts_S256x1_S1x256x1 : S256x1.ShapeCasts S1x256x1
  broadcasts_S1x256x1_S2x256x2048 : S1x256x1.Broadcasts S2x256x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x256x2048.size a ≤ S64x256x2048.size a
  hwx0_0 : ∀ i : grid0.Coords, EltTy.bits .f32 = 32 ∨ (Rect.block (s := S64x256x2048) S4x256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x2.size a ≤ S2x256x2.size a
  hwx0_1 : ∀ i : grid0.Coords, EltTy.bits .f32 = 32 ∨ (Rect.block (s := S2x256x2) S1x256x2.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2x256x2048.size a ≤ S64x256x2048.size a
  hwx1_0 : ∀ i : grid1.Coords, EltTy.bits .f32 = 32 ∨ (Rect.block (s := S64x256x2048) S2x256x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2x256x2.size a ≤ S2x256x2.size a
  hwx1_1 : ∀ i : grid1.Coords, EltTy.bits .f32 = 32 ∨ (Rect.block (s := S2x256x2) S2x256x2.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x2.size a ≤ S256x2.size a
  hwx1_2 : ∀ i : grid1.Coords, EltTy.bits .f32 = 32 ∨ (Rect.block (s := S256x2) S256x2.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2x256x2048.size a ≤ S64x256x2048.size a
  hwx1_3 : ∀ i : grid1.Coords, EltTy.bits .f32 = 32 ∨ (Rect.block (s := S64x256x2048) S2x256x2048.size (cc1_transform_3 i) (hinb1_3 i)).WholeWords (EltTy.packing .f32)

variable [Facts₀]

abbrev win0_0 : Pipeline.Window sig grid0 :=
  Pipeline.Window.ofSpec (Memref.whole main_call0_v4) S4x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v5) S1x256x2.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond1 i == 1#1) && !(k0_cond2 i == 1#1) | ⟨_ + 2, h⟩ => absurd h (Nat.not_lt.2 (Nat.le_add_left _ _))

abbrev win1_0 : Pipeline.Window sig grid1 :=
  Pipeline.Window.ofSpec (Memref.whole main_call0_v4) S2x256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v5) S2x256x2.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v2) S256x2.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v0) S2x256x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S64x256x4096 : Shape := ⟨3, ![64, 256, 4096]⟩
abbrev S256 : Shape := ⟨1, ![256]⟩
abbrev S64x256x2048x2 : Shape := ⟨4, ![64, 256, 2048, 2]⟩
abbrev S_ : Shape := ⟨0, ![]⟩
abbrev S64x256x2048 : Shape := ⟨3, ![64, 256, 2048]⟩
abbrev S256x1 : Shape := ⟨2, ![256, 1]⟩
abbrev S256x2 : Shape := ⟨2, ![256, 2]⟩
abbrev S1x256x2048 : Shape := ⟨3, ![1, 256, 2048]⟩
abbrev S1x256 : Shape := ⟨2, ![1, 256]⟩
abbrev S1x256x1 : Shape := ⟨3, ![1, 256, 1]⟩

abbrev nBuf : Space → Nat
  | .hbm => 11
  | .vmem => 9
  | .smem => 0
  | _ => 0

abbrev bufTy : (tb : Table) → Fin (tcTables nBuf tb) → BufTy
  | .hbm, ⟨0, _⟩ => ⟨S64x256x4096, .f32⟩
  | .hbm, ⟨1, _⟩ => ⟨S256, .f32⟩
  | .hbm, ⟨2, _⟩ => ⟨S256, .f32⟩
  | .hbm, ⟨3, _⟩ => ⟨S64x256x2048x2, .f32⟩
  | .hbm, ⟨4, _⟩ => ⟨S_, .f32⟩
  | .hbm, ⟨5, _⟩ => ⟨S64x256x2048, .f32⟩
  | .hbm, ⟨6, _⟩ => ⟨S256x1, .f32⟩
  | .hbm, ⟨7, _⟩ => ⟨S256x1, .f32⟩
  | .hbm, ⟨8, _⟩ => ⟨S256x2, .f32⟩
  | .hbm, ⟨9, _⟩ => ⟨S256x2, .f32⟩
  | .hbm, ⟨10, _⟩ => ⟨S64x256x2048, .f32⟩
  | .local _ .vmem, ⟨0, _⟩ => ⟨S1x256x2048, .f32⟩
  | .local _ .vmem, ⟨1, _⟩ => ⟨S1x256x2048, .f32⟩
  | .local _ .vmem, ⟨2, _⟩ => ⟨S256x2, .f32⟩
  | .local _ .vmem, ⟨3, _⟩ => ⟨S256x2, .f32⟩
  | .local _ .vmem, ⟨4, _⟩ => ⟨S1x256x2048, .f32⟩
  | .local _ .vmem, ⟨5, _⟩ => ⟨S1x256x2048, .f32⟩
  | .local _ .vmem, ⟨6, _⟩ => ⟨S256x2, .f32⟩
  | .local _ .vmem, ⟨7, _⟩ => ⟨S1x256x2048, .f32⟩
  | .local _ .vmem, ⟨8, _⟩ => ⟨S1x256x2048, .f32⟩
  | _, _ => ⟨S64x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v10 : BitVec 1 := Scalar.cmpi .eq arg0 c0_i32
  let v11 : BitVec 32 := Scalar.extui v10
  let c0_i32_5 : BitVec 32 := 0#32
  let v12 : BitVec 1 := Scalar.cmpi .ne v11 c0_i32_5
  v12

def k0_cond2 (i : grid0.Coords) : BitVec 1 :=
  let arg0 : BitVec 32 := BitVec.ofNat 32 (i 0).val
  let c0_i32_6 : BitVec 32 := 0#32
  let v13 : BitVec 1 := Scalar.cmpi .sgt arg0 c0_i32_6
  let v14 : BitVec 32 := Scalar.extui v13
  let c0_i32_7 : BitVec 32 := 0#32
  let v15 : BitVec 1 := Scalar.cmpi .ne v14 c0_i32_7
  v15

def k0_cond3 (i : grid0.Coords) : BitVec 1 :=
  let arg0 : BitVec 32 := BitVec.ofNat 32 (i 0).val
  let c63_i32 : BitVec 32 := 63#32
  let v16 : BitVec 1 := Scalar.cmpi .eq arg0 c63_i32
  let v17 : BitVec 32 := Scalar.extui v16
  let c0_i32_8 : BitVec 32 := 0#32
  let v18 : BitVec 1 := Scalar.cmpi .ne v17 c0_i32_8
  v18

def cc0_transform_0 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![64], ![false]⟩

def cc1_transform_0 (i : grid1.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

abbrev stage1_0 : Fin 2 → Memref sig .tc .vmem S1x256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x2 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x256x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S64x256x4096_S64x256x2048x2 : S64x256x4096.ShapeCasts S64x256x2048x2
  reducesTo_S64x256x2048x2_S64x256x2048_d3 : S64x256x2048x2.ReducesTo [3] S64x256x2048
  h_S_ : 0 < S_.numel
  bcast_S256_S256x1_0 : S256.BroadcastsInDim S256x1 (![0] : Fin 1 → Fin S256x1.rank)
  concatenates_S256x1_S256x1_S256x2_d1 : Shape.Concatenates [S256x1, S256x1] S256x2 1
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S1x256x2048 : S1x256x2048.ShapeCasts S1x256x2048
  reduces_S1x256x2048_S1x256 : S1x256x2048.Reduces [2] S1x256
  shapeCasts_S1x256_S1x256x1 : S1x256.ShapeCasts S1x256x1
  reduces_S1x256x1_S256x1 : S1x256x1.Reduces [0] S256x1
  inb_S256x2_S256x2_0_0 : ∀ a, (![0, 0] : Fin 2 → Nat) a + S256x2.size a ≤ S256x2.size a
  h_S256x2 : 0 < S256x2.numel
  shapeCasts_S256x2_S256x2 : S256x2.ShapeCasts S256x2
  inb_S256x2_S256x1_0_0 : ∀ a, (![0, 0] : Fin 2 → Nat) a + S256x1.size a ≤ S256x2.size a
  h_S256x1 : 0 < S256x1.numel
  shapeCasts_S256x1_S256x1 : S256x1.ShapeCasts S256x1
  inb_S256x2_S256x1_0_1 : ∀ a, (![0, 1] : Fin 2 → Nat) a + S256x1.size a ≤ S256x2.size a
  shapeCasts_S256x1_S1x256x1 : S256x1.ShapeCasts S1x256x1
  broadcasts_S1x256x1_S1x256x2048 : S1x256x1.Broadcasts S1x256x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S64x256x2048.size a
  hwx0_0 : ∀ i : grid0.Coords, EltTy.bits .f32 = 32 ∨ (Rect.block (s := S64x256x2048) S1x256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x2.size a ≤ S256x2.size a
  hwx0_1 : ∀ i : grid0.Coords, EltTy.bits .f32 = 32 ∨ (Rect.block (s := S256x2) S256x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x2.size a ≤ S256x2.size a
  hwx0_2 : ∀ i : grid0.Coords, EltTy.bits .f32 = 32 ∨ (Rect.block (s := S256x2) S256x2.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x2048.size a ≤ S64x256x2048.size a
  hwx1_0 : ∀ i : grid1.Coords, EltTy.bits .f32 = 32 ∨ (Rect.block (s := S64x256x2048) S1x256x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x2.size a ≤ S256x2.size a
  hwx1_1 : ∀ i : grid1.Coords, EltTy.bits .f32 = 32 ∨ (Rect.block (s := S256x2) S256x2.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256x2048.size a ≤ S64x256x2048.size a
  hwx1_2 : ∀ i : grid1.Coords, EltTy.bits .f32 = 32 ∨ (Rect.block (s := S64x256x2048) S1x256x2048.size (cc1_transform_2 i) (hinb1_2 i)).WholeWords (EltTy.packing .f32)

variable [Facts₀]

abbrev win0_0 : Pipeline.Window sig grid0 :=
  Pipeline.Window.ofSpec (Memref.whole main_call0_v1) S1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v4) S256x2.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v5) S256x2.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond2 i == 1#1) && !(k0_cond3 i == 1#1) | ⟨_ + 3, h⟩ => absurd h (Nat.not_lt.2 (Nat.le_add_left _ _))

abbrev win1_0 : Pipeline.Window sig grid1 :=
  Pipeline.Window.ofSpec (Memref.whole main_call0_v1) S1x256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v5) S256x2.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x256x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== Proof.BitStats.lean ====
/-
  Region 0 of the program: the statistics kernel on the grid (2, 8). At point (c, j) the body reads a tile of four
  batch rows of the pooled array and forms, per channel, the pair (sum, sum of squares) over the tile; at j = 0 it
  stores the pair into the output block of half c, at j > 0 it adds the pair to what the block holds. The output
  block is the same for the eight points of a half and is written back after the last of them, so between two
  points of a half its staging buffer keeps what the point before left: the running sum.
  This module states what the buffer holds after each point (by recursion on the point), the body's run in each of
  the two cases, and the pipeline's proof data and body obligation, at any buffer contents `V` the region is
  entered with and at any float instance.
-/
import proofs.«144913_g2000205710372994_pallasbulk_301_4_alg».proof.Proof.Gen.Kernel.Launch
import proofs.«144913_g2000205710372994_pallasbulk_301_4_alg».proof.Proof.Gen.Kernel.Skeleton
import proofs.«144913_g2000205710372994_pallasbulk_301_4_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The two branch conditions over the grid -/

/-- The first branch (store the pair) is taken at the first point of each half only. -/
theorem hcond0_0 : ∀ t : Fin cfg0.N, k0_cond1 (grid0.coords t) = 1#1 ↔ t.val % 8 = 0 :=
  (by decide +kernel : ∀ t : Fin grid0.N, k0_cond1 (grid0.coords t) = 1#1 ↔ t.val % 8 = 0)
/-- The second branch (add the pair) is taken at every other point. -/
theorem hcond0_1 : ∀ t : Fin cfg0.N, k0_cond2 (grid0.coords t) = 1#1 ↔ ¬ t.val % 8 = 0 :=
  (by decide +kernel : ∀ t : Fin grid0.N, k0_cond2 (grid0.coords t) = 1#1 ↔ ¬ t.val % 8 = 0)
/-- One of the two branches stores into the output at every grid coordinate: the window is never idle. -/
theorem live0_1 : ∀ i : grid0.Coords, cfg0.idle 1 i = false := by
  intro i
  have key : ∀ k : Fin 8,
      (!(Scalar.cmpi .ne (Scalar.extui (Scalar.cmpi .eq (BitVec.ofNat 32 k.val) 0#32)) 0#32 == 1#1)
        && !(Scalar.cmpi .ne (Scalar.extui (Scalar.cmpi .sgt (BitVec.ofNat 32 k.val) 0#32)) 0#32 == 1#1)) = false := by
    decide +kernel
  exact key (i 1)

/-! ## The staging memrefs at a point -/

abbrev VO0_1 : View sig .tc .vmem S1x256x2 .f32 := (Memref.whole cc0_stg1_0 : Memref sig .tc .vmem S1x256x2 .f32).view
abbrev ms0_0 (t : Fin cfg0.N) : Memref sig .tc .vmem S4x256x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x2 .f32 := win0_1.stage (cfg0.slots t 1)
abbrev hs0_1 (t : Fin cfg0.N) : (ms0_1 t).IsWhole := hstage0_1 ((cfg0.slots t 1).cast nbuf0_1)

/-! ## The body's run in each case -/

set_option maxHeartbeats 1000000 in
/-- First point of a half: the body stores the tile's pair over whatever the buffer held. -/
noncomputable def kernelRun0_A (c : Dev nD) (i : grid0.Coords) (arg2 : Memref sig .tc .vmem S4x256x2048 .f32) (harg2 : arg2.IsWhole) (arg3 : Memref sig .tc .vmem S1x256x2 .f32) (harg3 : arg3.IsWhole)
    (hc0 : k0_cond1 i = 1#1) (hc1 : ¬ k0_cond2 i = 1#1) (x0 : Vec F S4x256x2048 .f32) :
    { L1 : List (View.Piece (Elt F) S1x256x2 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__stats_kernel i arg2 harg2 arg3 harg3) K } := by
  refine ⟨?_, fun E K => ?run⟩
  case run =>
    simp only [cc0__stats_kernel_eq_skeleton]; unfold cc0__stats_kernel_skel
    unfold owns
    iintro ⟨⟨%f0, %hf0, H0⟩, ⟨%d1, %f1, -, H1⟩, Hk⟩
    obtain rfl := harg2.eq_unread hf0
    sl_exec (disch := first | exact hc0 | exact hc1)
    sl_step
    iapply Hk
    isplitl [H0]
    · iexists _; isplitr; · ipureintro; exact harg2.read_unread _
      iexact H0
    iexists _; iexact H1

set_option maxHeartbeats 1000000 in
/-- A later point of a half: the body adds the tile's pair to what the buffer holds. -/
noncomputable def kernelRun0_B (c : Dev nD) (i : grid0.Coords) (arg2 : Memref sig .tc .vmem S4x256x2048 .f32) (harg2 : arg2.IsWhole) (arg3 : Memref sig .tc .vmem S1x256x2 .f32) (harg3 : arg3.IsWhole)
    (hc0 : ¬ k0_cond1 i = 1#1) (hc1 : k0_cond2 i = 1#1) (x0 : Vec F S4x256x2048 .f32) (xo1 : Vec F S1x256x2 .f32) :
    { L1 : List (View.Piece (Elt F) S1x256x2 .f32) //
      ∀ (E : Set ℕ) (K : PUnit → sProp 𝕄),
        iprop(owns (c : Thread nD τ) arg2 fullShare x0 ∗ owns (c : Thread nD τ) arg3 fullShare xo1
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__stats_kernel i arg2 harg2 arg3 harg3) K } := by
  refine ⟨?_, fun E K => ?run⟩
  case run =>
    simp only [cc0__stats_kernel_eq_skeleton]; unfold cc0__stats_kernel_skel
    unfold owns
    iintro ⟨⟨%f0, %hf0, H0⟩, ⟨%f1, %hf1, H1⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    iexists _; iexact H1

/-- The store of the first case covers the block. -/
theorem cover0_A_1 (c : Dev nD) (i : grid0.Coords) (arg2 : Memref sig .tc .vmem S4x256x2048 .f32) (harg2 : arg2.IsWhole) (arg3 : Memref sig .tc .vmem S1x256x2 .f32) (harg3 : arg3.IsWhole)
    (hc0 : k0_cond1 i = 1#1) (hc1 : ¬ k0_cond2 i = 1#1) (x0 : Vec F S4x256x2048 .f32) (y : S1x256x2.Idx) :
    ∃ pc ∈ (kernelRun0_A c i arg2 harg2 arg3 harg3 hc0 hc1 x0).1, y ∈ pc.1.set :=
  View.cover_of_tiledL (kernelRun0_A c i arg2 harg2 arg3 harg3 hc0 hc1 x0).1 S1x256x2.size (by sl_kernel_rfl) y

/-- What the first case leaves in the output's staging buffer. -/
def out0_A_1 (c : Dev nD) (i : grid0.Coords) (arg2 : Memref sig .tc .vmem S4x256x2048 .f32) (harg2 : arg2.IsWhole) (arg3 : Memref sig .tc .vmem S1x256x2 .f32) (harg3 : arg3.IsWhole)
    (hc0 : k0_cond1 i = 1#1) (hc1 : ¬ k0_cond2 i = 1#1) (x0 : Vec F S4x256x2048 .f32) : Vec F S1x256x2 .f32 :=
  VO0_1.read (Elt F) (VO0_1.writes (Elt F) VO0_1.junk (kernelRun0_A c i arg2 harg2 arg3 harg3 hc0 hc1 x0).1)

/-- The store of the second case covers the block. -/
theorem cover0_B_1 (c : Dev nD) (i : grid0.Coords) (arg2 : Memref sig .tc .vmem S4x256x2048 .f32) (harg2 : arg2.IsWhole) (arg3 : Memref sig .tc .vmem S1x256x2 .f32) (harg3 : arg3.IsWhole)
    (hc0 : ¬ k0_cond1 i = 1#1) (hc1 : k0_cond2 i = 1#1) (x0 : Vec F S4x256x2048 .f32) (xo1 : Vec F S1x256x2 .f32) (y : S1x256x2.Idx) :
    ∃ pc ∈ (kernelRun0_B c i arg2 harg2 arg3 harg3 hc0 hc1 x0 xo1).1, y ∈ pc.1.set :=
  View.cover_of_tiledL (kernelRun0_B c i arg2 harg2 arg3 harg3 hc0 hc1 x0 xo1).1 S1x256x2.size (by sl_kernel_rfl) y

/-- What the second case leaves in the output's staging buffer. -/
def out0_B_1 (c : Dev nD) (i : grid0.Coords) (arg2 : Memref sig .tc .vmem S4x256x2048 .f32) (harg2 : arg2.IsWhole) (arg3 : Memref sig .tc .vmem S1x256x2 .f32) (harg3 : arg3.IsWhole)
    (hc0 : ¬ k0_cond1 i = 1#1) (hc1 : k0_cond2 i = 1#1) (x0 : Vec F S4x256x2048 .f32) (xo1 : Vec F S1x256x2 .f32) : Vec F S1x256x2 .f32 :=
  VO0_1.read (Elt F) (VO0_1.writes (Elt F) VO0_1.junk (kernelRun0_B c i arg2 harg2 arg3 harg3 hc0 hc1 x0 xo1).1)

/-! ## What the output's staging buffer holds after each point -/

/-- The running sum: at the first point of a half the tile's pair; at a later point the pair added to what the point
    before left. -/
def outsAt0 (c : Dev nD) : (n : ℕ) → n < cfg0.N → Vec F S1x256x2 .f32
  | 0, hn => out0_A_1 c (grid0.coords ⟨0, hn⟩) (ms0_0 ⟨0, hn⟩) (hs0_0 ⟨0, hn⟩) (ms0_1 ⟨0, hn⟩) (hs0_1 ⟨0, hn⟩)
      ((hcond0_0 ⟨0, hn⟩).mpr (Nat.zero_mod _)) (fun h => (hcond0_1 ⟨0, hn⟩).mp h (Nat.zero_mod _)) (iblk0 V c 0 ⟨0, hn⟩)
  | n + 1, hn =>
    if h0 : (n + 1) % 8 = 0 then
      out0_A_1 c (grid0.coords ⟨n + 1, hn⟩) (ms0_0 ⟨n + 1, hn⟩) (hs0_0 ⟨n + 1, hn⟩) (ms0_1 ⟨n + 1, hn⟩) (hs0_1 ⟨n + 1, hn⟩)
        ((hcond0_0 ⟨n + 1, hn⟩).mpr h0) (fun h => (hcond0_1 ⟨n + 1, hn⟩).mp h h0) (iblk0 V c 0 ⟨n + 1, hn⟩)
    else
      out0_B_1 c (grid0.coords ⟨n + 1, hn⟩) (ms0_0 ⟨n + 1, hn⟩) (hs0_0 ⟨n + 1, hn⟩) (ms0_1 ⟨n + 1, hn⟩) (hs0_1 ⟨n + 1, hn⟩)
        (fun h => h0 ((hcond0_0 ⟨n + 1, hn⟩).mp h)) ((hcond0_1 ⟨n + 1, hn⟩).mpr h0) (iblk0 V c 0 ⟨n + 1, hn⟩) (outsAt0 c n (Nat.lt_of_succ_lt hn))

/-- At the first point of a half. -/
theorem outsAt0_A (c : Dev nD) (t : Fin cfg0.N) (h0 : t.val % 8 = 0) :
    outsAt0 V c t.val t.isLt = out0_A_1 c (grid0.coords t) (ms0_0 t) (hs0_0 t) (ms0_1 t) (hs0_1 t)
      ((hcond0_0 t).mpr h0) (fun h => (hcond0_1 t).mp h h0) (iblk0 V c 0 t) := by
  obtain ⟨n, hn⟩ := t
  cases n with
  | zero => exact rfl
  | succ n => exact (dif_pos h0).trans rfl

/-- At a later point of a half. -/
theorem outsAt0_B (c : Dev nD) (t : Fin cfg0.N) (h0 : ¬t.val % 8 = 0) :
    outsAt0 V c t.val t.isLt = out0_B_1 c (grid0.coords t) (ms0_0 t) (hs0_0 t) (ms0_1 t) (hs0_1 t)
      (fun h => h0 ((hcond0_0 t).mp h)) ((hcond0_1 t).mpr h0) (iblk0 V c 0 t)
      (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at a point the input's buffer at its block and the output's
    at the running sum; the invariant the untouched scoped rest; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d

/-- At a later point of a half the output's staging buffer holds what the body left at the point before: the buffer
    was not written back between. -/
theorem before0_1_B (c : Dev nD) (t : Fin cfg0.N) (h0 : ¬t.val % 8 = 0) (d) :
    (dat0 V c).before 1 t d = (outsAt0 V c (t.val - 1) (Nat.lt_of_le_of_lt (Nat.sub_le _ _) t.isLt)) := by
  have hN : t.val < 16 := lt_of_lt_of_eq t.isLt (show cfg0.N = 16 from N_0)
  rw [Dat.before_out_kept _ 1 rfl t (by omega) (Bool.eq_false_iff.mpr fun h => by have := (flush0_1 _).mp h; dsimp only at this; omega)
    live0_1 (fun _ _ => rfl)]
  dsimp only [dat0]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t))

set_option maxHeartbeats 800000 in
/-- The body at any point: the input's memref holds its block; the closed forms say which case the point is in, and at a
    later point of a half the output's buffer holds the running sum so far. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  by_cases h0 : t.val % 8 = 0
  · rw [outsAt0_A V c t h0]
    unfold out0_A_1
    iintro ⟨HΦ, Ho, ⟨%d0, H0⟩, ⟨%d1, H1⟩⟩
    iapply ((kernelRun0_A c (grid0.coords t) _ _ _ _ ((hcond0_0 t).mpr h0) (fun h => (hcond0_1 t).mp h h0) (iblk0 V c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover0_A_1 c _ _ _ _ _ _ _ _)
  · rw [outsAt0_B V c t h0]
    simp only [before0_1_B V c t h0]
    unfold out0_B_1
    iintro ⟨HΦ, Ho, ⟨%d0, H0⟩, ⟨%d1, H1⟩⟩
    iapply ((kernelRun0_B c (grid0.coords t) _ _ _ _ (fun h => h0 ((hcond0_0 t).mp h)) ((hcond0_1 t).mpr h0) (iblk0 V c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover0_B_1 c _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  beta_reduce
  have hl : cfg0.idle (1 : Fin 2) (cfg0.grid.coords t) = false := live0_1 _
  rw [hl]
  exact sound_body0 V c t

end Cert.Kernel.Hand

end
-- ==== Proof.BitNorm.lean ====
/-
  The normalisation region (the second pallas_call) of the kernel program, at the buffer contents `V` the region
  is entered with. Its body reads three input blocks — the pooled tile, the two partial statistics rows, the
  stacked scale and shift — and overwrites the whole result tile with one store whose payload is a function of
  what it loaded. So what the body leaves in the result's staging buffer is a closed function of the input
  blocks at the point (`out1_3`), every input buffer holds its window's block at every point whether or not it
  was fetched there, and the pipeline's proof data and body obligation follow.
-/
import proofs.«144913_g2000205710372994_pallasbulk_301_4_alg».proof.Proof.Gen.Kernel.Launch
import proofs.«144913_g2000205710372994_pallasbulk_301_4_alg».proof.Proof.Gen.Kernel.Skeleton
import proofs.«144913_g2000205710372994_pallasbulk_301_4_alg».proof.Proof.Gen.Kernel.Points
import Idealize.ShloMosaic.Lib.Pipeline.FrameBody
import Idealize.ShloMosaic.Lib.Tactic

-- membership in a rectangle of these extents is decided by structural recursion, once per coordinate of the long axes
set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: every statement below is at this parameter
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): unfetched, the block index
    has not moved since the point before, whose block is then this point's. The window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): unfetched, the block index
    has not moved since the point before, whose block is then this point's. The window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): unfetched, the block index
    has not moved since the point before, whose block is then this point's. The window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- the whole statistics block, -/
abbrev r1_0 : Rect S2x256x2 := Rect.unit (s := S2x256x2) ![0, 0, 0] S2x256x2.size inb_S2x256x2_S2x256x2_0_0_0
/-- column 0 of the stacked pair (the scale), -/
abbrev r1_1 : Rect S256x2 := Rect.unit (s := S256x2) ![0, 0] S256x1.size inb_S256x2_S256x1_0_0
/-- column 1 (the shift), -/
abbrev r1_2 : Rect S256x2 := Rect.unit (s := S256x2) ![0, 1] S256x1.size inb_S256x2_S256x1_0_1
/-- a whole tile: the pooled input's and the result's. -/
abbrev r1_3 : Rect S2x256x2048 := Rect.unit (s := S2x256x2048) ![0, 0, 0] S2x256x2048.size inb_S2x256x2048_S2x256x2048_0_0_0

/-! ## What the body leaves in the result's buffer -/

/-- The result window's staging buffer after the body, from the input windows' blocks: its one store, of the
    normalised tile computed from the loads (`k1_pay1`), laid over anything. -/
def out1_3 (x0 : Vec F S2x256x2048 .f32) (x1 : Vec F S2x256x2 .f32) (x2 : Vec F S256x2 .f32) : Vec F S2x256x2048 .f32 :=
  View.canon [⟨r1_3, k1_pay1 (View.ld x1 r1_0) (View.ld x2 r1_1) (View.ld x2 r1_2) (View.ld x0 r1_3)⟩]

/-- The store is of the whole tile, so it covers the buffer (checked by evaluation on the rectangle). -/
theorem cover1_3 (p0 : Vec F S2x256x2048 .f32) (y : S2x256x2048.Idx) :
    ∃ pc ∈ ([⟨r1_3, p0⟩] : List (View.Piece (Elt F) S2x256x2048 .f32)), y ∈ pc.1.set :=
  View.cover_of_tiled [⟨r1_3, p0⟩] S2x256x2048.size (by rfl) y

/-! ## The body's triple -/

set_option maxHeartbeats 1000000 in
/-- The kernel body on whole staging memrefs, the inputs' at read contents `xW` and the result's at anything, runs to
    the continuation holding the inputs' as they were and the result's at `out1_3` of the inputs': the printed function
    and the part it calls are their skeletons, a sequence of four loads, a load of the result's buffer whose value is
    unused, and the one store. -/
theorem sound_kernel1 (c : Dev nD) (E : Set ℕ) (i : grid1.Coords)
    (arg2 : Memref sig .tc .vmem S2x256x2048 .f32) (harg2 : arg2.IsWhole) (arg3 : Memref sig .tc .vmem S2x256x2 .f32) (harg3 : arg3.IsWhole)
    (arg4 : Memref sig .tc .vmem S256x2 .f32) (harg4 : arg4.IsWhole) (arg5 : Memref sig .tc .vmem S2x256x2048 .f32) (harg5 : arg5.IsWhole)
    (x0 : Vec F S2x256x2048 .f32) (x1 : Vec F S2x256x2 .f32) (x2 : Vec F S256x2 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 x2)) -∗ K ⟨⟩))
      ⊢ wp frame (wpE (defs₀ (F := F)) Variants.none c none) E (cc1__norm_kernel i arg2 harg2 arg3 harg3 arg4 harg4 arg5 harg5) K := by
  simp only [cc1__norm_kernel_eq_skeleton]; unfold cc1__norm_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of the region's pipeline on core `c`: the arrays as the region finds them (`V`); after the body at
    point `t` each input's buffer at its block and the result's at `out1_3` of the input blocks; the invariant is the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BitRun.lean ====
/-
  The whole run of the program: the host operations (the pooling of pairs and the stacking of the two parameter
  vectors), then the two kernel regions one after the other. Between two items every unscoped buffer of the core is
  held at named contents: the launch memory, then the host operations' results over it, then — after a region — the
  region's arrays at what its write-backs leave and every other buffer as the region found it. Every weakly fair
  execution terminates, faults nowhere, and ends with every unscoped buffer at the last of these contents; an
  argument array is written by no item, so it ends as launched.
-/
import proofs.«144913_g2000205710372994_pallasbulk_301_4_alg».proof.Proof.BitStats
import proofs.«144913_g2000205710372994_pallasbulk_301_4_alg».proof.Proof.BitNorm
import proofs.«144913_g2000205710372994_pallasbulk_301_4_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host operations (region 0's entry). -/
abbrev W1 : Dev nD → Valuation τ sig (Elt F) := fun c => StableHlo.after hostOps0 (W0 m ρ c)
abbrev Ve0 : (c : Dev nD) → (b : Ref sig .tc) → Buf (Elt F) ((c : Thread nD τ).loc b) := fun c b => W1 m ρ c b
/-- At region 0's exit (region 1's entry): its arrays at what the pipeline leaves, every other buffer as entered. -/
def W2 (c : Dev nD) : Valuation τ sig (Elt F) :=
  Pipeline.withArrays spec0 c (W1 m ρ c) fun w => (dat0 (Ve0 m ρ) c).arrAt w cfg0.N
theorem W2_arr (c : Dev nD) (w : Fin cfg0.W) :
    W2 m ρ c (Proc.devRef .tc (Pipeline.arrRef spec0 w)) = (dat0 (Ve0 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev Ve1 : (c : Dev nD) → (b : Ref sig .tc) → Buf (Elt F) ((c : Thread nD τ).loc b) := fun c b => W2 m ρ c b
theorem hF0 (c : Dev nD) (w : Fin cfg0.W) : (dat0 (Ve0 m ρ) c).arrAt w cfg0.N = Ve1 m ρ c (Pipeline.arrRef spec0 w) :=
  (W2_arr m ρ c w).symm
theorem hrest0 (c : Dev nD) : ∀ b, b ∉ Finset.univ.image (Pipeline.arrRef spec0) → Ve1 m ρ c b = Ve0 m ρ c b :=
  fun b hb => W2_of_ne m ρ c b fun w e => hb (Finset.mem_image.mpr ⟨w, Finset.mem_univ _, e⟩)

/-- At region 1's exit: its arrays at what the pipeline leaves, every other buffer as entered. -/
def W3 (c : Dev nD) : Valuation τ sig (Elt F) :=
  Pipeline.withArrays spec1 c (W2 m ρ c) fun w => (dat1 (Ve1 m ρ) c).arrAt w cfg1.N
theorem W3_arr (c : Dev nD) (w : Fin cfg1.W) :
    W3 m ρ c (Proc.devRef .tc (Pipeline.arrRef spec1 w)) = (dat1 (Ve1 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev Vx1 : (c : Dev nD) → (b : Ref sig .tc) → Buf (Elt F) ((c : Thread nD τ).loc b) := fun c b => W3 m ρ c b
theorem hF1 (c : Dev nD) (w : Fin cfg1.W) : (dat1 (Ve1 m ρ) c).arrAt w cfg1.N = Vx1 m ρ c (Pipeline.arrRef spec1 w) :=
  (W3_arr m ρ c w).symm
theorem hrest1 (c : Dev nD) : ∀ b, b ∉ Finset.univ.image (Pipeline.arrRef spec1) → Vx1 m ρ c b = Ve1 m ρ c b :=
  fun b hb => W3_of_ne m ρ c b fun w e => hb (Finset.mem_image.mpr ⟨w, Finset.mem_univ _, e⟩)

/-! ### The arguments end as launched -/

/-- A buffer that is no array of either region and that no host operation writes ends as launched. -/
theorem W3_of_untouched (c : Dev nD) (b : Ref sig .tc) (h1 : ∀ w, Pipeline.arrRef spec1 w ≠ b) (h0 : ∀ w, Pipeline.arrRef spec0 w ≠ b)
    (hh : b ∉ hostOps0_W) : W3 m ρ c (Proc.devRef .tc b) = m ((c : Thread nD τ).loc b) :=
  (W3_of_ne m ρ c b h1).trans <| (W2_of_ne m ρ c b h0).trans <|
    (StableHlo.after_of_writes_sub hostOps0 _ hostOps0_writes hh).trans rfl

theorem W3_main_arg0 (c : Dev nD) : W3 m ρ c (Proc.devRef .tc main_arg0) = m ((c : Thread nD τ).loc main_arg0) :=
  W3_of_untouched m ρ c main_arg0 (by decide) (by decide) (by decide)
theorem W3_main_arg1 (c : Dev nD) : W3 m ρ c (Proc.devRef .tc main_arg1) = m ((c : Thread nD τ).loc main_arg1) :=
  W3_of_untouched m ρ c main_arg1 (by decide) (by decide) (by decide)
theorem W3_main_arg2 (c : Dev nD) : W3 m ρ c (Proc.devRef .tc main_arg2) = m ((c : Thread nD τ).loc main_arg2) :=
  W3_of_untouched m ρ c main_arg2 (by decide) (by decide) (by decide)

/-! ## The proof data family and the thread state -/

abbrev adm' : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm' p) c
  | ⟨0, _⟩ => fun c => dat0 (Ve0 m ρ) c
  | ⟨1, _⟩ => fun c => dat1 (Ve1 m ρ) c
abbrev 𝒱₀ : Variants := Variants.none
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- Region 0 over the thread state: entered from every unscoped buffer at `W1`, left at `W2`. -/
def reg0 : Pipeline.RegionSeg (pcfgs (F := F)) adm' (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve0 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (Ve0 m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (Ve0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (Ve0 m ρ c) (Ve1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. -/
def reg1 : Pipeline.RegionSeg (pcfgs (F := F)) adm' (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ve1 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Ve1 m ρ c)
  hentry c := by
    rw [Pipeline.ownSems0_none]
    have hsplit := Pipeline.arrays_of_unscopedBufs (p := 1) (pcfgs (F := F)) adm' (pdats m ρ) launch1.win launch1.arr_whole c
      ((pdats m ρ 1 c).share_full fun _ => rfl) (Ve1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m ρ) ((pdats m ρ 1 c).share_full fun _ => rfl)
      (Ve1 m ρ c) (Vx1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segsH : List (Pipeline.Seg (pcfgs (F := F)) adm' (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segsH m ρ) := (main_chain c).trans (by chain_rfl)

set_option backward.isDefEq.respectTransparency.types false in
/-- Every weakly fair execution of the program terminates, nothing faulting, and every final state holds each unscoped
    buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm' (pdats m ρ) () cellOf_inj emb₁ defs₀ 𝒱₀ L lv m ρ main (segsH m ρ)
    (fun c Q => by rw [main_run m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_all m ρ)

end Cert.Kernel.Hand

end
-- ==== Proof.KerStats.lean ====
/-
  Region 0 of the program: the statistics kernel on the grid (2, 8). At point (c, j) the body reads a tile of four
  batch rows of the pooled array and forms, per channel, the pair (sum, sum of squares) over the tile; at j = 0 it
  stores the pair into the output block of half c, at j > 0 it adds the pair to what the block holds. The output
  block is the same for the eight points of a half and is written back after the last of them, so between two
  points of a half its staging buffer keeps what the point before left: the running sum.
  This module states what the buffer holds after each point (by recursion on the point), the body's run in each of
  the two cases, and the pipeline's proof data and body obligation, at any buffer contents `V` the region is
  entered with and at any float instance.
-/
import proofs.«144913_g2000205710372994_pallasbulk_301_4_alg».proof.Proof.Gen.KernelIdeal.Launch
import proofs.«144913_g2000205710372994_pallasbulk_301_4_alg».proof.Proof.Gen.KernelIdeal.Skeleton
import proofs.«144913_g2000205710372994_pallasbulk_301_4_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The two branch conditions over the grid -/

/-- The first branch (store the pair) is taken at the first point of each half only. -/
theorem hcond0_0 : ∀ t : Fin cfg0.N, k0_cond1 (grid0.coords t) = 1#1 ↔ t.val % 8 = 0 :=
  (by decide +kernel : ∀ t : Fin grid0.N, k0_cond1 (grid0.coords t) = 1#1 ↔ t.val % 8 = 0)
/-- The second branch (add the pair) is taken at every other point. -/
theorem hcond0_1 : ∀ t : Fin cfg0.N, k0_cond2 (grid0.coords t) = 1#1 ↔ ¬ t.val % 8 = 0 :=
  (by decide +kernel : ∀ t : Fin grid0.N, k0_cond2 (grid0.coords t) = 1#1 ↔ ¬ t.val % 8 = 0)
/-- One of the two branches stores into the output at every grid coordinate: the window is never idle. -/
theorem live0_1 : ∀ i : grid0.Coords, cfg0.idle 1 i = false := by
  intro i
  have key : ∀ k : Fin 8,
      (!(Scalar.cmpi .ne (Scalar.extui (Scalar.cmpi .eq (BitVec.ofNat 32 k.val) 0#32)) 0#32 == 1#1)
        && !(Scalar.cmpi .ne (Scalar.extui (Scalar.cmpi .sgt (BitVec.ofNat 32 k.val) 0#32)) 0#32 == 1#1)) = false := by
    decide +kernel
  exact key (i 1)

/-! ## The staging memrefs at a point -/

abbrev VO0_1 : View sig .tc .vmem S1x256x2 .f32 := (Memref.whole cc0_stg1_0 : Memref sig .tc .vmem S1x256x2 .f32).view
abbrev ms0_0 (t : Fin cfg0.N) : Memref sig .tc .vmem S4x256x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x2 .f32 := win0_1.stage (cfg0.slots t 1)
abbrev hs0_1 (t : Fin cfg0.N) : (ms0_1 t).IsWhole := hstage0_1 ((cfg0.slots t 1).cast nbuf0_1)

/-! ## The body's run in each case -/

set_option maxHeartbeats 1000000 in
/-- First point of a half: the body stores the tile's pair over whatever the buffer held. -/
noncomputable def kernelRun0_A (c : Dev nD) (i : grid0.Coords) (arg2 : Memref sig .tc .vmem S4x256x2048 .f32) (harg2 : arg2.IsWhole) (arg3 : Memref sig .tc .vmem S1x256x2 .f32) (harg3 : arg3.IsWhole)
    (hc0 : k0_cond1 i = 1#1) (hc1 : ¬ k0_cond2 i = 1#1) (x0 : Vec F S4x256x2048 .f32) :
    { L1 : List (View.Piece (Elt F) S1x256x2 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__stats_kernel i arg2 harg2 arg3 harg3) K } := by
  refine ⟨?_, fun E K => ?run⟩
  case run =>
    simp only [cc0__stats_kernel_eq_skeleton]; unfold cc0__stats_kernel_skel
    unfold owns
    iintro ⟨⟨%f0, %hf0, H0⟩, ⟨%d1, %f1, -, H1⟩, Hk⟩
    obtain rfl := harg2.eq_unread hf0
    sl_exec (disch := first | exact hc0 | exact hc1)
    sl_step
    iapply Hk
    isplitl [H0]
    · iexists _; isplitr; · ipureintro; exact harg2.read_unread _
      iexact H0
    iexists _; iexact H1

set_option maxHeartbeats 1000000 in
/-- A later point of a half: the body adds the tile's pair to what the buffer holds. -/
noncomputable def kernelRun0_B (c : Dev nD) (i : grid0.Coords) (arg2 : Memref sig .tc .vmem S4x256x2048 .f32) (harg2 : arg2.IsWhole) (arg3 : Memref sig .tc .vmem S1x256x2 .f32) (harg3 : arg3.IsWhole)
    (hc0 : ¬ k0_cond1 i = 1#1) (hc1 : k0_cond2 i = 1#1) (x0 : Vec F S4x256x2048 .f32) (xo1 : Vec F S1x256x2 .f32) :
    { L1 : List (View.Piece (Elt F) S1x256x2 .f32) //
      ∀ (E : Set ℕ) (K : PUnit → sProp 𝕄),
        iprop(owns (c : Thread nD τ) arg2 fullShare x0 ∗ owns (c : Thread nD τ) arg3 fullShare xo1
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__stats_kernel i arg2 harg2 arg3 harg3) K } := by
  refine ⟨?_, fun E K => ?run⟩
  case run =>
    simp only [cc0__stats_kernel_eq_skeleton]; unfold cc0__stats_kernel_skel
    unfold owns
    iintro ⟨⟨%f0, %hf0, H0⟩, ⟨%f1, %hf1, H1⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    iexists _; iexact H1

/-- The store of the first case covers the block. -/
theorem cover0_A_1 (c : Dev nD) (i : grid0.Coords) (arg2 : Memref sig .tc .vmem S4x256x2048 .f32) (harg2 : arg2.IsWhole) (arg3 : Memref sig .tc .vmem S1x256x2 .f32) (harg3 : arg3.IsWhole)
    (hc0 : k0_cond1 i = 1#1) (hc1 : ¬ k0_cond2 i = 1#1) (x0 : Vec F S4x256x2048 .f32) (y : S1x256x2.Idx) :
    ∃ pc ∈ (kernelRun0_A c i arg2 harg2 arg3 harg3 hc0 hc1 x0).1, y ∈ pc.1.set :=
  View.cover_of_tiledL (kernelRun0_A c i arg2 harg2 arg3 harg3 hc0 hc1 x0).1 S1x256x2.size (by sl_kernel_rfl) y

/-- What the first case leaves in the output's staging buffer. -/
def out0_A_1 (c : Dev nD) (i : grid0.Coords) (arg2 : Memref sig .tc .vmem S4x256x2048 .f32) (harg2 : arg2.IsWhole) (arg3 : Memref sig .tc .vmem S1x256x2 .f32) (harg3 : arg3.IsWhole)
    (hc0 : k0_cond1 i = 1#1) (hc1 : ¬ k0_cond2 i = 1#1) (x0 : Vec F S4x256x2048 .f32) : Vec F S1x256x2 .f32 :=
  VO0_1.read (Elt F) (VO0_1.writes (Elt F) VO0_1.junk (kernelRun0_A c i arg2 harg2 arg3 harg3 hc0 hc1 x0).1)

/-- The store of the second case covers the block. -/
theorem cover0_B_1 (c : Dev nD) (i : grid0.Coords) (arg2 : Memref sig .tc .vmem S4x256x2048 .f32) (harg2 : arg2.IsWhole) (arg3 : Memref sig .tc .vmem S1x256x2 .f32) (harg3 : arg3.IsWhole)
    (hc0 : ¬ k0_cond1 i = 1#1) (hc1 : k0_cond2 i = 1#1) (x0 : Vec F S4x256x2048 .f32) (xo1 : Vec F S1x256x2 .f32) (y : S1x256x2.Idx) :
    ∃ pc ∈ (kernelRun0_B c i arg2 harg2 arg3 harg3 hc0 hc1 x0 xo1).1, y ∈ pc.1.set :=
  View.cover_of_tiledL (kernelRun0_B c i arg2 harg2 arg3 harg3 hc0 hc1 x0 xo1).1 S1x256x2.size (by sl_kernel_rfl) y

/-- What the second case leaves in the output's staging buffer. -/
def out0_B_1 (c : Dev nD) (i : grid0.Coords) (arg2 : Memref sig .tc .vmem S4x256x2048 .f32) (harg2 : arg2.IsWhole) (arg3 : Memref sig .tc .vmem S1x256x2 .f32) (harg3 : arg3.IsWhole)
    (hc0 : ¬ k0_cond1 i = 1#1) (hc1 : k0_cond2 i = 1#1) (x0 : Vec F S4x256x2048 .f32) (xo1 : Vec F S1x256x2 .f32) : Vec F S1x256x2 .f32 :=
  VO0_1.read (Elt F) (VO0_1.writes (Elt F) VO0_1.junk (kernelRun0_B c i arg2 harg2 arg3 harg3 hc0 hc1 x0 xo1).1)

/-! ## What the output's staging buffer holds after each point -/

/-- The running sum: at the first point of a half the tile's pair; at a later point the pair added to what the point
    before left. -/
def outsAt0 (c : Dev nD) : (n : ℕ) → n < cfg0.N → Vec F S1x256x2 .f32
  | 0, hn => out0_A_1 c (grid0.coords ⟨0, hn⟩) (ms0_0 ⟨0, hn⟩) (hs0_0 ⟨0, hn⟩) (ms0_1 ⟨0, hn⟩) (hs0_1 ⟨0, hn⟩)
      ((hcond0_0 ⟨0, hn⟩).mpr (Nat.zero_mod _)) (fun h => (hcond0_1 ⟨0, hn⟩).mp h (Nat.zero_mod _)) (iblk0 V c 0 ⟨0, hn⟩)
  | n + 1, hn =>
    if h0 : (n + 1) % 8 = 0 then
      out0_A_1 c (grid0.coords ⟨n + 1, hn⟩) (ms0_0 ⟨n + 1, hn⟩) (hs0_0 ⟨n + 1, hn⟩) (ms0_1 ⟨n + 1, hn⟩) (hs0_1 ⟨n + 1, hn⟩)
        ((hcond0_0 ⟨n + 1, hn⟩).mpr h0) (fun h => (hcond0_1 ⟨n + 1, hn⟩).mp h h0) (iblk0 V c 0 ⟨n + 1, hn⟩)
    else
      out0_B_1 c (grid0.coords ⟨n + 1, hn⟩) (ms0_0 ⟨n + 1, hn⟩) (hs0_0 ⟨n + 1, hn⟩) (ms0_1 ⟨n + 1, hn⟩) (hs0_1 ⟨n + 1, hn⟩)
        (fun h => h0 ((hcond0_0 ⟨n + 1, hn⟩).mp h)) ((hcond0_1 ⟨n + 1, hn⟩).mpr h0) (iblk0 V c 0 ⟨n + 1, hn⟩) (outsAt0 c n (Nat.lt_of_succ_lt hn))

/-- At the first point of a half. -/
theorem outsAt0_A (c : Dev nD) (t : Fin cfg0.N) (h0 : t.val % 8 = 0) :
    outsAt0 V c t.val t.isLt = out0_A_1 c (grid0.coords t) (ms0_0 t) (hs0_0 t) (ms0_1 t) (hs0_1 t)
      ((hcond0_0 t).mpr h0) (fun h => (hcond0_1 t).mp h h0) (iblk0 V c 0 t) := by
  obtain ⟨n, hn⟩ := t
  cases n with
  | zero => exact rfl
  | succ n => exact (dif_pos h0).trans rfl

/-- At a later point of a half. -/
theorem outsAt0_B (c : Dev nD) (t : Fin cfg0.N) (h0 : ¬t.val % 8 = 0) :
    outsAt0 V c t.val t.isLt = out0_B_1 c (grid0.coords t) (ms0_0 t) (hs0_0 t) (ms0_1 t) (hs0_1 t)
      (fun h => h0 ((hcond0_0 t).mp h)) ((hcond0_1 t).mpr h0) (iblk0 V c 0 t)
      (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at a point the input's buffer at its block and the output's
    at the running sum; the invariant the untouched scoped rest; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d

/-- At a later point of a half the output's staging buffer holds what the body left at the point before: the buffer
    was not written back between. -/
theorem before0_1_B (c : Dev nD) (t : Fin cfg0.N) (h0 : ¬t.val % 8 = 0) (d) :
    (dat0 V c).before 1 t d = (outsAt0 V c (t.val - 1) (Nat.lt_of_le_of_lt (Nat.sub_le _ _) t.isLt)) := by
  have hN : t.val < 16 := lt_of_lt_of_eq t.isLt (show cfg0.N = 16 from N_0)
  rw [Dat.before_out_kept _ 1 rfl t (by omega) (Bool.eq_false_iff.mpr fun h => by have := (flush0_1 _).mp h; dsimp only at this; omega)
    live0_1 (fun _ _ => rfl)]
  dsimp only [dat0]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t))

set_option maxHeartbeats 800000 in
/-- The body at any point: the input's memref holds its block; the closed forms say which case the point is in, and at a
    later point of a half the output's buffer holds the running sum so far. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  by_cases h0 : t.val % 8 = 0
  · rw [outsAt0_A V c t h0]
    unfold out0_A_1
    iintro ⟨HΦ, Ho, ⟨%d0, H0⟩, ⟨%d1, H1⟩⟩
    iapply ((kernelRun0_A c (grid0.coords t) _ _ _ _ ((hcond0_0 t).mpr h0) (fun h => (hcond0_1 t).mp h h0) (iblk0 V c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover0_A_1 c _ _ _ _ _ _ _ _)
  · rw [outsAt0_B V c t h0]
    simp only [before0_1_B V c t h0]
    unfold out0_B_1
    iintro ⟨HΦ, Ho, ⟨%d0, H0⟩, ⟨%d1, H1⟩⟩
    iapply ((kernelRun0_B c (grid0.coords t) _ _ _ _ (fun h => h0 ((hcond0_0 t).mp h)) ((hcond0_1 t).mpr h0) (iblk0 V c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover0_B_1 c _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  beta_reduce
  have hl : cfg0.idle (1 : Fin 2) (cfg0.grid.coords t) = false := live0_1 _
  rw [hl]
  exact sound_body0 V c t

end Cert.KernelIdeal.Hand

end
-- ==== Proof.KerNorm.lean ====
/-
  The normalisation region (the second pallas_call) of the kernel program, at the buffer contents `V` the region
  is entered with. Its body reads three input blocks — the pooled tile, the two partial statistics rows, the
  stacked scale and shift — and overwrites the whole result tile with one store whose payload is a function of
  what it loaded. So what the body leaves in the result's staging buffer is a closed function of the input
  blocks at the point (`out1_3`), every input buffer holds its window's block at every point whether or not it
  was fetched there, and the pipeline's proof data and body obligation follow.
-/
import proofs.«144913_g2000205710372994_pallasbulk_301_4_alg».proof.Proof.Gen.KernelIdeal.Launch
import proofs.«144913_g2000205710372994_pallasbulk_301_4_alg».proof.Proof.Gen.KernelIdeal.Skeleton
import proofs.«144913_g2000205710372994_pallasbulk_301_4_alg».proof.Proof.Gen.KernelIdeal.Points
import Idealize.ShloMosaic.Lib.Pipeline.FrameBody
import Idealize.ShloMosaic.Lib.Tactic

-- membership in a rectangle of these extents is decided by structural recursion, once per coordinate of the long axes
set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: every statement below is at this parameter
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): unfetched, the block index
    has not moved since the point before, whose block is then this point's. The window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): unfetched, the block index
    has not moved since the point before, whose block is then this point's. The window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): unfetched, the block index
    has not moved since the point before, whose block is then this point's. The window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- the whole statistics block, -/
abbrev r1_0 : Rect S2x256x2 := Rect.unit (s := S2x256x2) ![0, 0, 0] S2x256x2.size inb_S2x256x2_S2x256x2_0_0_0
/-- column 0 of the stacked pair (the scale), -/
abbrev r1_1 : Rect S256x2 := Rect.unit (s := S256x2) ![0, 0] S256x1.size inb_S256x2_S256x1_0_0
/-- column 1 (the shift), -/
abbrev r1_2 : Rect S256x2 := Rect.unit (s := S256x2) ![0, 1] S256x1.size inb_S256x2_S256x1_0_1
/-- a whole tile: the pooled input's and the result's. -/
abbrev r1_3 : Rect S2x256x2048 := Rect.unit (s := S2x256x2048) ![0, 0, 0] S2x256x2048.size inb_S2x256x2048_S2x256x2048_0_0_0

/-! ## What the body leaves in the result's buffer -/

/-- The result window's staging buffer after the body, from the input windows' blocks: its one store, of the
    normalised tile computed from the loads (`k1_pay1`), laid over anything. -/
def out1_3 (x0 : Vec F S2x256x2048 .f32) (x1 : Vec F S2x256x2 .f32) (x2 : Vec F S256x2 .f32) : Vec F S2x256x2048 .f32 :=
  View.canon [⟨r1_3, k1_pay1 (View.ld x1 r1_0) (View.ld x2 r1_1) (View.ld x2 r1_2) (View.ld x0 r1_3)⟩]

/-- The store is of the whole tile, so it covers the buffer (checked by evaluation on the rectangle). -/
theorem cover1_3 (p0 : Vec F S2x256x2048 .f32) (y : S2x256x2048.Idx) :
    ∃ pc ∈ ([⟨r1_3, p0⟩] : List (View.Piece (Elt F) S2x256x2048 .f32)), y ∈ pc.1.set :=
  View.cover_of_tiled [⟨r1_3, p0⟩] S2x256x2048.size (by rfl) y

/-! ## The body's triple -/

set_option maxHeartbeats 1000000 in
/-- The kernel body on whole staging memrefs, the inputs' at read contents `xW` and the result's at anything, runs to
    the continuation holding the inputs' as they were and the result's at `out1_3` of the inputs': the printed function
    and the part it calls are their skeletons, a sequence of four loads, a load of the result's buffer whose value is
    unused, and the one store. -/
theorem sound_kernel1 (c : Dev nD) (E : Set ℕ) (i : grid1.Coords)
    (arg2 : Memref sig .tc .vmem S2x256x2048 .f32) (harg2 : arg2.IsWhole) (arg3 : Memref sig .tc .vmem S2x256x2 .f32) (harg3 : arg3.IsWhole)
    (arg4 : Memref sig .tc .vmem S256x2 .f32) (harg4 : arg4.IsWhole) (arg5 : Memref sig .tc .vmem S2x256x2048 .f32) (harg5 : arg5.IsWhole)
    (x0 : Vec F S2x256x2048 .f32) (x1 : Vec F S2x256x2 .f32) (x2 : Vec F S256x2 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 x2)) -∗ K ⟨⟩))
      ⊢ wp frame (wpE (defs₀ (F := F)) Variants.none c none) E (cc1__norm_kernel i arg2 harg2 arg3 harg3 arg4 harg4 arg5 harg5) K := by
  simp only [cc1__norm_kernel_eq_skeleton]; unfold cc1__norm_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of the region's pipeline on core `c`: the arrays as the region finds them (`V`); after the body at
    point `t` each input's buffer at its block and the result's at `out1_3` of the input blocks; the invariant is the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KerRun.lean ====
/-
  The whole run of the program: the host operations (the pooling of pairs and the stacking of the two parameter
  vectors), then the two kernel regions one after the other. Between two items every unscoped buffer of the core is
  held at named contents: the launch memory, then the host operations' results over it, then — after a region — the
  region's arrays at what its write-backs leave and every other buffer as the region found it. Every weakly fair
  execution terminates, faults nowhere, and ends with every unscoped buffer at the last of these contents; an
  argument array is written by no item, so it ends as launched.
-/
import proofs.«144913_g2000205710372994_pallasbulk_301_4_alg».proof.Proof.KerStats
import proofs.«144913_g2000205710372994_pallasbulk_301_4_alg».proof.Proof.KerNorm
import proofs.«144913_g2000205710372994_pallasbulk_301_4_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host operations (region 0's entry). -/
abbrev W1 : Dev nD → Valuation τ sig (Elt F) := fun c => StableHlo.after hostOps0 (W0 m ρ c)
abbrev Ve0 : (c : Dev nD) → (b : Ref sig .tc) → Buf (Elt F) ((c : Thread nD τ).loc b) := fun c b => W1 m ρ c b
/-- At region 0's exit (region 1's entry): its arrays at what the pipeline leaves, every other buffer as entered. -/
def W2 (c : Dev nD) : Valuation τ sig (Elt F) :=
  Pipeline.withArrays spec0 c (W1 m ρ c) fun w => (dat0 (Ve0 m ρ) c).arrAt w cfg0.N
theorem W2_arr (c : Dev nD) (w : Fin cfg0.W) :
    W2 m ρ c (Proc.devRef .tc (Pipeline.arrRef spec0 w)) = (dat0 (Ve0 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev Ve1 : (c : Dev nD) → (b : Ref sig .tc) → Buf (Elt F) ((c : Thread nD τ).loc b) := fun c b => W2 m ρ c b
theorem hF0 (c : Dev nD) (w : Fin cfg0.W) : (dat0 (Ve0 m ρ) c).arrAt w cfg0.N = Ve1 m ρ c (Pipeline.arrRef spec0 w) :=
  (W2_arr m ρ c w).symm
theorem hrest0 (c : Dev nD) : ∀ b, b ∉ Finset.univ.image (Pipeline.arrRef spec0) → Ve1 m ρ c b = Ve0 m ρ c b :=
  fun b hb => W2_of_ne m ρ c b fun w e => hb (Finset.mem_image.mpr ⟨w, Finset.mem_univ _, e⟩)

/-- At region 1's exit: its arrays at what the pipeline leaves, every other buffer as entered. -/
def W3 (c : Dev nD) : Valuation τ sig (Elt F) :=
  Pipeline.withArrays spec1 c (W2 m ρ c) fun w => (dat1 (Ve1 m ρ) c).arrAt w cfg1.N
theorem W3_arr (c : Dev nD) (w : Fin cfg1.W) :
    W3 m ρ c (Proc.devRef .tc (Pipeline.arrRef spec1 w)) = (dat1 (Ve1 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev Vx1 : (c : Dev nD) → (b : Ref sig .tc) → Buf (Elt F) ((c : Thread nD τ).loc b) := fun c b => W3 m ρ c b
theorem hF1 (c : Dev nD) (w : Fin cfg1.W) : (dat1 (Ve1 m ρ) c).arrAt w cfg1.N = Vx1 m ρ c (Pipeline.arrRef spec1 w) :=
  (W3_arr m ρ c w).symm
theorem hrest1 (c : Dev nD) : ∀ b, b ∉ Finset.univ.image (Pipeline.arrRef spec1) → Vx1 m ρ c b = Ve1 m ρ c b :=
  fun b hb => W3_of_ne m ρ c b fun w e => hb (Finset.mem_image.mpr ⟨w, Finset.mem_univ _, e⟩)

/-! ### The arguments end as launched -/

/-- A buffer that is no array of either region and that no host operation writes ends as launched. -/
theorem W3_of_untouched (c : Dev nD) (b : Ref sig .tc) (h1 : ∀ w, Pipeline.arrRef spec1 w ≠ b) (h0 : ∀ w, Pipeline.arrRef spec0 w ≠ b)
    (hh : b ∉ hostOps0_W) : W3 m ρ c (Proc.devRef .tc b) = m ((c : Thread nD τ).loc b) :=
  (W3_of_ne m ρ c b h1).trans <| (W2_of_ne m ρ c b h0).trans <|
    (StableHlo.after_of_writes_sub hostOps0 _ hostOps0_writes hh).trans rfl

theorem W3_main_arg0 (c : Dev nD) : W3 m ρ c (Proc.devRef .tc main_arg0) = m ((c : Thread nD τ).loc main_arg0) :=
  W3_of_untouched m ρ c main_arg0 (by decide) (by decide) (by decide)
theorem W3_main_arg1 (c : Dev nD) : W3 m ρ c (Proc.devRef .tc main_arg1) = m ((c : Thread nD τ).loc main_arg1) :=
  W3_of_untouched m ρ c main_arg1 (by decide) (by decide) (by decide)
theorem W3_main_arg2 (c : Dev nD) : W3 m ρ c (Proc.devRef .tc main_arg2) = m ((c : Thread nD τ).loc main_arg2) :=
  W3_of_untouched m ρ c main_arg2 (by decide) (by decide) (by decide)

/-! ## The proof data family and the thread state -/

abbrev adm' : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm' p) c
  | ⟨0, _⟩ => fun c => dat0 (Ve0 m ρ) c
  | ⟨1, _⟩ => fun c => dat1 (Ve1 m ρ) c
abbrev 𝒱₀ : Variants := Variants.none
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- Region 0 over the thread state: entered from every unscoped buffer at `W1`, left at `W2`. -/
def reg0 : Pipeline.RegionSeg (pcfgs (F := F)) adm' (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve0 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (Ve0 m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (Ve0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (Ve0 m ρ c) (Ve1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. -/
def reg1 : Pipeline.RegionSeg (pcfgs (F := F)) adm' (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ve1 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Ve1 m ρ c)
  hentry c := by
    rw [Pipeline.ownSems0_none]
    have hsplit := Pipeline.arrays_of_unscopedBufs (p := 1) (pcfgs (F := F)) adm' (pdats m ρ) launch1.win launch1.arr_whole c
      ((pdats m ρ 1 c).share_full fun _ => rfl) (Ve1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m ρ) ((pdats m ρ 1 c).share_full fun _ => rfl)
      (Ve1 m ρ c) (Vx1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segsH : List (Pipeline.Seg (pcfgs (F := F)) adm' (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segsH m ρ) := (main_chain c).trans (by chain_rfl)

set_option backward.isDefEq.respectTransparency.types false in
/-- Every weakly fair execution of the program terminates, nothing faulting, and every final state holds each unscoped
    buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm' (pdats m ρ) () cellOf_inj emb₁ defs₀ 𝒱₀ L lv m ρ main (segsH m ρ)
    (fun c Q => by rw [main_run m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_all m ρ)

end Cert.KernelIdeal.Hand

end
-- ==== Proof.RefStats.lean ====
import proofs.«144913_g2000205710372994_pallasbulk_301_4_alg».proof.Proof.Gen.ReferenceIdeal.Launch
import proofs.«144913_g2000205710372994_pallasbulk_301_4_alg».proof.Proof.Gen.ReferenceIdeal.Skeleton
import proofs.«144913_g2000205710372994_pallasbulk_301_4_alg».proof.Proof.Gen.ReferenceIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The statistics region (custom_call 0), at the contents `V` the region is entered with -/

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, for any proof data whose array is `V`'s
    and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not (its block index is
    constant, so the one fetch at the first point serves every point). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions, decided over the grid -/

/-- The first branch (reset) is taken at the first point only. -/
theorem hcond0_1 : ∀ t : Fin cfg0.N, k0_cond1 (grid0.coords t) = 1#1 ↔ t.val = 0 :=
  (by decide +kernel : ∀ t : Fin grid0.N, k0_cond1 (grid0.coords t) = 1#1 ↔ t.val = 0)
/-- The second branch (accumulate) is taken at every later point. -/
theorem hcond0_2 : ∀ t : Fin cfg0.N, k0_cond2 (grid0.coords t) = 1#1 ↔ t.val ≠ 0 :=
  (by decide +kernel : ∀ t : Fin grid0.N, k0_cond2 (grid0.coords t) = 1#1 ↔ t.val ≠ 0)
/-- The third branch (finalize) is taken at the last point only. -/
theorem hcond0_3 : ∀ t : Fin cfg0.N, k0_cond3 (grid0.coords t) = 1#1 ↔ t.val = 63 :=
  (by decide +kernel : ∀ t : Fin grid0.N, k0_cond3 (grid0.coords t) = 1#1 ↔ t.val = 63)

/-- At every grid coordinate one of the three branches stores into output window 2: it is idle nowhere. -/
theorem hlive0_2 : ∀ i : grid0.Coords, cfg0.idle 2 i = false :=
  (by decide +kernel : ∀ i : grid0.Coords, idle0 2 i = false)

/-! ## The body's accesses -/

/-- The whole tile of window 0, -/
abbrev r0_0 : Rect S1x256x2048 := Rect.unit (s := S1x256x2048) ![0, 0, 0] S1x256x2048.size inb_S1x256x2048_S1x256x2048_0_0_0
/-- the whole statistics block, -/
abbrev r0_2 : Rect S256x2 := Rect.unit (s := S256x2) ![0, 0] S256x2.size inb_S256x2_S256x2_0_0
/-- and its two columns. -/
abbrev r0_2a : Rect S256x2 := Rect.unit (s := S256x2) ![0, 0] S256x1.size inb_S256x2_S256x1_0_0
abbrev r0_2b : Rect S256x2 := Rect.unit (s := S256x2) ![0, 1] S256x1.size inb_S256x2_S256x1_0_1

/-- Each window's current staging memref at point `t`, as the pipeline passes it, and its wholeness. -/
abbrev ms0_0 (t : Fin cfg0.N) : Memref sig .tc .vmem S1x256x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x2 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x2 .f32 := win0_2.stage (cfg0.slots t 2)
abbrev hs0_2 (t : Fin cfg0.N) : (ms0_2 t).IsWhole := hstage0_2 ((cfg0.slots t 2).cast nbuf0_2)

/-! ## What the body leaves in the statistics buffer, case by case -/

/-- At the first point (reset): the tile's partial sums. -/
def out0_A_2 (x0 : Vec F S1x256x2048 .f32) : Vec F S256x2 .f32 :=
  View.canon [⟨r0_2, k0_pay1 (View.ld x0 r0_0)⟩]

/-- At a middle point (accumulate): the tile's partial sums added to what the buffer held. -/
def out0_B_2 (x0 : Vec F S1x256x2048 .f32) (xo : Vec F S256x2 .f32) : Vec F S256x2 .f32 :=
  View.canon [⟨r0_2, k0_pay2 (View.ld x0 r0_0) (View.ld xo r0_2)⟩]

/-- At the last point (accumulate, then finalize): the finalize store, over the columns of the accumulated sums
    and the columns of window 1, written over the accumulate store (last store first). -/
def out0_C_2 (x0 : Vec F S1x256x2048 .f32) (x1 : Vec F S256x2 .f32) (xo : Vec F S256x2 .f32) : Vec F S256x2 .f32 :=
  View.canon [⟨r0_2, k0_pay3 (View.ld (out0_B_2 x0 xo) r0_2a) (View.ld (out0_B_2 x0 xo) r0_2b) (View.ld x1 r0_2a) (View.ld x1 r0_2b)⟩,
    ⟨r0_2, k0_pay2 (View.ld x0 r0_0) (View.ld xo r0_2)⟩]

/-- A store of the whole block covers it, whatever was stored before. -/
theorem cover0_2 (p0 : Vec F S256x2 .f32) (L : List (View.Piece (Elt F) S256x2 .f32)) (y : S256x2.Idx) :
    ∃ pc ∈ ((⟨r0_2, p0⟩ : View.Piece (Elt F) S256x2 .f32) :: L), y ∈ pc.1.set :=
  by
  obtain ⟨pc, hm, hy⟩ := View.cover_of_tiled [(⟨r0_2, p0⟩ : View.Piece (Elt F) S256x2 .f32)] S256x2.size (by rfl) y
  rw [List.mem_singleton] at hm; subst hm
  exact ⟨_, List.mem_cons_self, hy⟩

/-! ## The body's triple, case by case -/

set_option maxHeartbeats 1000000 in
/-- Case A (only the reset branch is taken). -/
theorem sound_kernel0_A (c : Dev nD) (E : Set ℕ) (i : grid0.Coords)
    (arg1 : Memref sig .tc .vmem S1x256x2048 .f32) (harg1 : arg1.IsWhole) (arg2 : Memref sig .tc .vmem S256x2 .f32) (harg2 : arg2.IsWhole)
    (arg3 : Memref sig .tc .vmem S256x2 .f32) (harg3 : arg3.IsWhole)
    (hc1 : k0_cond1 i = 1#1) (hc2 : ¬k0_cond2 i = 1#1) (hc3 : ¬k0_cond3 i = 1#1)
    (x0 : Vec F S1x256x2048 .f32) (x1 : Vec F S256x2 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_A_2 x0)) -∗ K ⟨⟩))
      ⊢ wp frame (wpE (defs₀ (F := F)) Variants.none c none) E (cc0__stats_kernel i arg1 harg1 arg2 harg2 arg3 harg3) K := by
  simp only [cc0__stats_kernel_eq_skeleton]; unfold cc0__stats_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _ _)

set_option maxHeartbeats 1000000 in
/-- Case B (only the accumulate branch is taken): the buffer is read before it is written. -/
theorem sound_kernel0_B (c : Dev nD) (E : Set ℕ) (i : grid0.Coords)
    (arg1 : Memref sig .tc .vmem S1x256x2048 .f32) (harg1 : arg1.IsWhole) (arg2 : Memref sig .tc .vmem S256x2 .f32) (harg2 : arg2.IsWhole)
    (arg3 : Memref sig .tc .vmem S256x2 .f32) (harg3 : arg3.IsWhole)
    (hc1 : ¬k0_cond1 i = 1#1) (hc2 : k0_cond2 i = 1#1) (hc3 : ¬k0_cond3 i = 1#1)
    (x0 : Vec F S1x256x2048 .f32) (x1 : Vec F S256x2 .f32) (xo : Vec F S256x2 .f32) (K : PUnit → sProp 𝕄) :
    iprop(owns (c : Thread nD τ) arg1 fullShare x0 ∗ owns (c : Thread nD τ) arg2 fullShare x1 ∗ owns (c : Thread nD τ) arg3 fullShare xo
        ∗ (iprop(owns (c : Thread nD τ) arg1 fullShare x0 ∗ owns (c : Thread nD τ) arg2 fullShare x1 ∗ owns (c : Thread nD τ) arg3 fullShare (out0_B_2 x0 xo)) -∗ K ⟨⟩))
      ⊢ wp frame (wpE (defs₀ (F := F)) Variants.none c none) E (cc0__stats_kernel i arg1 harg1 arg2 harg2 arg3 harg3) K := by
  simp only [cc0__stats_kernel_eq_skeleton]; unfold cc0__stats_kernel_skel
  unfold owns
  iintro ⟨⟨%f0, %hf0, H0⟩, ⟨%f1, %hf1, H1⟩, ⟨%f2, %hf2, H2⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _ _)

set_option maxHeartbeats 1000000 in
/-- Case C (the accumulate branch, then the finalize branch): the buffer is read before it is written, and the
    finalize branch reads back the columns of what the accumulate store left. -/
theorem sound_kernel0_C (c : Dev nD) (E : Set ℕ) (i : grid0.Coords)
    (arg1 : Memref sig .tc .vmem S1x256x2048 .f32) (harg1 : arg1.IsWhole) (arg2 : Memref sig .tc .vmem S256x2 .f32) (harg2 : arg2.IsWhole)
    (arg3 : Memref sig .tc .vmem S256x2 .f32) (harg3 : arg3.IsWhole)
    (hc1 : ¬k0_cond1 i = 1#1) (hc2 : k0_cond2 i = 1#1) (hc3 : k0_cond3 i = 1#1)
    (x0 : Vec F S1x256x2048 .f32) (x1 : Vec F S256x2 .f32) (xo : Vec F S256x2 .f32) (K : PUnit → sProp 𝕄) :
    iprop(owns (c : Thread nD τ) arg1 fullShare x0 ∗ owns (c : Thread nD τ) arg2 fullShare x1 ∗ owns (c : Thread nD τ) arg3 fullShare xo
        ∗ (iprop(owns (c : Thread nD τ) arg1 fullShare x0 ∗ owns (c : Thread nD τ) arg2 fullShare x1 ∗ owns (c : Thread nD τ) arg3 fullShare (out0_C_2 x0 x1 xo)) -∗ K ⟨⟩))
      ⊢ wp frame (wpE (defs₀ (F := F)) Variants.none c none) E (cc0__stats_kernel i arg1 harg1 arg2 harg2 arg3 harg3) K := by
  simp only [cc0__stats_kernel_eq_skeleton]; unfold cc0__stats_kernel_skel
  unfold owns
  iintro ⟨⟨%f0, %hf0, H0⟩, ⟨%f1, %hf1, H1⟩, ⟨%f2, %hf2, H2⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (cover0_2 _ _)]
  unfold out0_C_2 out0_B_2 sound_kernel0_C.sl.v19 sound_kernel0_C.sl.v23 sound_kernel0_C.sl.H2_1
  simp only [View.readCov_eq_canon']
  rfl

/-! ## The three cases' contents, as the payloads themselves

Every store of the body is of the whole block at offset zero, so what a case leaves is its last store's payload,
and a whole-block load reads the contents as they are. -/

theorem zero_off2 : (![0, 0] : Fin 2 → Nat) = fun _ => 0 := by funext a; fin_cases a <;> rfl
theorem zero_off3 : (![0, 0, 0] : Fin 3 → Nat) = fun _ => 0 := by funext a; fin_cases a <;> rfl

/-- The reset leaves the tile's partial sums. -/
theorem out0_A_2_eq (x0 : Vec F S1x256x2048 .f32) : out0_A_2 x0 = k0_pay1 x0 := by
  unfold out0_A_2
  rw [View.canon_unit_zero zero_off2, View.ld_unit_zero zero_off3]

/-- The accumulation leaves the tile's partial sums added to the previous contents. -/
theorem out0_B_2_eq (x0 : Vec F S1x256x2048 .f32) (xo : Vec F S256x2 .f32) : out0_B_2 x0 xo = k0_pay2 x0 xo := by
  unfold out0_B_2
  rw [View.canon_unit_zero zero_off2, View.ld_unit_zero zero_off3, View.ld_unit_zero zero_off2]

/-- The last point leaves the finalize payload over the two columns of the accumulated sums and the two columns
    of window 1's block. -/
theorem out0_C_2_eq (x0 : Vec F S1x256x2048 .f32) (x1 : Vec F S256x2 .f32) (xo : Vec F S256x2 .f32) :
    out0_C_2 x0 x1 xo = k0_pay3 (View.ld (k0_pay2 x0 xo) r0_2a) (View.ld (k0_pay2 x0 xo) r0_2b) (View.ld x1 r0_2a) (View.ld x1 r0_2b) := by
  unfold out0_C_2
  rw [View.canon_cons_unit_zero zero_off2, out0_B_2_eq]

/-! ## What the statistics buffer holds after each point -/

/-- THE ACCUMULATION. What output window 2's staging buffer holds after the body at position `n`: the reset at
    the first point; at a later point the accumulation over what the point before left (the buffer is not written
    back between), and at the last point the finalize over that. -/
def outsAt0 (c : Dev nD) : (n : ℕ) → n < cfg0.N → Vec F S256x2 .f32
  | 0, hn => out0_A_2 (iblk0 V c 0 ⟨0, hn⟩)
  | n + 1, hn =>
    if h63 : n + 1 = 63 then
      out0_C_2 (iblk0 V c 0 ⟨n + 1, hn⟩) (iblk0 V c 1 ⟨n + 1, hn⟩) (outsAt0 c n (Nat.lt_of_succ_lt hn))
    else
      out0_B_2 (iblk0 V c 0 ⟨n + 1, hn⟩) (outsAt0 c n (Nat.lt_of_succ_lt hn))

/-- `outsAt0` at the first point: the reset. -/
theorem outsAt0_A (c : Dev nD) (t : Fin cfg0.N) (h0 : t.val = 0) :
    outsAt0 V c t.val t.isLt = out0_A_2 (iblk0 V c 0 t) := by
  obtain ⟨n, hn⟩ := t
  cases n with
  | zero => exact rfl
  | succ n => exact absurd h0 (Nat.succ_ne_zero n)

/-- `outsAt0` at a middle point: the accumulation, over what the point before left. -/
theorem outsAt0_B (c : Dev nD) (t : Fin cfg0.N) (h0 : t.val ≠ 0) (h63 : t.val ≠ 63) :
    outsAt0 V c t.val t.isLt = out0_B_2 (iblk0 V c 0 t) (outsAt0 V c (t.val - 1) (Nat.lt_of_le_of_lt (Nat.sub_le _ _) t.isLt)) := by
  obtain ⟨n, hn⟩ := t
  cases n with
  | zero => exact absurd rfl h0
  | succ n => exact (dif_neg h63).trans rfl

/-- `outsAt0` at the last point: the accumulation and the finalize, over what the point before left. -/
theorem outsAt0_C (c : Dev nD) (t : Fin cfg0.N) (h63 : t.val = 63) :
    outsAt0 V c t.val t.isLt = out0_C_2 (iblk0 V c 0 t) (iblk0 V c 1 t) (outsAt0 V c (t.val - 1) (Nat.lt_of_le_of_lt (Nat.sub_le _ _) t.isLt)) := by
  obtain ⟨n, hn⟩ := t
  cases n with
  | zero => exact absurd h63 (by show ¬(0 : ℕ) = 63; decide)
  | succ n => exact (dif_pos h63).trans rfl

/-! ## The pipeline's proof data -/

/-- The proof data of the statistics pipeline on core `c`: the arrays as the region finds them; after the body at
    point `t` each input's buffer at its block and the output's at `outsAt0`; the invariant the rest of the core's scoped memory and
    its random-number state, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => outsAt0 V c t.val t.isLt
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = outsAt0 V c t.val t.isLt := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- After the first point the output's staging buffer holds what the body left at the point before: the buffer is
    written back at the last point only, and the window is live and uncut. -/
theorem before0_2_BC (c : Dev nD) (t : Fin cfg0.N) (h0 : t.val ≠ 0) (d) :
    (dat0 V c).before 2 t d = outsAt0 V c (t.val - 1) (Nat.lt_of_le_of_lt (Nat.sub_le _ _) t.isLt) := by
  have hN : t.val < 64 := lt_of_lt_of_eq t.isLt (show cfg0.N = 64 from N_0)
  rw [Dat.before_out_kept _ 2 rfl t h0 (Bool.eq_false_iff.mpr fun h => by have := (flush0_2 _).mp h; dsimp only at this; omega)
    hlive0_2 (fun _ _ => rfl)]
  dsimp only [dat0]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

set_option maxHeartbeats 800000 in
/-- The body at any point: the inputs' memrefs hold their blocks; the closed forms of the conditions say which case
    the point is in; after the first point the output's memref holds what the point before left; so the case's
    triple applies; the invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  have hN : t.val < 64 := lt_of_lt_of_eq t.isLt (show cfg0.N = 64 from N_0)
  by_cases h0 : t.val = 0
  · rw [outsAt0_A V c t h0]
    iintro ⟨HΦ, Ho, ⟨%d0, H0⟩, ⟨%d1, H1⟩, ⟨%d2, H2⟩⟩
    iapply (sound_kernel0_A c Set.univ (grid0.coords t) _ _ _ _ _ _ ((hcond0_1 t).mpr h0) (fun h => (hcond0_2 t).mp h h0)
      (fun h => by have := (hcond0_3 t).mp h; omega) (iblk0 V c 0 t) (iblk0 V c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · simp only [before0_2_BC V c t h0]
    by_cases h63 : t.val = 63
    · rw [outsAt0_C V c t h63]
      iintro ⟨HΦ, Ho, ⟨%d0, H0⟩, ⟨%d1, H1⟩, ⟨%d2, H2⟩⟩
      iapply (sound_kernel0_C c Set.univ (grid0.coords t) _ _ _ _ _ _ (fun h => h0 ((hcond0_1 t).mp h)) ((hcond0_2 t).mpr h0)
        ((hcond0_3 t).mpr h63) (iblk0 V c 0 t) (iblk0 V c 1 t) _ _)
      isplitl [H0]; · iexact H0
      isplitl [H1]; · iexact H1
      isplitl [H2]; · iexact H2
      iintro ⟨H0, H1, H2⟩
      isplitl [HΦ]; · iexact HΦ
      isplitl [Ho]; · iexact Ho
      isplitl [H0]; · iexact H0
      isplitl [H1]; · iexact H1
      iexact H2
    · rw [outsAt0_B V c t h0 h63]
      iintro ⟨HΦ, Ho, ⟨%d0, H0⟩, ⟨%d1, H1⟩, ⟨%d2, H2⟩⟩
      iapply (sound_kernel0_B c Set.univ (grid0.coords t) _ _ _ _ _ _ (fun h => h0 ((hcond0_1 t).mp h)) ((hcond0_2 t).mpr h0)
        (fun h => h63 ((hcond0_3 t).mp h)) (iblk0 V c 0 t) (iblk0 V c 1 t) _ _)
      isplitl [H0]; · iexact H0
      isplitl [H1]; · iexact H1
      isplitl [H2]; · iexact H2
      iintro ⟨H0, H1, H2⟩
      isplitl [HΦ]; · iexact HΦ
      isplitl [Ho]; · iexact Ho
      isplitl [H0]; · iexact H0
      isplitl [H1]; · iexact H1
      iexact H2

/-- The library's body obligation, at every point (output window 2 is idle at no point: `hlive0_2`). -/
theorem body_obligation0 (c : Dev nD) : BodyObligation (dat0 (F := F) V c) (defs₀ (F := F)) Variants.none () Set.univ := fun t => by
  rw [bigSep_W0, bigSep_W0]
  rw [hlive0_2]
  exact sound_body0 V c t

end Cert.ReferenceIdeal.Hand

end
-- ==== Proof.RefNorm.lean ====
/-
  The normalisation region (the second pallas_call) of the reference program, at the buffer contents `V` the region
  is entered with. Its body reads two input blocks — one pooled tile and the per-channel pair of scale and shift —
  and overwrites the whole result tile with one store whose payload is a function of what it loaded. So what the
  body leaves in the result's staging buffer is a closed function of the input blocks at the point (`out1_2`),
  every input buffer holds its window's block at every point whether or not it was fetched there, and the
  pipeline's proof data and body obligation follow.
-/
import proofs.«144913_g2000205710372994_pallasbulk_301_4_alg».proof.Proof.Gen.ReferenceIdeal.Launch
import proofs.«144913_g2000205710372994_pallasbulk_301_4_alg».proof.Proof.Gen.ReferenceIdeal.Skeleton
import proofs.«144913_g2000205710372994_pallasbulk_301_4_alg».proof.Proof.Gen.ReferenceIdeal.Points
import Idealize.ShloMosaic.Lib.Pipeline.FrameBody
import Idealize.ShloMosaic.Lib.Tactic

-- membership in a rectangle of these extents is decided by structural recursion, once per coordinate of the long axes
set_option maxRecDepth 16384

noncomputable section

namespace Cert.ReferenceIdeal.Hand

open Cert.ReferenceIdeal Cert.ReferenceIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: every statement below is at this parameter
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): unfetched, the block index
    has not moved since the point before, whose block is then this point's. The window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): unfetched, the block index
    has not moved since the point before, whose block is then this point's. The window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- a whole tile: the pooled input's and the result's, -/
abbrev r1_0 : Rect S1x256x2048 := Rect.unit (s := S1x256x2048) ![0, 0, 0] S1x256x2048.size inb_S1x256x2048_S1x256x2048_0_0_0
/-- column 0 of the per-channel pair (the scale), -/
abbrev r1_1 : Rect S256x2 := Rect.unit (s := S256x2) ![0, 0] S256x1.size inb_S256x2_S256x1_0_0
/-- column 1 (the shift). -/
abbrev r1_2 : Rect S256x2 := Rect.unit (s := S256x2) ![0, 1] S256x1.size inb_S256x2_S256x1_0_1

/-! ## What the body leaves in the result's buffer -/

/-- The result window's staging buffer after the body, from the input windows' blocks: its one store, of the
    normalised tile computed from the loads (`k1_pay1`), laid over anything. -/
def out1_2 (x0 : Vec F S1x256x2048 .f32) (x1 : Vec F S256x2 .f32) : Vec F S1x256x2048 .f32 :=
  View.canon [⟨r1_0, k1_pay1 (View.ld x0 r1_0) (View.ld x1 r1_1) (View.ld x1 r1_2)⟩]

/-- The store is of the whole tile, so it covers the buffer (checked by evaluation on the rectangle). -/
theorem cover1_2 (p0 : Vec F S1x256x2048 .f32) (y : S1x256x2048.Idx) :
    ∃ pc ∈ ([⟨r1_0, p0⟩] : List (View.Piece (Elt F) S1x256x2048 .f32)), y ∈ pc.1.set :=
  View.cover_of_tiled [⟨r1_0, p0⟩] S1x256x2048.size (by rfl) y

/-! ## The body's triple -/

set_option maxHeartbeats 1000000 in
/-- The kernel body on whole staging memrefs, the inputs' at read contents `xW` and the result's at anything, runs to
    the continuation holding the inputs' as they were and the result's at `out1_2` of the inputs': the printed function
    is its skeleton, a sequence of three loads, a load of the result's buffer whose value is unused, and the one store. -/
theorem sound_kernel1 (c : Dev nD) (E : Set ℕ) (i : grid1.Coords)
    (arg1 : Memref sig .tc .vmem S1x256x2048 .f32) (harg1 : arg1.IsWhole) (arg2 : Memref sig .tc .vmem S256x2 .f32) (harg2 : arg2.IsWhole)
    (arg3 : Memref sig .tc .vmem S1x256x2048 .f32) (harg3 : arg3.IsWhole)
    (x0 : Vec F S1x256x2048 .f32) (x1 : Vec F S256x2 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__norm_kernel i arg1 harg1 arg2 harg2 arg3 harg3) K := by
  simp only [cc1__norm_kernel_eq_skeleton]; unfold cc1__norm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of the region's pipeline on core `c`: the arrays as the region finds them (`V`); after the body at
    point `t` each input's buffer at its block and the result's at `out1_2` of the input blocks; the invariant is the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t` (the body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.ReferenceIdeal.Hand

end
-- ==== Proof.RefRun.lean ====
/-
  The whole run of the program: the host operations (the pooling of pairs and the stacking of the two parameter
  vectors), then the two kernel regions one after the other. Between two items every unscoped buffer of the core is
  held at named contents: the launch memory, then the host operations' results over it, then — after a region — the
  region's arrays at what its write-backs leave and every other buffer as the region found it. Every weakly fair
  execution terminates, faults nowhere, and ends with every unscoped buffer at the last of these contents; an
  argument array is written by no item, so it ends as launched.
-/
import proofs.«144913_g2000205710372994_pallasbulk_301_4_alg».proof.Proof.RefStats
import proofs.«144913_g2000205710372994_pallasbulk_301_4_alg».proof.Proof.RefNorm
import proofs.«144913_g2000205710372994_pallasbulk_301_4_alg».proof.Proof.Gen.ReferenceIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host operations (region 0's entry). -/
abbrev W1 : Dev nD → Valuation τ sig (Elt F) := fun c => StableHlo.after hostOps0 (W0 m ρ c)
abbrev Ve0 : (c : Dev nD) → (b : Ref sig .tc) → Buf (Elt F) ((c : Thread nD τ).loc b) := fun c b => W1 m ρ c b
/-- At region 0's exit (region 1's entry): its arrays at what the pipeline leaves, every other buffer as entered. -/
def W2 (c : Dev nD) : Valuation τ sig (Elt F) :=
  Pipeline.withArrays spec0 c (W1 m ρ c) fun w => (dat0 (Ve0 m ρ) c).arrAt w cfg0.N
theorem W2_arr (c : Dev nD) (w : Fin cfg0.W) :
    W2 m ρ c (Proc.devRef .tc (Pipeline.arrRef spec0 w)) = (dat0 (Ve0 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev Ve1 : (c : Dev nD) → (b : Ref sig .tc) → Buf (Elt F) ((c : Thread nD τ).loc b) := fun c b => W2 m ρ c b
theorem hF0 (c : Dev nD) (w : Fin cfg0.W) : (dat0 (Ve0 m ρ) c).arrAt w cfg0.N = Ve1 m ρ c (Pipeline.arrRef spec0 w) :=
  (W2_arr m ρ c w).symm
theorem hrest0 (c : Dev nD) : ∀ b, b ∉ Finset.univ.image (Pipeline.arrRef spec0) → Ve1 m ρ c b = Ve0 m ρ c b :=
  fun b hb => W2_of_ne m ρ c b fun w e => hb (Finset.mem_image.mpr ⟨w, Finset.mem_univ _, e⟩)

/-- At region 1's exit: its arrays at what the pipeline leaves, every other buffer as entered. -/
def W3 (c : Dev nD) : Valuation τ sig (Elt F) :=
  Pipeline.withArrays spec1 c (W2 m ρ c) fun w => (dat1 (Ve1 m ρ) c).arrAt w cfg1.N
theorem W3_arr (c : Dev nD) (w : Fin cfg1.W) :
    W3 m ρ c (Proc.devRef .tc (Pipeline.arrRef spec1 w)) = (dat1 (Ve1 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev Vx1 : (c : Dev nD) → (b : Ref sig .tc) → Buf (Elt F) ((c : Thread nD τ).loc b) := fun c b => W3 m ρ c b
theorem hF1 (c : Dev nD) (w : Fin cfg1.W) : (dat1 (Ve1 m ρ) c).arrAt w cfg1.N = Vx1 m ρ c (Pipeline.arrRef spec1 w) :=
  (W3_arr m ρ c w).symm
theorem hrest1 (c : Dev nD) : ∀ b, b ∉ Finset.univ.image (Pipeline.arrRef spec1) → Vx1 m ρ c b = Ve1 m ρ c b :=
  fun b hb => W3_of_ne m ρ c b fun w e => hb (Finset.mem_image.mpr ⟨w, Finset.mem_univ _, e⟩)

/-! ### The arguments end as launched -/

/-- A buffer that is no array of either region and that no host operation writes ends as launched. -/
theorem W3_of_untouched (c : Dev nD) (b : Ref sig .tc) (h1 : ∀ w, Pipeline.arrRef spec1 w ≠ b) (h0 : ∀ w, Pipeline.arrRef spec0 w ≠ b)
    (hh : b ∉ hostOps0_W) : W3 m ρ c (Proc.devRef .tc b) = m ((c : Thread nD τ).loc b) :=
  (W3_of_ne m ρ c b h1).trans <| (W2_of_ne m ρ c b h0).trans <|
    (StableHlo.after_of_writes_sub hostOps0 _ hostOps0_writes hh).trans rfl

theorem W3_main_arg0 (c : Dev nD) : W3 m ρ c (Proc.devRef .tc main_arg0) = m ((c : Thread nD τ).loc main_arg0) :=
  W3_of_untouched m ρ c main_arg0 (by decide) (by decide) (by decide)
theorem W3_main_arg1 (c : Dev nD) : W3 m ρ c (Proc.devRef .tc main_arg1) = m ((c : Thread nD τ).loc main_arg1) :=
  W3_of_untouched m ρ c main_arg1 (by decide) (by decide) (by decide)
theorem W3_main_arg2 (c : Dev nD) : W3 m ρ c (Proc.devRef .tc main_arg2) = m ((c : Thread nD τ).loc main_arg2) :=
  W3_of_untouched m ρ c main_arg2 (by decide) (by decide) (by decide)

/-! ## The proof data family and the thread state -/

abbrev adm' : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm' p) c
  | ⟨0, _⟩ => fun c => dat0 (Ve0 m ρ) c
  | ⟨1, _⟩ => fun c => dat1 (Ve1 m ρ) c
abbrev 𝒱₀ : Variants := Variants.none
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- Region 0 over the thread state: entered from every unscoped buffer at `W1`, left at `W2`. -/
def reg0 : Pipeline.RegionSeg (pcfgs (F := F)) adm' (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve0 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (Ve0 m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (Ve0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (Ve0 m ρ c) (Ve1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. -/
def reg1 : Pipeline.RegionSeg (pcfgs (F := F)) adm' (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ve1 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Ve1 m ρ c)
  hentry c := by
    rw [Pipeline.ownSems0_none]
    have hsplit := Pipeline.arrays_of_unscopedBufs (p := 1) (pcfgs (F := F)) adm' (pdats m ρ) launch1.win launch1.arr_whole c
      ((pdats m ρ 1 c).share_full fun _ => rfl) (Ve1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m ρ) ((pdats m ρ 1 c).share_full fun _ => rfl)
      (Ve1 m ρ c) (Vx1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segsH : List (Pipeline.Seg (pcfgs (F := F)) adm' (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segsH m ρ) := (main_chain c).trans (by chain_rfl)

set_option backward.isDefEq.respectTransparency.types false in
/-- Every weakly fair execution of the program terminates, nothing faulting, and every final state holds each unscoped
    buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm' (pdats m ρ) () cellOf_inj emb₁ defs₀ 𝒱₀ L lv m ρ main (segsH m ρ)
    (fun c Q => by rw [main_run m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_all m ρ)

end Cert.ReferenceIdeal.Hand

end
-- ==== Proof.Spec.lean ====
/-
  The arithmetic both programs compute, on the extended reals.

  Each program first accumulates, per channel, the sum `s1` and the sum of squares `s2` of the pooled
  activations over 64 batch rows of 2048 positions (2^17 elements), and then normalises every element
  `p` of that channel with the channel's `gamma` and `beta`:

      mean  = s1 * 2^-17                    ex2   = s2 * 2^-17
      var   = max (ex2 - mean * mean) 0     scale = gamma * rsqrt (var + eps)
      shift = beta - mean * scale           y     = p * scale + shift
      out   = y  if  0 ≤ y,  else  slope * y

  The definitions below keep the order of the factors and the four float literals exactly as the
  programs write them, so that each program's arithmetic, read at one index, is one of these terms
  with no algebra in between.  The literals stay bit patterns: the same pattern on both sides is
  never evaluated.

  Last, the regrouping of the batch sum: one program adds the 64 rows as two halves of 8 tiles of
  4 rows, the other row by row.
-/
import Idealize.ShloMosaic.PureOps.Ideal
import Idealize.ShloMosaic.PureOps.Ideal.Laws
import Idealize.ShloMosaic.Lib.ValueIdx

set_option maxRecDepth 16384

noncomputable section

open scoped BigOperators

namespace Cert.Spec

open Idealize.ShloMosaic

/-! ## The four literals -/

/-- `2^-17`, one over the number of elements a channel's statistics run over (64 · 2048). -/
def c17 : EReal := Ideal.ofBits .f32 0x37000000#32
/-- The variance's guard, about `1e-5`. -/
def eps : EReal := Ideal.ofBits .f32 0x3727C5AC#32
/-- The slope on the negative side, about `0.01`. -/
def slope : EReal := Ideal.ofBits .f32 0x3C23D70A#32
/-- The zero the variance is clamped at and the activation is compared with. -/
def zero : EReal := Ideal.ofBits .f32 0x00000000#32

/-! ## The statistics -/

/-- The channel's mean from its sum. -/
def meanOf (s1 : EReal) : EReal := s1 * c17
/-- The channel's variance from its sum and its sum of squares, clamped at zero. -/
def varOf (s1 s2 : EReal) : EReal := max (s2 * c17 - meanOf s1 * meanOf s1) zero
/-- The factor every element of the channel is multiplied by. -/
def scaleOf (s1 s2 g : EReal) : EReal := g * Ideal.rsqrt (varOf s1 s2 + eps)
/-- The term every element of the channel is then shifted by. -/
def shiftOf (s1 s2 g b : EReal) : EReal := b - meanOf s1 * scaleOf s1 s2 g

/-! ## The activation -/

/-- The leaky rectifier: `y` where `0 ≤ y`, else `slope * y`, as the comparison and the select of the
    programs read on the extended reals. -/
def leaky (y : EReal) : EReal := Scalar.select (Ideal.cmp .oge y zero) y (slope * y)

/-- One element of the result: the element `p`, its channel's two sums, `gamma` and `beta`. -/
def out (p s1 s2 g b : EReal) : EReal := leaky (p * scaleOf s1 s2 g + shiftOf s1 s2 g b)

/-- The zero literal is the extended real `0`. -/
theorem zero_eq : zero = 0 := Ideal.ofBits_zero_f32

/-- The rectifier by the order. -/
theorem leaky_of_le {y : EReal} (h : zero ≤ y) : leaky y = y := by
  unfold leaky Ideal.cmp
  simp [Scalar.select, h]
theorem leaky_of_lt {y : EReal} (h : y < zero) : leaky y = slope * y := by
  unfold leaky Ideal.cmp
  simp [Scalar.select, not_le.mpr h]

/-! ## Regrouping the batch sum -/

section Regroup
variable {M : Type*} [AddCommMonoid M]

/-- `a` consecutive tiles of `b` rows are the first `b * a` rows. -/
theorem sum_tiles (g : ℕ → M) (a b : ℕ) :
    ∑ s ∈ Finset.range a, ∑ n : Fin b, g (b * s + n) = ∑ k ∈ Finset.range (b * a), g k := by
  induction a with
  | zero => simp
  | succ a ih =>
    rw [Finset.sum_range_succ, ih, Nat.mul_succ, Finset.sum_range_add,
      Fin.sum_univ_eq_sum_range (fun n => g (b * a + n)) b]

/-- The same for tiles that start `o` tiles in. -/
theorem sum_tiles_from (g : ℕ → M) (o a b : ℕ) :
    ∑ s ∈ Finset.range a, ∑ n : Fin b, g (b * (o + s) + n) = ∑ k ∈ Finset.range (b * a), g (b * o + k) := by
  rw [← sum_tiles (fun k => g (b * o + k)) a b]
  refine Finset.sum_congr rfl fun s _ => Finset.sum_congr rfl fun n _ => ?_
  rw [Nat.mul_add, Nat.add_assoc]

/-- 64 rows summed as two halves of 8 tiles of 4 rows are the 64 rows summed one by one. -/
theorem sum_two_halves (g : ℕ → M) :
    (∑ s ∈ Finset.range 8, ∑ n : Fin 4, g (4 * s + n))
        + (∑ s ∈ Finset.range 8, ∑ n : Fin 4, g (4 * (8 + s) + n))
      = ∑ s ∈ Finset.range 64, g s := by
  rw [sum_tiles g 8 4, sum_tiles_from g 8 8 4]
  exact (Finset.sum_range_add g 32 32).symm

/-- A row-by-row sum written over tiles of one row. -/
theorem sum_rows_one (g : ℕ → M) (a : ℕ) :
    ∑ s ∈ Finset.range a, ∑ n : Fin 1, g (s + n) = ∑ s ∈ Finset.range a, g s := by
  refine Finset.sum_congr rfl fun s _ => ?_
  rw [Fin.sum_univ_one]
  rfl

/-- The two arrangements of the batch sum agree. -/
theorem sum_two_halves_eq_rows (g : ℕ → M) :
    (∑ s ∈ Finset.range 8, ∑ n : Fin 4, g (4 * s + n))
        + (∑ s ∈ Finset.range 8, ∑ n : Fin 4, g (4 * (8 + s) + n))
      = ∑ s ∈ Finset.range 64, ∑ n : Fin 1, g (s + n) := by
  rw [sum_two_halves, sum_rows_one]

end Regroup

end Cert.Spec

end
-- ==== Proof.LibColumns.lean ====
/-
  Layout operations and one-axis sums of small-rank vectors, read at an index written by coordinates.

  A per-channel statistic is kept as a COLUMN: a sum over the positions of a `[n, c, l]` block is a
  `[n, c]` vector that is cast to `[n, c, 1]`, summed over `n` to `[c, 1]`, put beside another column
  to make `[c, 2]`, and later cast to `[1, c, 1]` and broadcast back over a `[n, c, l]` block. Each step
  below says which element of its operand such an operation reads at `(i, j)` or `(i, j, k)`; the sums
  are sums over the coordinate of the reduced axis, on the extended reals.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.Columns

open Idealize.ShloMosaic Idealize.ShloMosaic.ValueIdx

/-! ## Pointwise operations the index vocabulary does not list, on the extended reals -/

section Pointwise
variable {s : Shape} {φ : FTy}

/-- A reciprocal square root at an index is that of the element. -/
theorem rsqrt_apply (a : FVec Ideal s φ) (i : s.Idx) : rsqrt a i = Ideal.rsqrt (a i) := rfl
/-- A comparison at an index is the comparison of the two extended reals. -/
theorem cmpf_ideal_apply (p : CmpFPredicate) (a b : FVec Ideal s φ) (i : s.Idx) :
    cmpf p a b i = Ideal.cmp p (a i) (b i) := rfl
/-- A literal broadcast over a shape reads the extended real its bit pattern denotes. -/
theorem broadcast_ofBits_apply (b : BitVec φ.bits) (i : s.Idx) :
    broadcast s (Scalar.ofBits (F := Ideal) φ b) i = Ideal.ofBits φ b := rfl

end Pointwise

/-! ## Casts, a broadcast and slices -/

section Layout
variable {α : Type}

/-- An `[a, b]` array cast to `[a, b, 1]` (a trailing unit axis kept by a sum) reads, at `(i, j, u)`, the
    operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- A `[1, b, 1]` column broadcast to `[a, b, c]` reads, at `(p, q, r)`, the column at `q`. -/
theorem broadcastTo_1b1_abc_apply {a b c : ℕ} (v : (⟨3, ![1, b, 1]⟩ : Shape).Idx → α)
    (h : (⟨3, ![1, b, 1]⟩ : Shape).Broadcasts ⟨3, ![a, b, c]⟩) (p : Fin a) (q : Fin b) (r : Fin c) :
    broadcastTo ⟨3, ![a, b, c]⟩ v h (ix3 p q r) = v (ix3 (0 : Fin 1) q (0 : Fin 1)) := by
  refine broadcastTo_apply v h (ix3 p q r) (ix3 (0 : Fin 1) q (0 : Fin 1)) fun ax => ?_
  match ax with
  | ⟨0, _⟩ => rfl
  | ⟨1, _⟩ =>
    show q.val = if b = 1 then 0 else q.val
    split
    · have := q.isLt; omega
    · rfl
  | ⟨2, _⟩ => rfl

/-- A rank-3 array cut along axis 0 from `o` reads, at `(j, b, c)`, the source at `(k, b, c)` with `k = o + j`. -/
theorem slice3_axis0_apply {n0 n1 n2 m : ℕ} (o : ℕ) (X : (⟨3, ![n0, n1, n2]⟩ : Shape).Idx → α)
    (h : (⟨3, ![n0, n1, n2]⟩ : Shape).Slices ![o, 0, 0] ⟨3, ![m, n1, n2]⟩)
    (j : Fin m) (b : Fin n1) (c : Fin n2) (k : Fin n0) (hk : k.val = o + j.val) :
    extractStridedSlice ⟨3, ![m, n1, n2]⟩ ![o, 0, 0] X h (ix3 j b c) = X (ix3 k b c) :=
  extractStridedSlice_apply _ _ _ _ _ (fun ax => by
    match ax with
    | ⟨0, _⟩ => exact hk
    | ⟨1, _⟩ => exact (Nat.zero_add _).symm
    | ⟨2, _⟩ => exact (Nat.zero_add _).symm)

/-- Two `[a, 1]` columns put side by side: column 0 of the `[a, 2]` result is the first … -/
theorem concatenate_cols_apply_left {a : ℕ} (x₁ x₂ : (⟨2, ![a, 1]⟩ : Shape).Idx → α)
    (h : Shape.Concatenates [(⟨2, ![a, 1]⟩ : Shape), ⟨2, ![a, 1]⟩] ⟨2, ![a, 2]⟩ 1) (i : Fin a) :
    concatenate ⟨2, ![a, 2]⟩ 1 [⟨⟨2, ![a, 1]⟩, x₁⟩, ⟨⟨2, ![a, 1]⟩, x₂⟩] h (ix2 i (0 : Fin 2))
      = x₁ (ix2 i (0 : Fin 1)) :=
  concatenate_pair_apply_left (1 : Fin 2) x₁ x₂ h (ix2 i (0 : Fin 2)) rfl (ix2 i (0 : Fin 1))
    (fun b => match b with | ⟨0, _⟩ => rfl | ⟨1, _⟩ => rfl)

/-- … and column 1 is the second. -/
theorem concatenate_cols_apply_right {a : ℕ} (x₁ x₂ : (⟨2, ![a, 1]⟩ : Shape).Idx → α)
    (h : Shape.Concatenates [(⟨2, ![a, 1]⟩ : Shape), ⟨2, ![a, 1]⟩] ⟨2, ![a, 2]⟩ 1) (i : Fin a) :
    concatenate ⟨2, ![a, 2]⟩ 1 [⟨⟨2, ![a, 1]⟩, x₁⟩, ⟨⟨2, ![a, 1]⟩, x₂⟩] h (ix2 i (1 : Fin 2))
      = x₂ (ix2 i (0 : Fin 1)) :=
  concatenate_pair_apply_right (1 : Fin 2) x₁ x₂ h (ix2 i (1 : Fin 2)) rfl rfl (ix2 i (0 : Fin 1))
    (fun b hb => match b, hb with
      | ⟨0, _⟩, _ => rfl
      | ⟨1, _⟩, hb => absurd rfl hb)
    rfl

end Layout

/-! ## Sums over one axis -/

section Sums
variable {φ : FTy}

/-- The sum over the last axis of a rank-3 vector: at `(p, q)`, the sum over `l` of the source at `(p, q, l)`. -/
theorem multiReduction_add_axis2_apply {n0 n1 n2 : ℕ} (src : FVec Ideal ⟨3, ![n0, n1, n2]⟩ .f32)
    (h : (⟨3, ![n0, n1, n2]⟩ : Shape).Reduces [2] ⟨2, ![n0, n1]⟩) (hφ : FKind.Formats .f32)
    (hacc : (0x00000000#32 : BitVec FTy.f32.bits) = 0x00000000#32) (p : Fin n0) (q : Fin n1) :
    multiReduction (F := Ideal) .add [2] ⟨2, ![n0, n1]⟩ src 0x00000000#32 h hφ hacc (ix2 p q)
      = ∑ l : Fin n2, src (ix3 p q l) := by
  refine (Ideal.multiReduction_add_single src 0x00000000#32 h hφ hacc (ix2 p q)).trans ?_
  refine Finset.sum_congr rfl fun l _ => congrArg src ?_
  funext c
  match c with
  | ⟨0, _⟩ => rfl
  | ⟨1, _⟩ => rfl
  | ⟨2, _⟩ => rfl

/-- The sum over the first axis of a rank-3 vector: at `(q, r)`, the sum over `n` of the source at `(n, q, r)`. -/
theorem multiReduction_add_axis0_apply {n0 n1 n2 : ℕ} (src : FVec Ideal ⟨3, ![n0, n1, n2]⟩ .f32)
    (h : (⟨3, ![n0, n1, n2]⟩ : Shape).Reduces [0] ⟨2, ![n1, n2]⟩) (hφ : FKind.Formats .f32)
    (hacc : (0x00000000#32 : BitVec FTy.f32.bits) = 0x00000000#32) (q : Fin n1) (r : Fin n2) :
    multiReduction (F := Ideal) .add [0] ⟨2, ![n1, n2]⟩ src 0x00000000#32 h hφ hacc (ix2 q r)
      = ∑ n : Fin n0, src (ix3 n q r) := by
  refine (Ideal.multiReduction_add_single src 0x00000000#32 h hφ hacc (ix2 q r)).trans ?_
  refine Finset.sum_congr rfl fun n _ => congrArg src ?_
  funext c
  match c with
  | ⟨0, _⟩ => rfl
  | ⟨1, _⟩ => rfl
  | ⟨2, _⟩ => rfl

end Sums

end Cert.Columns

end
-- ==== Proof.KerPayload.lean ====
/-
  The kernel program's arithmetic read at one index, on the extended reals.

  The statistics body sums a `[4, 256, 2048]` block over its positions and then over its four rows, once
  plain and once squared, and stores the two per-channel sums side by side as a `[1, 256, 2]` block — or
  adds them to the block already there. The normalising body adds the two halves' statistics, turns them
  into the channel's scale and shift, and applies them and the leaky rectifier to every element of a
  `[2, 256, 2048]` block: one element of its result is `Spec.out` of that element, the channel's two
  sums, `gamma` and `beta`.
-/
import proofs.«144913_g2000205710372994_pallasbulk_301_4_alg».proof.Proof.Gen.KernelIdeal.Skeleton
import proofs.«144913_g2000205710372994_pallasbulk_301_4_alg».proof.Proof.Spec
import proofs.«144913_g2000205710372994_pallasbulk_301_4_alg».proof.Proof.LibColumns

set_option maxRecDepth 16384

noncomputable section

open scoped BigOperators

namespace Cert.KernelIdeal.Hand

open Idealize.ShloMosaic Idealize.ShloMosaic.ValueIdx
open Cert.KernelIdeal Cert.KernelIdeal.Gen
open Cert.Columns

/-! ## The slices the normalising body takes, at literal extents -/

section Slices
variable {α : Type}

/-- The first of two `[256, 2]` slabs. -/
theorem slab_first (X : (⟨3, ![2, 256, 2]⟩ : Shape).Idx → α)
    (h : (⟨3, ![2, 256, 2]⟩ : Shape).Slices ![0, 0, 0] ⟨3, ![1, 256, 2]⟩) (u : Fin 1) (ch : Fin 256) (c : Fin 2) :
    extractStridedSlice ⟨3, ![1, 256, 2]⟩ ![0, 0, 0] X h (ix3 u ch c) = X (ix3 (0 : Fin 2) ch c) :=
  slice3_axis0_apply 0 X h u ch c 0 (by rw [show u.val = 0 from by omega]; rfl)

/-- The second of two `[256, 2]` slabs. -/
theorem slab_second (X : (⟨3, ![2, 256, 2]⟩ : Shape).Idx → α)
    (h : (⟨3, ![2, 256, 2]⟩ : Shape).Slices ![1, 0, 0] ⟨3, ![1, 256, 2]⟩) (u : Fin 1) (ch : Fin 256) (c : Fin 2) :
    extractStridedSlice ⟨3, ![1, 256, 2]⟩ ![1, 0, 0] X h (ix3 u ch c) = X (ix3 (1 : Fin 2) ch c) :=
  slice3_axis0_apply 1 X h u ch c 1 (by rw [show u.val = 0 from by omega]; rfl)

/-- Column 0 of a `[256, 2]` array. -/
theorem col_first (X : (⟨2, ![256, 2]⟩ : Shape).Idx → α)
    (h : (⟨2, ![256, 2]⟩ : Shape).Slices ![0, 0] ⟨2, ![256, 1]⟩) (ch : Fin 256) (u : Fin 1) :
    extractStridedSlice ⟨2, ![256, 1]⟩ ![0, 0] X h (ix2 ch u) = X (ix2 ch (0 : Fin 2)) :=
  slice2_axis1_apply 0 X h ch u 0 (by rw [show u.val = 0 from by omega]; rfl)

/-- Column 1 of a `[256, 2]` array. -/
theorem col_second (X : (⟨2, ![256, 2]⟩ : Shape).Idx → α)
    (h : (⟨2, ![256, 2]⟩ : Shape).Slices ![0, 1] ⟨2, ![256, 1]⟩) (ch : Fin 256) (u : Fin 1) :
    extractStridedSlice ⟨2, ![256, 1]⟩ ![0, 1] X h (ix2 ch u) = X (ix2 ch (1 : Fin 2)) :=
  slice2_axis1_apply 1 X h ch u 1 (by rw [show u.val = 0 from by omega]; rfl)

end Slices

/-! ## The statistics body -/

/-- Column 0 of what the statistics body computes from a block: the block's sum, per channel. -/
theorem k0_pay1_sum (x : Vec Ideal S4x256x2048 .f32) (ch : Fin 256) :
    k0_pay1 x (ix3 (0 : Fin 1) ch (0 : Fin 2)) = ∑ n : Fin 4, ∑ l : Fin 2048, x (ix3 n ch l) := by
  unfold k0_pay1
  simp only [shapeCast_ab_1ab_apply, concatenate_cols_apply_left, shapeCast_self]
  rw [multiReduction_add_axis0_apply]
  refine Finset.sum_congr rfl fun n _ => ?_
  rw [shapeCast_ab_ab1_apply, multiReduction_add_axis2_apply]

/-- Column 1: the block's sum of squares, per channel. -/
theorem k0_pay1_sumsq (x : Vec Ideal S4x256x2048 .f32) (ch : Fin 256) :
    k0_pay1 x (ix3 (0 : Fin 1) ch (1 : Fin 2))
      = ∑ n : Fin 4, ∑ l : Fin 2048, x (ix3 n ch l) * x (ix3 n ch l) := by
  unfold k0_pay1
  simp only [shapeCast_ab_1ab_apply, concatenate_cols_apply_right, shapeCast_self]
  rw [multiReduction_add_axis0_apply]
  refine Finset.sum_congr rfl fun n _ => ?_
  rw [shapeCast_ab_ab1_apply, multiReduction_add_axis2_apply]
  rfl

/-- At a later point the body adds that to the block already there. -/
theorem k0_pay2_apply (x : Vec Ideal S4x256x2048 .f32) (acc : Vec Ideal S1x256x2 .f32) (j : S1x256x2.Idx) :
    k0_pay2 x acc j = acc j + k0_pay1 x j := by
  unfold k0_pay2
  simp only [shapeCast_self, addf_apply]

/-! ## The normalising body -/

/-- One element of what the normalising body stores. -/
theorem k1_pay1_apply (v0 : Vec Ideal S2x256x2 .f32) (v20 v23 : Vec Ideal S256x1 .f32)
    (v27 : Vec Ideal S2x256x2048 .f32) (n : Fin 2) (ch : Fin 256) (l : Fin 2048) :
    k1_pay1 v0 v20 v23 v27 (ix3 n ch l)
      = Spec.out (v27 (ix3 n ch l))
          (v0 (ix3 (0 : Fin 2) ch (0 : Fin 2)) + v0 (ix3 (1 : Fin 2) ch (0 : Fin 2)))
          (v0 (ix3 (0 : Fin 2) ch (1 : Fin 2)) + v0 (ix3 (1 : Fin 2) ch (1 : Fin 2)))
          (v20 (ix2 ch (0 : Fin 1))) (v23 (ix2 ch (0 : Fin 1))) := by
  unfold k1_pay1
  simp only [select_apply, cmpf_ideal_apply, mulf_apply, addf_apply, subf_apply, maximumf_apply, rsqrt_apply,
    broadcast_ofBits_apply, broadcastTo_1b1_abc_apply, shapeCast_ab_1ab_apply, shapeCast_1ab_ab_apply,
    shapeCast_self, col_first, col_second, slab_first, slab_second]
  rfl

end Cert.KernelIdeal.Hand

end
-- ==== Proof.KerStatsValue.lean ====
/-
  What region 0 leaves in the array of partial statistics, on the extended reals. Within one half of the grid the
  output's staging buffer is the running sum of the tiles' pairs (sum, sum of squares): the first point stores its
  tile's pair, every later point adds its own. The half's last point writes the buffer back, so block q of the array
  ends holding the sum of the pairs of the half's eight tiles, channel by channel.
-/
import proofs.«144913_g2000205710372994_pallasbulk_301_4_alg».proof.Proof.KerStats
import proofs.«144913_g2000205710372994_pallasbulk_301_4_alg».proof.Proof.KerPayload
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

open Idealize.ShloMosaic.ValueIdx
open scoped BigOperators

local notation "𝕄" => MT nD τ sig Unit (Elt F) ℕ (UR sig nD τ) ℕ

theorem hz3 : (![0, 0, 0] : Fin 3 → Nat) = fun _ => 0 := by
  funext a; match a with | ⟨0, _⟩ => rfl | ⟨1, _⟩ => rfl | ⟨2, _⟩ => rfl

/-- The first case leaves the tile's pair. -/
theorem out0_A_1_eq (c : Dev nD) (i : grid0.Coords) (arg2 : Memref sig .tc .vmem S4x256x2048 .f32) (harg2 : arg2.IsWhole) (arg3 : Memref sig .tc .vmem S1x256x2 .f32) (harg3 : arg3.IsWhole)
    (hc0 : k0_cond1 i = 1#1) (hc1 : ¬ k0_cond2 i = 1#1) (x0 : Vec F S4x256x2048 .f32) :
    out0_A_1 c i arg2 harg2 arg3 harg3 hc0 hc1 x0 = k0_pay1 x0 := by
  unfold out0_A_1
  rw [View.read_writes_eq_canon _ _ _ (cover0_A_1 c i arg2 harg2 arg3 harg3 hc0 hc1 x0)]
  unfold kernelRun0_A
  dsimp only
  sl_unfold_words
  rw [View.canon_unit_zero hz3]
  simp only [View.readAt_eq_ld, harg2.read_unread, View.ld_unit_zero (S := S4x256x2048) hz3]

/-- The second case leaves the tile's pair added to what the buffer held. -/
theorem out0_B_1_eq (c : Dev nD) (i : grid0.Coords) (arg2 : Memref sig .tc .vmem S4x256x2048 .f32) (harg2 : arg2.IsWhole) (arg3 : Memref sig .tc .vmem S1x256x2 .f32) (harg3 : arg3.IsWhole)
    (hc0 : ¬ k0_cond1 i = 1#1) (hc1 : k0_cond2 i = 1#1) (x0 : Vec F S4x256x2048 .f32) (xo1 : Vec F S1x256x2 .f32) :
    out0_B_1 c i arg2 harg2 arg3 harg3 hc0 hc1 x0 xo1 = k0_pay2 x0 xo1 := by
  unfold out0_B_1
  rw [View.read_writes_eq_canon _ _ _ (cover0_B_1 c i arg2 harg2 arg3 harg3 hc0 hc1 x0 xo1)]
  unfold kernelRun0_B
  dsimp only
  sl_unfold_words
  rw [View.canon_unit_zero hz3]
  simp only [View.readAt_eq_ld, harg2.read_unread, harg3.read_unread, View.ld_unit_zero (S := S4x256x2048) hz3, View.ld_unit_zero (S := S1x256x2) hz3]

/-! ## On the extended reals -/

section Value

variable (V : (c : Dev nD) → (b : Ref sig .tc) → Buf (Elt Ideal) ((c : Thread nD τ).loc b))

/-- The pair of the tile read at point `n` (zero past the grid). -/
def tileAdd (c : Dev nD) (n : ℕ) : S1x256x2.Idx → EReal :=
  fun i => if hn : n < cfg0.N then k0_pay1 (F := Ideal) (iblk0 V c 0 ⟨n, hn⟩) i else 0

theorem outsAt0_cast (c : Dev nD) (n n' : ℕ) (e : n = n') (h : n < cfg0.N) (h' : n' < cfg0.N) :
    outsAt0 V c n h = outsAt0 V c n' h' := by subst e; rfl

/-- After point `8q + j` the buffer holds the sum of the pairs of the tiles of points `8q … 8q + j`. -/
theorem outsAt0_run (c : Dev nD) (q j : ℕ) (hj : j < 8) (h : 8 * q + j < cfg0.N) (i : S1x256x2.Idx) :
    outsAt0 V c (8 * q + j) h i = ∑ s ∈ Finset.range (j + 1), tileAdd V c (8 * q + s) i := by
  have e := Pipeline.eq_accAt (N := cfg0.N) (α := S1x256x2.Idx → EReal) (fun n hn => outsAt0 V c n hn) 8
    (fun n hn => k0_pay1 (F := Ideal) (iblk0 V c 0 ⟨n, hn⟩))
    (fun n hn acc => k0_pay2 (F := Ideal) (iblk0 V c 0 ⟨n, hn⟩) acc)
    (fun n hn h0 => (outsAt0_A V c ⟨n, hn⟩ h0).trans (out0_A_1_eq _ _ _ _ _ _ _ _ _))
    (fun n hn h0 => (outsAt0_B V c ⟨n + 1, hn⟩ h0).trans (out0_B_1_eq _ _ _ _ _ _ _ _ _ _))
    q j hj h
  refine (congrFun e i).trans ?_
  rw [Pipeline.accAt_add_apply _ _ (fun _ => (0 : EReal)) (tileAdd V c) (8 * q) 7
    (fun h i => by unfold tileAdd; rw [dif_pos h, zero_add])
    (fun n h acc i _ _ => by unfold tileAdd; rw [dif_pos h]; exact k0_pay2_apply _ _ _)
    j (by omega) h i, zero_add]

/-! ## The blocks -/

/-- The index maps over the grid: the tile of point `t` is the `t`-th group of four batch rows; the output block is the
    half's. -/
theorem idx_facts0 : ∀ t : Fin cfg0.N, win0_0.index t (0 : Fin 3) = t.val ∧ win0_0.index t (1 : Fin 3) = 0 ∧ win0_0.index t (2 : Fin 3) = 0
    ∧ win0_1.index t (0 : Fin 3) = t.val / 8 ∧ win0_1.index t (1 : Fin 3) = 0 ∧ win0_1.index t (2 : Fin 3) = 0 :=
  (by decide +kernel : ∀ t : Fin grid0.N, _)

/-- The tile of point `t` read at an index: the pooled array at batch row `4t + n`. -/
theorem iblk0_0_apply (c : Dev nD) (t : Fin cfg0.N) (n : Fin 4) (ch : Fin 256) (l : Fin 2048) (hr : 4 * t.val + n.val < 64) :
    iblk0 V c 0 t (ix3 n ch l) = V c main_call0_v4 (ix3 (⟨4 * t.val + n.val, hr⟩ : Fin 64) ch l) := by
  obtain ⟨e0, e1, e2, -, -, -⟩ := idx_facts0 t
  show V c main_call0_v4 (((cfg0.win 0).blk t).view.emb (ix3 n ch l)) = _
  refine congrArg _ ?_
  funext a; apply Fin.ext
  match a with
  | ⟨0, _⟩ => show win0_0.index t (0 : Fin 3) * 4 + 1 * n.val = 4 * t.val + n.val; omega
  | ⟨1, _⟩ => show win0_0.index t (1 : Fin 3) * 256 + 1 * ch.val = ch.val; omega
  | ⟨2, _⟩ => show win0_0.index t (2 : Fin 3) * 2048 + 1 * l.val = l.val; omega

/-- What the array of partial statistics ends holding: per half, the sum of the pairs of its eight tiles. -/
def partOf (c : Dev nD) : S2x256x2.Idx → EReal := fun i =>
  ∑ s ∈ Finset.range 8, tileAdd V c (8 * (i 0).val + s) (ix3 (0 : Fin 1) (i 1) (i 2))

theorem mem_blk0_1 (t : Fin cfg0.N) (i : S2x256x2.Idx) :
    i ∈ ((cfg0.win 1).blk t).view.set ↔ ∀ a : Fin 3, win0_1.index t a * S1x256x2.size a ≤ (i a).val ∧ (i a).val < win0_1.index t a * S1x256x2.size a + S1x256x2.size a := by
  show i ∈ ((View.whole main_call0_v5).slice (win0_1.rect t)).set ↔ _
  rw [View.set_slice_whole, Rect.mem_set_unit]
  exact Iff.rfl

/-- What the last point of a half writes back is the half's block of `partOf`. -/
theorem flushed0_1_eq (c : Dev nD) (t : Fin cfg0.N) (hf : (cfg0.win 1).flush t = true) :
    (dat0 V c).flushed 1 t = ((cfg0.win 1).blk t).view.read (Elt Ideal) (partOf V c) := by
  show (cfg0.win 1).cut (grid0.coords t) ((dat0 V c).after 1 t) = _
  rw [after0_1]
  have h7 : t.val % 8 = 7 := (flush0_1 t).mp hf
  have hN : t.val < 16 := lt_of_lt_of_eq t.isLt (show cfg0.N = 16 from N_0)
  obtain ⟨-, -, -, e0, e1, e2⟩ := idx_facts0 t
  funext y
  show outsAt0 V c t.val t.isLt y = partOf V c (((cfg0.win 1).blk t).view.emb y)
  have hq : t.val = 8 * (t.val / 8) + 7 := by omega
  rw [outsAt0_cast V c t.val (8 * (t.val / 8) + 7) hq t.isLt (hq ▸ t.isLt), outsAt0_run V c (t.val / 8) 7 (by omega) _ y]
  unfold partOf
  have hy0 : (y 0).val < 1 := (y 0).isLt
  have he0 : ((((cfg0.win 1).blk t).view.emb y) 0).val = t.val / 8 := by
    show win0_1.index t (0 : Fin 3) * 1 + 1 * (y 0).val = _; omega
  have hy : ix3 (0 : Fin 1) ((((cfg0.win 1).blk t).view.emb y) 1) ((((cfg0.win 1).blk t).view.emb y) 2) = y := by
    funext a; apply Fin.ext
    match a with
    | ⟨0, _⟩ => show (0 : ℕ) = (y 0).val; omega
    | ⟨1, _⟩ => show win0_1.index t (1 : Fin 3) * 256 + 1 * (y 1).val = (y 1).val; omega
    | ⟨2, _⟩ => show win0_1.index t (2 : Fin 3) * 2 + 1 * (y 2).val = (y 2).val; omega
  rw [he0]
  exact Finset.sum_congr rfl fun s _ => congrArg (tileAdd V c (8 * (t.val / 8) + s)) hy.symm

/-- The array of partial statistics after the region. -/
theorem part_final (c : Dev nD) : (dat0 V c).arrAt 1 cfg0.N = partOf V c := by
  refine (dat0 V c).arrAt_eq_of_cover 1 (partOf V c) (fun t hf => flushed0_1_eq V c t hf) fun i => ?_
  have hi0 : (i 0).val < 2 := (i 0).isLt
  have hi1 : (i 1).val < 256 := (i 1).isLt
  have hi2 : (i 2).val < 2 := (i 2).isLt
  have ht : 8 * (i 0).val + 7 < cfg0.N := by rw [show cfg0.N = 16 from N_0]; omega
  refine ⟨⟨8 * (i 0).val + 7, ht⟩, (flush0_1 _).mpr (by show (8 * (i 0).val + 7) % 8 = 7; omega), ?_⟩
  obtain ⟨-, -, -, e0, e1, e2⟩ := idx_facts0 ⟨8 * (i 0).val + 7, ht⟩
  rw [mem_blk0_1]
  intro a
  match a with
  | ⟨0, _⟩ => show win0_1.index ⟨8 * (i 0).val + 7, ht⟩ (0 : Fin 3) * 1 ≤ (i 0).val ∧ (i 0).val < win0_1.index ⟨8 * (i 0).val + 7, ht⟩ (0 : Fin 3) * 1 + 1; (have : (8 * (i 0).val + 7) / 8 = (i 0).val := by omega); dsimp only at e0; omega
  | ⟨1, _⟩ => show win0_1.index ⟨8 * (i 0).val + 7, ht⟩ (1 : Fin 3) * 256 ≤ (i 1).val ∧ (i 1).val < win0_1.index ⟨8 * (i 0).val + 7, ht⟩ (1 : Fin 3) * 256 + 256; omega
  | ⟨2, _⟩ => show win0_1.index ⟨8 * (i 0).val + 7, ht⟩ (2 : Fin 3) * 2 ≤ (i 2).val ∧ (i 2).val < win0_1.index ⟨8 * (i 0).val + 7, ht⟩ (2 : Fin 3) * 2 + 2; omega

end Value

end Cert.KernelIdeal.Hand

end
-- ==== Proof.KerNormValue.lean ====
/-
  The array the normalisation region of the kernel program leaves, index by index: every element of the result is
  `Spec.out` of the pooled element there, its channel's two statistics (each the sum of the two partial rows) and
  the channel's scale and shift. Each point writes back one tile of two batch rows computed from the blocks it
  loaded; a block's element sits in its array at block index times block size plus its own coordinate, the
  statistics and the scale-shift pair are whole-array blocks, and the 32 tiles cover the 64 rows.
-/
import proofs.«144913_g2000205710372994_pallasbulk_301_4_alg».proof.Proof.KerNorm
import proofs.«144913_g2000205710372994_pallasbulk_301_4_alg».proof.Proof.Spec
import proofs.«144913_g2000205710372994_pallasbulk_301_4_alg».proof.Proof.KerPayload
import Idealize.ShloMosaic.Lib.Pipeline.Value
import Idealize.ShloMosaic.Lib.ValueIdx

set_option maxRecDepth 16384

noncomputable section

namespace Cert.KernelIdeal.Hand

open Cert.KernelIdeal Cert.KernelIdeal.Gen

open Idealize.ShloMosaic Idealize.ShloMosaic.TcCoe Idealize.ShloMosaic.ValueIdx
open Idealize.SL Idealize.SL.Sem
open Idealize.ShloMosaic.Pipeline (Dat Cfg Window)

-- the core's buffer contents when the region is entered, on the extended reals
variable (V : (c : Dev nD) → (b : Ref sig .tc) → Buf (Elt Ideal) ((c : Thread nD τ).loc b))

/-! ## The result as one function of the arrays the region reads -/

/-- Element `(n, ch, l)` of the result from the pooled array `p`, the two rows of partial statistics `st` and the
    scale-shift pair `gb`. -/
def normOf (p : S64x256x2048.Idx → EReal) (st : S2x256x2.Idx → EReal) (gb : S256x2.Idx → EReal) : S64x256x2048.Idx → EReal :=
  fun i => Spec.out (p i)
    (st (ix3 (0 : Fin 2) (i 1 : Fin 256) (0 : Fin 2)) + st (ix3 (1 : Fin 2) (i 1 : Fin 256) (0 : Fin 2)))
    (st (ix3 (0 : Fin 2) (i 1 : Fin 256) (1 : Fin 2)) + st (ix3 (1 : Fin 2) (i 1 : Fin 256) (1 : Fin 2)))
    (gb (ix2 (i 1 : Fin 256) (0 : Fin 2))) (gb (ix2 (i 1 : Fin 256) (1 : Fin 2)))

theorem zero3 : (![0, 0, 0] : Fin 3 → Nat) = fun _ => 0 := funext fun a => by fin_cases a <;> rfl

/-! ## The index maps, decided over the grid -/

/-- The pooled tile and the result tile move together, one tile of two rows per point in the grid's order; the
    statistics and the scale-shift pair stay at their one block. -/
theorem index_facts : ∀ t : Fin cfg1.N,
    win1_3.index t (0 : Fin 3) = t.val ∧ win1_3.index t (1 : Fin 3) = 0 ∧ win1_3.index t (2 : Fin 3) = 0
    ∧ win1_0.index t (0 : Fin 3) = t.val ∧ win1_0.index t (1 : Fin 3) = 0 ∧ win1_0.index t (2 : Fin 3) = 0
    ∧ win1_1.index t (0 : Fin 3) = 0 ∧ win1_1.index t (1 : Fin 3) = 0 ∧ win1_1.index t (2 : Fin 3) = 0
    ∧ win1_2.index t (0 : Fin 2) = 0 ∧ win1_2.index t (1 : Fin 2) = 0 :=
  (by decide +kernel : ∀ t : Fin grid1.N, _)

/-! ## The blocks, read at an element -/

/-- An element of the pooled tile at point `t` is the pooled array's, two rows per tile down the batch axis. -/
theorem pooled_block_apply (c : Dev nD) (t : Fin cfg1.N) (y : S2x256x2048.Idx) (k : S64x256x2048.Idx)
    (hk0 : (k 0).val = 2 * t.val + (y 0).val) (hk1 : (k 1).val = (y 1).val) (hk2 : (k 2).val = (y 2).val) :
    (iblk1 V c 0 t : Vec Ideal S2x256x2048 .f32) y = (V c main_call0_v4 : S64x256x2048.Idx → EReal) k := by
  obtain ⟨-, -, -, e0, e1, e2, -⟩ := index_facts t
  unfold iblk1
  rw [View.read_apply]
  show V c main_call0_v4 _ = V c main_call0_v4 _
  congr 1
  funext a
  apply Fin.ext
  match a with
  | ⟨0, _⟩ => show win1_0.index t (0 : Fin 3) * 2 + 1 * (y 0).val = (k 0).val; rw [e0, hk0]; omega
  | ⟨1, _⟩ => show win1_0.index t (1 : Fin 3) * 256 + 1 * (y 1).val = (k 1).val; rw [e1, hk1]; omega
  | ⟨2, _⟩ => show win1_0.index t (2 : Fin 3) * 2048 + 1 * (y 2).val = (k 2).val; rw [e2, hk2]; omega

/-- The statistics block at any point is the whole array of partial statistics. -/
theorem stats_block_apply (c : Dev nD) (t : Fin cfg1.N) (y : S2x256x2.Idx) :
    (iblk1 V c 1 t : Vec Ideal S2x256x2 .f32) y = (V c main_call0_v5 : S2x256x2.Idx → EReal) y := by
  obtain ⟨-, -, -, -, -, -, e0, e1, e2, -⟩ := index_facts t
  unfold iblk1
  rw [View.read_apply]
  show V c main_call0_v5 _ = V c main_call0_v5 _
  congr 1
  funext a
  apply Fin.ext
  match a with
  | ⟨0, _⟩ => show win1_1.index t (0 : Fin 3) * 2 + 1 * (y 0).val = (y 0).val; rw [e0]; omega
  | ⟨1, _⟩ => show win1_1.index t (1 : Fin 3) * 256 + 1 * (y 1).val = (y 1).val; rw [e1]; omega
  | ⟨2, _⟩ => show win1_1.index t (2 : Fin 3) * 2 + 1 * (y 2).val = (y 2).val; rw [e2]; omega

/-- The scale-shift block at any point is the whole stacked pair. -/
theorem pair_block_apply (c : Dev nD) (t : Fin cfg1.N) (y : S256x2.Idx) :
    (iblk1 V c 2 t : Vec Ideal S256x2 .f32) y = (V c main_call0_v2 : S256x2.Idx → EReal) y := by
  obtain ⟨-, -, -, -, -, -, -, -, -, e0, e1⟩ := index_facts t
  unfold iblk1
  rw [View.read_apply]
  show V c main_call0_v2 _ = V c main_call0_v2 _
  congr 1
  funext a
  apply Fin.ext
  match a with
  | ⟨0, _⟩ => show win1_2.index t (0 : Fin 2) * 256 + 1 * (y 0).val = (y 0).val; rw [e0]; omega
  | ⟨1, _⟩ => show win1_2.index t (1 : Fin 2) * 2 + 1 * (y 1).val = (y 1).val; rw [e1]; omega

/-! ## The body's payload at an element -/

/-- The scale is column 0 of the stacked pair, -/
theorem ld_scale (x2 : Vec Ideal S256x2 .f32) (ch : Fin 256) (u : Fin 1) :
    (View.ld x2 r1_1 : S256x1.Idx → EReal) (ix2 ch u) = x2 (ix2 ch (0 : Fin 2)) := by
  show x2 (r1_1.idx (ix2 ch u)) = x2 (ix2 ch (0 : Fin 2))
  congr 1
  funext a
  apply Fin.ext
  have hu : u.val = 0 := by omega
  match a with
  | ⟨0, _⟩ => show 0 + 1 * ch.val = ch.val; omega
  | ⟨1, _⟩ => show 0 + 1 * u.val = 0; omega

/-- the shift column 1. -/
theorem ld_shift (x2 : Vec Ideal S256x2 .f32) (ch : Fin 256) (u : Fin 1) :
    (View.ld x2 r1_2 : S256x1.Idx → EReal) (ix2 ch u) = x2 (ix2 ch (1 : Fin 2)) := by
  show x2 (r1_2.idx (ix2 ch u)) = x2 (ix2 ch (1 : Fin 2))
  congr 1
  funext a
  apply Fin.ext
  have hu : u.val = 0 := by omega
  match a with
  | ⟨0, _⟩ => show 0 + 1 * ch.val = ch.val; omega
  | ⟨1, _⟩ => show 1 + 1 * u.val = 1; omega

/-- One element of the tile the body stores, from the three blocks it loaded. -/
theorem stored_apply (x0 : Vec Ideal S2x256x2048 .f32) (x1 : Vec Ideal S2x256x2 .f32) (x2 : Vec Ideal S256x2 .f32)
    (j : S2x256x2048.Idx) :
    k1_pay1 x1 (View.ld x2 r1_1) (View.ld x2 r1_2) x0 j
      = Spec.out (x0 j)
          (x1 (ix3 (0 : Fin 2) (j 1 : Fin 256) (0 : Fin 2)) + x1 (ix3 (1 : Fin 2) (j 1 : Fin 256) (0 : Fin 2)))
          (x1 (ix3 (0 : Fin 2) (j 1 : Fin 256) (1 : Fin 2)) + x1 (ix3 (1 : Fin 2) (j 1 : Fin 256) (1 : Fin 2)))
          (x2 (ix2 (j 1 : Fin 256) (0 : Fin 2))) (x2 (ix2 (j 1 : Fin 256) (1 : Fin 2))) := by
  obtain ⟨n, ch, l, rfl⟩ : ∃ (n : Fin 2) (ch : Fin 256) (l : Fin 2048), j = ix3 n ch l := ⟨j 0, j 1, j 2, eq_ix3 j⟩
  rw [k1_pay1_apply, ld_scale, ld_shift]

/-! ## What a point writes back -/

/-- What point `t` writes back is tile `t` of `normOf` of the arrays as the region finds them. -/
theorem flushed1_3_eq (c : Dev nD) (t : Fin cfg1.N) :
    (dat1 V c).flushed 3 t
      = ((cfg1.win 3).blk t).view.read (Elt Ideal) (normOf (V c main_call0_v4) (V c main_call0_v5) (V c main_call0_v2)) := by
  show (cfg1.win 3).cut (grid1.coords t) ((dat1 V c).after 3 t) = _
  rw [after1_3]
  unfold out1_3
  rw [View.canon_unit_zero zero3]
  simp only [View.ld_unit_zero (S := S2x256x2048) zero3, View.ld_unit_zero (S := S2x256x2) zero3]
  obtain ⟨e0, e1, e2, -⟩ := index_facts t
  funext j
  show k1_pay1 (iblk1 V c 1 t) (View.ld (iblk1 V c 2 t) r1_1) (View.ld (iblk1 V c 2 t) r1_2) (iblk1 V c 0 t) j
    = normOf (V c main_call0_v4) (V c main_call0_v5) (V c main_call0_v2) (((cfg1.win 3).blk t).view.emb j)
  refine (stored_apply _ _ _ j).trans ?_
  have hk0 : ((((cfg1.win 3).blk t).view.emb j : S64x256x2048.Idx) 0).val = 2 * t.val + ((j : S2x256x2048.Idx) 0).val := by
    show win1_3.index t (0 : Fin 3) * 2 + 1 * ((j : S2x256x2048.Idx) 0).val = _; rw [e0]; omega
  have hk1 : ((((cfg1.win 3).blk t).view.emb j : S64x256x2048.Idx) 1).val = ((j : S2x256x2048.Idx) 1).val := by
    show win1_3.index t (1 : Fin 3) * 256 + 1 * ((j : S2x256x2048.Idx) 1).val = _; rw [e1]; omega
  have hk2 : ((((cfg1.win 3).blk t).view.emb j : S64x256x2048.Idx) 2).val = ((j : S2x256x2048.Idx) 2).val := by
    show win1_3.index t (2 : Fin 3) * 2048 + 1 * ((j : S2x256x2048.Idx) 2).val = _; rw [e2]; omega
  have hch : ((((cfg1.win 3).blk t).view.emb j : S64x256x2048.Idx) 1 : Fin 256) = ((j : S2x256x2048.Idx) 1 : Fin 256) := Fin.ext hk1
  unfold normOf
  rw [pooled_block_apply V c t j _ hk0 hk1 hk2, hch]
  simp only [stats_block_apply, pair_block_apply]

/-! ## The tiles cover the array -/

/-- An index of the result array is in point `t`'s tile iff each coordinate is in the tile's range on its axis. -/
theorem mem_tile (t : Fin cfg1.N) (i : S64x256x2048.Idx) :
    i ∈ ((cfg1.win 3).blk t).view.set
      ↔ ∀ a : Fin 3, win1_3.index t a * S2x256x2048.size a ≤ (i a).val ∧ (i a).val < win1_3.index t a * S2x256x2048.size a + S2x256x2048.size a := by
  show i ∈ ((View.whole main_v0).slice (win1_3.rect t)).set ↔ _
  rw [View.set_slice_whole, Rect.mem_set_unit]
  exact Iff.rfl

/-- Row `n` of the batch is in tile `n / 2`. -/
theorem covered (i : S64x256x2048.Idx) :
    ∃ t : Fin cfg1.N, (cfg1.win 3).flush t = true ∧ i ∈ ((cfg1.win 3).blk t).view.set := by
  have hi0 : (i 0).val < 64 := (i 0).isLt
  have hi1 : (i 1).val < 256 := (i 1).isLt
  have hi2 : (i 2).val < 2048 := (i 2).isLt
  have hN : cfg1.N = 32 := N_1
  let t : Fin cfg1.N := ⟨(i 0).val / 2, by rw [hN]; omega⟩
  have ht : t.val = (i 0).val / 2 := rfl
  obtain ⟨e0, e1, e2, -⟩ := index_facts t
  refine ⟨t, flush1_3 t, ?_⟩
  rw [mem_tile]
  intro a
  match a with
  | ⟨0, _⟩ => show win1_3.index t (0 : Fin 3) * 2 ≤ (i 0).val ∧ (i 0).val < win1_3.index t (0 : Fin 3) * 2 + 2; rw [e0, ht]; omega
  | ⟨1, _⟩ => show win1_3.index t (1 : Fin 3) * 256 ≤ (i 1).val ∧ (i 1).val < win1_3.index t (1 : Fin 3) * 256 + 256; rw [e1]; omega
  | ⟨2, _⟩ => show win1_3.index t (2 : Fin 3) * 2048 ≤ (i 2).val ∧ (i 2).val < win1_3.index t (2 : Fin 3) * 2048 + 2048; rw [e2]; omega

/-! ## The array after the region -/

/-- The result array after the region's last point is `normOf` of the arrays the region read. -/
theorem final1_3 (c : Dev nD) :
    (dat1 V c).arrAt 3 cfg1.N = normOf (V c main_call0_v4) (V c main_call0_v5) (V c main_call0_v2) :=
  (dat1 V c).arrAt_eq_of_cover 3 (normOf (V c main_call0_v4) (V c main_call0_v5) (V c main_call0_v2))
    (fun t _ => flushed1_3_eq V c t) covered

/-- `normOf` at an element. -/
theorem normOf_apply (p : S64x256x2048.Idx → EReal) (st : S2x256x2.Idx → EReal) (gb : S256x2.Idx → EReal)
    (n : Fin 64) (ch : Fin 256) (l : Fin 2048) :
    normOf p st gb (ix3 n ch l)
      = Spec.out (p (ix3 n ch l))
          (st (ix3 (0 : Fin 2) ch (0 : Fin 2)) + st (ix3 (1 : Fin 2) ch (0 : Fin 2)))
          (st (ix3 (0 : Fin 2) ch (1 : Fin 2)) + st (ix3 (1 : Fin 2) ch (1 : Fin 2)))
          (gb (ix2 ch (0 : Fin 2))) (gb (ix2 ch (1 : Fin 2))) := rfl

/-- The result array element by element; `p`, `st`, `gb` name the three arrays at their literal shapes (each
    hypothesis holds by `rfl`). -/
theorem final1_3_apply (c : Dev nD) (p : S64x256x2048.Idx → EReal) (st : S2x256x2.Idx → EReal) (gb : S256x2.Idx → EReal)
    (hp : p = V c main_call0_v4) (hst : st = V c main_call0_v5) (hgb : gb = V c main_call0_v2)
    (n : Fin 64) (ch : Fin 256) (l : Fin 2048) :
    (dat1 V c).arrAt 3 cfg1.N (ix3 n ch l)
      = Spec.out (p (ix3 n ch l))
          (st (ix3 (0 : Fin 2) ch (0 : Fin 2)) + st (ix3 (1 : Fin 2) ch (0 : Fin 2)))
          (st (ix3 (0 : Fin 2) ch (1 : Fin 2)) + st (ix3 (1 : Fin 2) ch (1 : Fin 2)))
          (gb (ix2 ch (0 : Fin 2))) (gb (ix2 ch (1 : Fin 2))) := by
  subst hp hst hgb
  rw [final1_3]
  rfl

end Cert.KernelIdeal.Hand

end
-- ==== Proof.Result.lean ====
/-
  The common value of the two programs, on the extended reals: from the pooled array P[64, 256, 2048] and the stacked
  parameters gb[256, 2] (column 0 the scale parameter, column 1 the shift parameter), per channel the sum and the sum
  of squares of P over all batch rows and positions, taken row by row; then every element of P normalised with them
  and passed through the leaky rectifier (`Spec.out`).
-/
import proofs.«144913_g2000205710372994_pallasbulk_301_4_alg».proof.Proof.Spec
import Idealize.ShloMosaic.Lib.ValueIdx

noncomputable section

open scoped BigOperators

namespace Cert.Spec

open Idealize.ShloMosaic Idealize.ShloMosaic.ValueIdx

/-- The sum over the positions of batch row `k` of channel `ch` (zero past the last row). -/
def rowSum (P : (⟨3, ![64, 256, 2048]⟩ : Shape).Idx → EReal) (ch : Fin 256) (k : ℕ) : EReal :=
  if h : k < 64 then ∑ l : Fin 2048, P (ix3 (⟨k, h⟩ : Fin 64) ch l) else 0

/-- The same for the squares. -/
def rowSq (P : (⟨3, ![64, 256, 2048]⟩ : Shape).Idx → EReal) (ch : Fin 256) (k : ℕ) : EReal :=
  if h : k < 64 then ∑ l : Fin 2048, P (ix3 (⟨k, h⟩ : Fin 64) ch l) * P (ix3 (⟨k, h⟩ : Fin 64) ch l) else 0

/-- The channel's sum over all rows. -/
def total1 (P : (⟨3, ![64, 256, 2048]⟩ : Shape).Idx → EReal) (ch : Fin 256) : EReal := ∑ s ∈ Finset.range 64, rowSum P ch s
/-- The channel's sum of squares over all rows. -/
def total2 (P : (⟨3, ![64, 256, 2048]⟩ : Shape).Idx → EReal) (ch : Fin 256) : EReal := ∑ s ∈ Finset.range 64, rowSq P ch s

/-- One element of the result. -/
def resultAt (P : (⟨3, ![64, 256, 2048]⟩ : Shape).Idx → EReal) (gb : (⟨2, ![256, 2]⟩ : Shape).Idx → EReal)
    (n : Fin 64) (ch : Fin 256) (l : Fin 2048) : EReal :=
  out (P (ix3 n ch l)) (total1 P ch) (total2 P ch) (gb (ix2 ch (0 : Fin 2))) (gb (ix2 ch (1 : Fin 2)))

/-- The result array. -/
def result (P : (⟨3, ![64, 256, 2048]⟩ : Shape).Idx → EReal) (gb : (⟨2, ![256, 2]⟩ : Shape).Idx → EReal) :
    (⟨3, ![64, 256, 2048]⟩ : Shape).Idx → EReal :=
  fun i => resultAt P gb (i 0) (i 1) (i 2)

theorem result_ix3 (P : (⟨3, ![64, 256, 2048]⟩ : Shape).Idx → EReal) (gb : (⟨2, ![256, 2]⟩ : Shape).Idx → EReal)
    (n : Fin 64) (ch : Fin 256) (l : Fin 2048) : result P gb (ix3 n ch l) = resultAt P gb n ch l := rfl

end Cert.Spec

end
-- ==== Proof.KerValue.lean ====
/-
  The value of the kernel program on the extended reals. The array of partial statistics holds, per half of the batch,
  the sums over the half's eight tiles of four rows; adding the two halves gives, per channel, the sum (and the sum of
  squares) over all sixty-four batch rows taken row by row — extended-real addition is commutative and associative, so
  the grouping does not matter. The normalisation region then leaves, at every element, `Spec.out` of the pooled element,
  the channel's two totals and the channel's two parameters: the common result `Spec.result`.
-/
import proofs.«144913_g2000205710372994_pallasbulk_301_4_alg».proof.Proof.KerRun
import proofs.«144913_g2000205710372994_pallasbulk_301_4_alg».proof.Proof.KerStatsValue
import proofs.«144913_g2000205710372994_pallasbulk_301_4_alg».proof.Proof.KerNormValue
import proofs.«144913_g2000205710372994_pallasbulk_301_4_alg».proof.Proof.Result
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

open Idealize.ShloMosaic.ValueIdx
open scoped BigOperators

local notation "𝕄" => MT nD τ sig Unit (Elt F) ℕ (UR sig nD τ) ℕ

section Totals

variable (V : (c : Dev nD) → (b : Ref sig .tc) → Buf (Elt Ideal) ((c : Thread nD τ).loc b))

/-- A tile's sum, per channel, is the sum of its four batch rows' sums. -/
theorem tileAdd_sum (c : Dev nD) (n : ℕ) (ch : Fin 256) :
    tileAdd V c n (ix3 (0 : Fin 1) ch (0 : Fin 2)) = ∑ n' : Fin 4, Spec.rowSum (V c main_call0_v4) ch (4 * n + n'.val) := by
  unfold tileAdd
  by_cases hn : n < cfg0.N
  · have hN : n < 16 := lt_of_lt_of_eq hn (show cfg0.N = 16 from N_0)
    rw [dif_pos hn, k0_pay1_sum]
    refine Finset.sum_congr rfl fun n' _ => ?_
    have hn' : n'.val < 4 := n'.isLt
    have hr : 4 * n + n'.val < 64 := by omega
    unfold Spec.rowSum
    rw [dif_pos hr]
    exact Finset.sum_congr rfl fun l _ => iblk0_0_apply V c ⟨n, hn⟩ n' ch l hr
  · have hN : 16 ≤ n := by have := (show cfg0.N = 16 from N_0); omega
    rw [dif_neg hn]
    symm
    refine Finset.sum_eq_zero fun n' _ => ?_
    unfold Spec.rowSum
    rw [dif_neg (by omega)]

/-- The same for the squares. -/
theorem tileAdd_sumsq (c : Dev nD) (n : ℕ) (ch : Fin 256) :
    tileAdd V c n (ix3 (0 : Fin 1) ch (1 : Fin 2)) = ∑ n' : Fin 4, Spec.rowSq (V c main_call0_v4) ch (4 * n + n'.val) := by
  unfold tileAdd
  by_cases hn : n < cfg0.N
  · have hN : n < 16 := lt_of_lt_of_eq hn (show cfg0.N = 16 from N_0)
    rw [dif_pos hn, k0_pay1_sumsq]
    refine Finset.sum_congr rfl fun n' _ => ?_
    have hn' : n'.val < 4 := n'.isLt
    have hr : 4 * n + n'.val < 64 := by omega
    unfold Spec.rowSq
    rw [dif_pos hr]
    exact Finset.sum_congr rfl fun l _ => by rw [iblk0_0_apply V c ⟨n, hn⟩ n' ch l hr]
  · have hN : 16 ≤ n := by have := (show cfg0.N = 16 from N_0); omega
    rw [dif_neg hn]
    symm
    refine Finset.sum_eq_zero fun n' _ => ?_
    unfold Spec.rowSq
    rw [dif_neg (by omega)]

/-- The two halves' sums add up to the total over all batch rows. -/
theorem part_total1 (c : Dev nD) (ch : Fin 256) :
    partOf V c (ix3 (0 : Fin 2) ch (0 : Fin 2)) + partOf V c (ix3 (1 : Fin 2) ch (0 : Fin 2)) = Spec.total1 (V c main_call0_v4) ch := by
  unfold partOf Spec.total1
  show (∑ s ∈ Finset.range 8, tileAdd V c (8 * 0 + s) (ix3 (0 : Fin 1) ch (0 : Fin 2)))
      + (∑ s ∈ Finset.range 8, tileAdd V c (8 * 1 + s) (ix3 (0 : Fin 1) ch (0 : Fin 2))) = _
  simp only [tileAdd_sum, Nat.mul_zero, Nat.zero_add, Nat.mul_one]
  exact Spec.sum_two_halves (Spec.rowSum (V c main_call0_v4) ch)

theorem part_total2 (c : Dev nD) (ch : Fin 256) :
    partOf V c (ix3 (0 : Fin 2) ch (1 : Fin 2)) + partOf V c (ix3 (1 : Fin 2) ch (1 : Fin 2)) = Spec.total2 (V c main_call0_v4) ch := by
  unfold partOf Spec.total2
  show (∑ s ∈ Finset.range 8, tileAdd V c (8 * 0 + s) (ix3 (0 : Fin 1) ch (1 : Fin 2)))
      + (∑ s ∈ Finset.range 8, tileAdd V c (8 * 1 + s) (ix3 (0 : Fin 1) ch (1 : Fin 2))) = _
  simp only [tileAdd_sumsq, Nat.mul_zero, Nat.zero_add, Nat.mul_one]
  exact Spec.sum_two_halves (Spec.rowSq (V c main_call0_v4) ch)

end Totals

section Run

variable (m : (ℓ : Loc nD τ sig) → Buf (Elt Ideal) ℓ) (ρ : Dev nD → PrngReg)

/-- Region 0 leaves the pooled array as it found it, -/
theorem Ve1_pooled (c : Dev nD) : Ve1 m ρ c main_call0_v4 = Ve0 m ρ c main_call0_v4 :=
  (W2_arr m ρ c 0).trans (((dat0 (Ve0 m ρ) c).arrAt_in 0 rfl _).trans (A_eq0 (Ve0 m ρ) c 0))
/-- the partial statistics at the halves' sums, -/
theorem Ve1_part (c : Dev nD) : Ve1 m ρ c main_call0_v5 = partOf (Ve0 m ρ) c :=
  (W2_arr m ρ c 1).trans (part_final (Ve0 m ρ) c)
/-- and the stacked parameters as it found them. -/
theorem Ve1_gb (c : Dev nD) : Ve1 m ρ c main_call0_v2 = Ve0 m ρ c main_call0_v2 :=
  W2_of_ne m ρ c main_call0_v2 (by decide)

/-- The result array after the run, element by element. -/
theorem value_apply (c : Dev nD) (P : S64x256x2048.Idx → EReal) (gb : S256x2.Idx → EReal)
    (hP : P = Ve0 m ρ c main_call0_v4) (hgb : gb = Ve0 m ρ c main_call0_v2) (n : Fin 64) (ch : Fin 256) (l : Fin 2048) :
    (dat1 (Ve1 m ρ) c).arrAt 3 cfg1.N (ix3 n ch l) = Spec.resultAt P gb n ch l := by
  rw [final1_3_apply (Ve1 m ρ) c P (partOf (Ve0 m ρ) c) gb (hP.trans (Ve1_pooled m ρ c).symm) (Ve1_part m ρ c).symm
    (hgb.trans (Ve1_gb m ρ c).symm) n ch l]
  subst hP
  unfold Spec.resultAt
  rw [part_total1, part_total2]

/-- The result array after the run. -/
theorem value (c : Dev nD) (P : S64x256x2048.Idx → EReal) (gb : S256x2.Idx → EReal)
    (hP : P = Ve0 m ρ c main_call0_v4) (hgb : gb = Ve0 m ρ c main_call0_v2) :
    W3 m ρ c (Proc.devRef .tc main_v0) = Spec.result P gb := by
  refine (W3_arr m ρ c 3).trans ?_
  funext i
  rw [eq_ix3 i]
  exact value_apply m ρ c P gb hP hgb (i 0) (i 1) (i 2)

end Run

end Cert.KernelIdeal.Hand

end
-- ==== Proof.RefPayload.lean ====
/-
  The reference program's arithmetic read at one index, on the extended reals.

  Its statistics body sums one `[1, 256, 2048]` row block over its positions, once plain and once
  squared, and stores the two per-channel sums side by side as a `[256, 2]` block — or adds them to the
  block already there; at the last row it turns the two accumulated columns and the `gamma` / `beta`
  columns into the channel's scale and shift, again side by side. Its normalising body applies scale
  and shift and the leaky rectifier to every element of a row block.
-/
import proofs.«144913_g2000205710372994_pallasbulk_301_4_alg».proof.Proof.Gen.ReferenceIdeal.Skeleton
import proofs.«144913_g2000205710372994_pallasbulk_301_4_alg».proof.Proof.Spec
import proofs.«144913_g2000205710372994_pallasbulk_301_4_alg».proof.Proof.LibColumns

set_option maxRecDepth 16384

noncomputable section

open scoped BigOperators

namespace Cert.ReferenceIdeal.Hand

open Idealize.ShloMosaic Idealize.ShloMosaic.ValueIdx
open Cert.ReferenceIdeal Cert.ReferenceIdeal.Gen
open Cert.Columns

/-! ## The statistics body -/

/-- Column 0 of what the statistics body computes from a row block: the block's sum, per channel. -/
theorem k0_pay1_sum (x : Vec Ideal S1x256x2048 .f32) (ch : Fin 256) :
    k0_pay1 x (ix2 ch (0 : Fin 2)) = ∑ n : Fin 1, ∑ l : Fin 2048, x (ix3 n ch l) := by
  unfold k0_pay1
  simp only [concatenate_cols_apply_left, shapeCast_self]
  rw [multiReduction_add_axis0_apply]
  refine Finset.sum_congr rfl fun n _ => ?_
  rw [shapeCast_ab_ab1_apply, multiReduction_add_axis2_apply]

/-- Column 1: the block's sum of squares, per channel. -/
theorem k0_pay1_sumsq (x : Vec Ideal S1x256x2048 .f32) (ch : Fin 256) :
    k0_pay1 x (ix2 ch (1 : Fin 2))
      = ∑ n : Fin 1, ∑ l : Fin 2048, x (ix3 n ch l) * x (ix3 n ch l) := by
  unfold k0_pay1
  simp only [concatenate_cols_apply_right, shapeCast_self]
  rw [multiReduction_add_axis0_apply]
  refine Finset.sum_congr rfl fun n _ => ?_
  rw [shapeCast_ab_ab1_apply, multiReduction_add_axis2_apply]
  rfl

/-- At a later row the body adds that to the block already there. -/
theorem k0_pay2_apply (x : Vec Ideal S1x256x2048 .f32) (acc : Vec Ideal S256x2 .f32) (j : S256x2.Idx) :
    k0_pay2 x acc j = acc j + k0_pay1 x j := by
  unfold k0_pay2
  simp only [shapeCast_self, addf_apply]

/-- At the last row, column 0 becomes the channel's scale, from the two accumulated sums (`v19`, `v23`)
    and `gamma` (`v34`) … -/
theorem k0_pay3_scale (v19 v23 v34 v37 : Vec Ideal S256x1 .f32) (ch : Fin 256) :
    k0_pay3 v19 v23 v34 v37 (ix2 ch (0 : Fin 2))
      = Cert.Spec.scaleOf (v19 (ix2 ch (0 : Fin 1))) (v23 (ix2 ch (0 : Fin 1))) (v34 (ix2 ch (0 : Fin 1))) := by
  unfold k0_pay3
  simp only [concatenate_cols_apply_left, mulf_apply, addf_apply, subf_apply, maximumf_apply, rsqrt_apply,
    broadcast_ofBits_apply, shapeCast_self]
  rfl

/-- … and column 1 its shift, from those and `beta` (`v37`). -/
theorem k0_pay3_shift (v19 v23 v34 v37 : Vec Ideal S256x1 .f32) (ch : Fin 256) :
    k0_pay3 v19 v23 v34 v37 (ix2 ch (1 : Fin 2))
      = Cert.Spec.shiftOf (v19 (ix2 ch (0 : Fin 1))) (v23 (ix2 ch (0 : Fin 1))) (v34 (ix2 ch (0 : Fin 1)))
          (v37 (ix2 ch (0 : Fin 1))) := by
  unfold k0_pay3
  simp only [concatenate_cols_apply_right, mulf_apply, addf_apply, subf_apply, maximumf_apply, rsqrt_apply,
    broadcast_ofBits_apply, shapeCast_self]
  rfl

/-! ## The normalising body -/

/-- One element of what the normalising body stores: the rectifier of the element scaled and shifted by its
    channel's scale (`v2`) and shift (`v5`). -/
theorem k1_pay1_apply (v0 : Vec Ideal S1x256x2048 .f32) (v2 v5 : Vec Ideal S256x1 .f32)
    (n : Fin 1) (ch : Fin 256) (l : Fin 2048) :
    k1_pay1 v0 v2 v5 (ix3 n ch l)
      = Cert.Spec.leaky (v0 (ix3 n ch l) * v2 (ix2 ch (0 : Fin 1)) + v5 (ix2 ch (0 : Fin 1))) := by
  unfold k1_pay1
  simp only [select_apply, cmpf_ideal_apply, mulf_apply, addf_apply, broadcast_ofBits_apply,
    broadcastTo_1b1_abc_apply, shapeCast_ab_1ab_apply, shapeCast_self]
  rfl

end Cert.ReferenceIdeal.Hand

end
-- ==== Proof.RefStatsValue.lean ====
/-
  What the statistics region leaves in the statistics array, on the extended reals. Up to the last point but one the
  output's staging buffer is the running sum of the tiles' pairs (sum, sum of squares): the first point stores its
  tile's pair, every later point adds its own. The last point adds its tile's pair and then replaces the sums by the
  channel's scale and shift, computed from them and from the stacked parameters; it alone writes the buffer back,
  and its block is the whole array. The tile of point `t` is batch row `t` of the pooled array, so the sums are the
  channel's sums over all rows, taken row by row.
-/
import proofs.«144913_g2000205710372994_pallasbulk_301_4_alg».proof.Proof.RefStats
import proofs.«144913_g2000205710372994_pallasbulk_301_4_alg».proof.Proof.RefPayload
import proofs.«144913_g2000205710372994_pallasbulk_301_4_alg».proof.Proof.Result
import Idealize.ShloMosaic.Lib.Pipeline.Value
import Idealize.ShloMosaic.Lib.ValueIdx

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

open Idealize.ShloMosaic.ValueIdx
open scoped BigOperators

section Value

variable (V : (c : Dev nD) → (b : Ref sig .tc) → Buf (Elt Ideal) ((c : Thread nD τ).loc b))

/-! ## The running sum -/

/-- The pair (sum, sum of squares) of the tile read at point `n` (zero past the grid). -/
def tileAdd (c : Dev nD) (n : ℕ) : S256x2.Idx → EReal :=
  fun i => if hn : n < cfg0.N then k0_pay1 (F := Ideal) (iblk0 V c 0 ⟨n, hn⟩) i else 0

theorem tileAdd_of_lt (c : Dev nD) (n : ℕ) (hn : n < cfg0.N) (i : S256x2.Idx) :
    tileAdd V c n i = k0_pay1 (F := Ideal) (iblk0 V c 0 ⟨n, hn⟩) i := by
  unfold tileAdd; rw [dif_pos hn]

/-- After point `n`, the last point apart, the buffer holds the sum of the pairs of the tiles of points `0 … n`. -/
theorem outsAt0_run (c : Dev nD) : ∀ (n : ℕ) (_ : n ≤ 62) (h : n < cfg0.N) (i : S256x2.Idx),
    outsAt0 V c n h i = ∑ s ∈ Finset.range (n + 1), tileAdd V c s i
  | 0, _, h, i => by
    rw [show outsAt0 V c 0 h = out0_A_2 (iblk0 V c 0 ⟨0, h⟩) from outsAt0_A V c ⟨0, h⟩ rfl, out0_A_2_eq,
      Finset.sum_range_one, tileAdd_of_lt V c 0 h]
  | n + 1, hle, h, i => by
    rw [show outsAt0 V c (n + 1) h = out0_B_2 (iblk0 V c 0 ⟨n + 1, h⟩) (outsAt0 V c n (Nat.lt_of_succ_lt h)) from
        outsAt0_B V c ⟨n + 1, h⟩ (Nat.succ_ne_zero n) (by show n + 1 ≠ 63; omega),
      out0_B_2_eq, k0_pay2_apply, outsAt0_run c n (by omega) _ i, Finset.sum_range_succ _ (n + 1),
      tileAdd_of_lt V c (n + 1) h]

/-! ## The blocks -/

/-- The index maps over the grid: the tile of point `t` is batch row `t`; the parameters' block and the output's block
    are the whole arrays. -/
theorem idx_facts0 : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The tile of point `t` read at an index: the pooled array at batch row `t`. -/
theorem iblk0_0_apply (c : Dev nD) (t : Fin cfg0.N) (n : Fin 1) (ch : Fin 256) (l : Fin 2048) (hr : t.val < 64) :
    iblk0 V c 0 t (ix3 n ch l) = V c main_call0_v1 (ix3 (⟨t.val, hr⟩ : Fin 64) ch l) := by
  obtain ⟨e0, e1, e2, -, -, -, -⟩ := idx_facts0 t
  show V c main_call0_v1 (((cfg0.win 0).blk t).view.emb (ix3 n ch l)) = _
  refine congrArg _ ?_
  funext a; apply Fin.ext
  have hn : n.val = 0 := by omega
  match a with
  | ⟨0, _⟩ => show win0_0.index t (0 : Fin 3) * 1 + 1 * n.val = t.val; omega
  | ⟨1, _⟩ => show win0_0.index t (1 : Fin 3) * 256 + 1 * ch.val = ch.val; omega
  | ⟨2, _⟩ => show win0_0.index t (2 : Fin 3) * 2048 + 1 * l.val = l.val; omega

/-- The parameters' block read at an index: the stacked parameters there. -/
theorem iblk0_1_apply (c : Dev nD) (t : Fin cfg0.N) (ch : Fin 256) (k : Fin 2) :
    iblk0 V c 1 t (ix2 ch k) = V c main_call0_v4 (ix2 ch k) := by
  obtain ⟨-, -, -, e0, e1, -, -⟩ := idx_facts0 t
  show V c main_call0_v4 (((cfg0.win 1).blk t).view.emb (ix2 ch k)) = _
  refine congrArg _ ?_
  funext a; apply Fin.ext
  match a with
  | ⟨0, _⟩ => show win0_1.index t (0 : Fin 2) * 256 + 1 * ch.val = ch.val; omega
  | ⟨1, _⟩ => show win0_1.index t (1 : Fin 2) * 2 + 1 * k.val = k.val; omega

/-- A tile's sum is its batch row's sum, -/
theorem tileAdd_col0 (c : Dev nD) (s : ℕ) (ch : Fin 256) :
    tileAdd V c s (ix2 ch (0 : Fin 2)) = Cert.Spec.rowSum (V c main_call0_v1) ch s := by
  have hN : cfg0.N = 64 := N_0
  unfold tileAdd Cert.Spec.rowSum
  by_cases hs : s < cfg0.N
  · rw [dif_pos hs, dif_pos (show s < 64 by omega), k0_pay1_sum, Fin.sum_univ_one]
    exact Finset.sum_congr rfl fun l _ => iblk0_0_apply V c ⟨s, hs⟩ 0 ch l (by show s < 64; omega)
  · rw [dif_neg hs, dif_neg (show ¬s < 64 by omega)]

/-- and its sum of squares the row's. -/
theorem tileAdd_col1 (c : Dev nD) (s : ℕ) (ch : Fin 256) :
    tileAdd V c s (ix2 ch (1 : Fin 2)) = Cert.Spec.rowSq (V c main_call0_v1) ch s := by
  have hN : cfg0.N = 64 := N_0
  unfold tileAdd Cert.Spec.rowSq
  by_cases hs : s < cfg0.N
  · rw [dif_pos hs, dif_pos (show s < 64 by omega), k0_pay1_sumsq, Fin.sum_univ_one]
    exact Finset.sum_congr rfl fun l _ => by rw [iblk0_0_apply V c ⟨s, hs⟩ 0 ch l (by show s < 64; omega)]
  · rw [dif_neg hs, dif_neg (show ¬s < 64 by omega)]

theorem outsAt0_cast (c : Dev nD) (n n' : ℕ) (e : n = n') (h : n < cfg0.N) (h' : n' < cfg0.N) :
    outsAt0 V c n h = outsAt0 V c n' h' := by subst e; rfl

/-! ## The last point -/

/-- A load of column 0 of a `[256, 2]` block, at a channel, -/
theorem ld_col0 (X : Vec Ideal S256x2 .f32) (ch : Fin 256) :
    View.ld X r0_2a (ix2 ch (0 : Fin 1)) = X (ix2 ch (0 : Fin 2)) := by
  show X (r0_2a.idx (ix2 ch (0 : Fin 1))) = _
  refine congrArg _ ?_
  funext a; apply Fin.ext
  match a with
  | ⟨0, _⟩ => show 0 + 1 * ch.val = ch.val; omega
  | ⟨1, _⟩ => show 0 + 1 * 0 = 0; rfl

/-- and of column 1. -/
theorem ld_col1 (X : Vec Ideal S256x2 .f32) (ch : Fin 256) :
    View.ld X r0_2b (ix2 ch (0 : Fin 1)) = X (ix2 ch (1 : Fin 2)) := by
  show X (r0_2b.idx (ix2 ch (0 : Fin 1))) = _
  refine congrArg _ ?_
  funext a; apply Fin.ext
  match a with
  | ⟨0, _⟩ => show 0 + 1 * ch.val = ch.val; omega
  | ⟨1, _⟩ => show 1 + 1 * 0 = 1; rfl

/-- The sums the last point finalizes: the running sum after point 62 with the last tile's pair added — the pairs
    of all 64 tiles. -/
theorem acc_last (c : Dev nD) (h : 63 < cfg0.N) (i : S256x2.Idx) :
    k0_pay2 (F := Ideal) (iblk0 V c 0 ⟨63, h⟩) (outsAt0 V c 62 (Nat.lt_of_succ_lt h)) i
      = ∑ s ∈ Finset.range 64, tileAdd V c s i := by
  rw [k0_pay2_apply, outsAt0_run V c 62 (le_refl _) _ i, Finset.sum_range_succ _ 63, tileAdd_of_lt V c 63 h]

/-- Column 0 of the sums is the channel's sum over all rows, -/
theorem acc_last_col0 (c : Dev nD) (h : 63 < cfg0.N) (ch : Fin 256) :
    k0_pay2 (F := Ideal) (iblk0 V c 0 ⟨63, h⟩) (outsAt0 V c 62 (Nat.lt_of_succ_lt h)) (ix2 ch (0 : Fin 2))
      = Cert.Spec.total1 (V c main_call0_v1) ch := by
  rw [acc_last]; unfold Cert.Spec.total1
  exact Finset.sum_congr rfl fun s _ => tileAdd_col0 V c s ch

/-- column 1 its sum of squares. -/
theorem acc_last_col1 (c : Dev nD) (h : 63 < cfg0.N) (ch : Fin 256) :
    k0_pay2 (F := Ideal) (iblk0 V c 0 ⟨63, h⟩) (outsAt0 V c 62 (Nat.lt_of_succ_lt h)) (ix2 ch (1 : Fin 2))
      = Cert.Spec.total2 (V c main_call0_v1) ch := by
  rw [acc_last]; unfold Cert.Spec.total2
  exact Finset.sum_congr rfl fun s _ => tileAdd_col1 V c s ch

/-- What the statistics array ends holding: per channel, the scale in column 0 and the shift in column 1. -/
def statsOf (c : Dev nD) : S256x2.Idx → EReal := fun i =>
  if (i 1).val = 0 then
    Cert.Spec.scaleOf (Cert.Spec.total1 (V c main_call0_v1) (i 0)) (Cert.Spec.total2 (V c main_call0_v1) (i 0)) (V c main_call0_v4 (ix2 (i 0) (0 : Fin 2)))
  else
    Cert.Spec.shiftOf (Cert.Spec.total1 (V c main_call0_v1) (i 0)) (Cert.Spec.total2 (V c main_call0_v1) (i 0)) (V c main_call0_v4 (ix2 (i 0) (0 : Fin 2))) (V c main_call0_v4 (ix2 (i 0) (1 : Fin 2)))

/-- After the last point column 0 of the buffer holds the channel's scale, -/
theorem outsAt0_last_col0 (c : Dev nD) (h : 63 < cfg0.N) (ch : Fin 256) :
    outsAt0 V c 63 h (ix2 ch (0 : Fin 2))
      = Cert.Spec.scaleOf (Cert.Spec.total1 (V c main_call0_v1) ch) (Cert.Spec.total2 (V c main_call0_v1) ch) (V c main_call0_v4 (ix2 ch (0 : Fin 2))) := by
  rw [show outsAt0 V c 63 h = out0_C_2 (iblk0 V c 0 ⟨63, h⟩) (iblk0 V c 1 ⟨63, h⟩) (outsAt0 V c 62 (Nat.lt_of_succ_lt h)) from
    outsAt0_C V c ⟨63, h⟩ rfl, out0_C_2_eq, k0_pay3_scale, ld_col0, ld_col1, ld_col0,
    acc_last_col0, acc_last_col1, iblk0_1_apply]

/-- and column 1 its shift. -/
theorem outsAt0_last_col1 (c : Dev nD) (h : 63 < cfg0.N) (ch : Fin 256) :
    outsAt0 V c 63 h (ix2 ch (1 : Fin 2))
      = Cert.Spec.shiftOf (Cert.Spec.total1 (V c main_call0_v1) ch) (Cert.Spec.total2 (V c main_call0_v1) ch) (V c main_call0_v4 (ix2 ch (0 : Fin 2))) (V c main_call0_v4 (ix2 ch (1 : Fin 2))) := by
  rw [show outsAt0 V c 63 h = out0_C_2 (iblk0 V c 0 ⟨63, h⟩) (iblk0 V c 1 ⟨63, h⟩) (outsAt0 V c 62 (Nat.lt_of_succ_lt h)) from
    outsAt0_C V c ⟨63, h⟩ rfl, out0_C_2_eq, k0_pay3_shift, ld_col0, ld_col1, ld_col0, ld_col1,
    acc_last_col0, acc_last_col1, iblk0_1_apply, iblk0_1_apply]

/-- So after the last point the buffer holds `statsOf`. -/
theorem outsAt0_last (c : Dev nD) (h : 63 < cfg0.N) (y : S256x2.Idx) : outsAt0 V c 63 h y = statsOf V c y := by
  have hy1 : (y 1).val < 2 := (y 1).isLt
  unfold statsOf
  by_cases h0 : (y 1).val = 0
  · rw [if_pos h0]
    have e : y = ix2 (n0 := 256) (n1 := 2) (y 0) (0 : Fin 2) :=
      (eq_ix2 y).trans (congrArg (ix2 (n0 := 256) (n1 := 2) (y 0)) (Fin.ext h0 : y 1 = (0 : Fin 2)))
    exact (congrArg (outsAt0 V c 63 h) e).trans (outsAt0_last_col0 V c h (y 0))
  · rw [if_neg h0]
    have e : y = ix2 (n0 := 256) (n1 := 2) (y 0) (1 : Fin 2) :=
      (eq_ix2 y).trans (congrArg (ix2 (n0 := 256) (n1 := 2) (y 0)) (Fin.ext (by show (y 1).val = 1; omega) : y 1 = (1 : Fin 2)))
    exact (congrArg (outsAt0 V c 63 h) e).trans (outsAt0_last_col1 V c h (y 0))

/-! ## The array -/

theorem mem_blk0_2 (t : Fin cfg0.N) (i : S256x2.Idx) :
    i ∈ ((cfg0.win 2).blk t).view.set ↔ ∀ a : Fin 2, win0_2.index t a * S256x2.size a ≤ (i a).val ∧ (i a).val < win0_2.index t a * S256x2.size a + S256x2.size a := by
  show i ∈ ((View.whole main_call0_v5).slice (win0_2.rect t)).set ↔ _
  rw [View.set_slice_whole, Rect.mem_set_unit]
  exact Iff.rfl

/-- What the last point writes back is `statsOf`, whole. -/
theorem flushed0_2_eq (c : Dev nD) (t : Fin cfg0.N) (hf : (cfg0.win 2).flush t = true) :
    (dat0 V c).flushed 2 t = ((cfg0.win 2).blk t).view.read (Elt Ideal) (statsOf V c) := by
  show (cfg0.win 2).cut (grid0.coords t) ((dat0 V c).after 2 t) = _
  rw [after0_2]
  have h63 : t.val % 64 = 63 := (flush0_2 t).mp hf
  have hN : t.val < 64 := lt_of_lt_of_eq t.isLt (show cfg0.N = 64 from N_0)
  have ht : t.val = 63 := by omega
  obtain ⟨-, -, -, -, -, e0, e1⟩ := idx_facts0 t
  funext y
  show outsAt0 V c t.val t.isLt y = statsOf V c (((cfg0.win 2).blk t).view.emb y)
  have hy : ((cfg0.win 2).blk t).view.emb y = y := by
    funext a; apply Fin.ext
    match a with
    | ⟨0, _⟩ => show win0_2.index t (0 : Fin 2) * 256 + 1 * (y 0).val = (y 0).val; omega
    | ⟨1, _⟩ => show win0_2.index t (1 : Fin 2) * 2 + 1 * (y 1).val = (y 1).val; omega
  rw [hy, outsAt0_cast V c t.val 63 ht t.isLt (ht ▸ t.isLt)]
  exact outsAt0_last V c _ y

/-- The statistics array after the region. -/
theorem stats_final (c : Dev nD) : (dat0 V c).arrAt 2 cfg0.N = statsOf V c := by
  have h63 : 63 < cfg0.N := by rw [show cfg0.N = 64 from N_0]; omega
  refine (dat0 V c).arrAt_eq_of_cover 2 (statsOf V c) (fun t hf => flushed0_2_eq V c t hf) fun i => ?_
  have hi0 : (i 0).val < 256 := (i 0).isLt
  have hi1 : (i 1).val < 2 := (i 1).isLt
  refine ⟨⟨63, h63⟩, (flush0_2 _).mpr (by show 63 % 64 = 63; rfl), ?_⟩
  obtain ⟨-, -, -, -, -, e0, e1⟩ := idx_facts0 ⟨63, h63⟩
  rw [mem_blk0_2]
  intro a
  match a with
  | ⟨0, _⟩ => show win0_2.index ⟨63, h63⟩ (0 : Fin 2) * 256 ≤ (i 0).val ∧ (i 0).val < win0_2.index ⟨63, h63⟩ (0 : Fin 2) * 256 + 256; omega
  | ⟨1, _⟩ => show win0_2.index ⟨63, h63⟩ (1 : Fin 2) * 2 ≤ (i 1).val ∧ (i 1).val < win0_2.index ⟨63, h63⟩ (1 : Fin 2) * 2 + 2; omega

/-- Column 0 of the statistics array after the region: the channel's scale, -/
theorem stats_scale (c : Dev nD) (ch : Fin 256) :
    (dat0 V c).arrAt 2 cfg0.N (ix2 ch (0 : Fin 2))
      = Cert.Spec.scaleOf (Cert.Spec.total1 (V c main_call0_v1) ch) (Cert.Spec.total2 (V c main_call0_v1) ch) (V c main_call0_v4 (ix2 ch (0 : Fin 2))) := by
  rw [stats_final]; unfold statsOf; exact if_pos rfl

/-- column 1: its shift. -/
theorem stats_shift (c : Dev nD) (ch : Fin 256) :
    (dat0 V c).arrAt 2 cfg0.N (ix2 ch (1 : Fin 2))
      = Cert.Spec.shiftOf (Cert.Spec.total1 (V c main_call0_v1) ch) (Cert.Spec.total2 (V c main_call0_v1) ch) (V c main_call0_v4 (ix2 ch (0 : Fin 2))) (V c main_call0_v4 (ix2 ch (1 : Fin 2))) := by
  rw [stats_final]; unfold statsOf; exact if_neg (by show ¬((1 : Fin 2).val = 0); decide)

end Value

end Cert.ReferenceIdeal.Hand

end
-- ==== Proof.RefNormValue.lean ====
/-
  The array the normalisation region of the reference program leaves, index by index: every element of the result
  is the leaky rectifier of the pooled element there times its channel's scale plus the channel's shift. Each point
  writes back one tile of one batch row computed from the blocks it loaded; a block's element sits in its array at
  block index times block size plus its own coordinate, the scale-shift pair is a whole-array block, and the 64
  tiles cover the 64 rows.
-/
import proofs.«144913_g2000205710372994_pallasbulk_301_4_alg».proof.Proof.RefNorm
import proofs.«144913_g2000205710372994_pallasbulk_301_4_alg».proof.Proof.Spec
import proofs.«144913_g2000205710372994_pallasbulk_301_4_alg».proof.Proof.RefPayload
import Idealize.ShloMosaic.Lib.Pipeline.Value
import Idealize.ShloMosaic.Lib.ValueIdx

set_option maxRecDepth 16384

noncomputable section

namespace Cert.ReferenceIdeal.Hand

open Cert.ReferenceIdeal Cert.ReferenceIdeal.Gen

open Idealize.ShloMosaic Idealize.ShloMosaic.TcCoe Idealize.ShloMosaic.ValueIdx
open Idealize.SL Idealize.SL.Sem
open Idealize.ShloMosaic.Pipeline (Dat Cfg Window)

-- the core's buffer contents when the region is entered, on the extended reals
variable (V : (c : Dev nD) → (b : Ref sig .tc) → Buf (Elt Ideal) ((c : Thread nD τ).loc b))

/-! ## The result as one function of the arrays the region reads -/

/-- Element `(n, ch, l)` of the result from the pooled array `p` and the per-channel pair `ss` of scale and shift. -/
def normOf (p : S64x256x2048.Idx → EReal) (ss : S256x2.Idx → EReal) : S64x256x2048.Idx → EReal :=
  fun i => Spec.leaky (p i * ss (ix2 (i 1 : Fin 256) (0 : Fin 2)) + ss (ix2 (i 1 : Fin 256) (1 : Fin 2)))

theorem zero3 : (![0, 0, 0] : Fin 3 → Nat) = fun _ => 0 := funext fun a => by fin_cases a <;> rfl

/-! ## The index maps, decided over the grid -/

/-- The pooled tile and the result tile move together, one batch row per point; the pair stays at its one block. -/
theorem index_facts : ∀ t : Fin cfg1.N,
    win1_2.index t (0 : Fin 3) = t.val ∧ win1_2.index t (1 : Fin 3) = 0 ∧ win1_2.index t (2 : Fin 3) = 0
    ∧ win1_0.index t (0 : Fin 3) = t.val ∧ win1_0.index t (1 : Fin 3) = 0 ∧ win1_0.index t (2 : Fin 3) = 0
    ∧ win1_1.index t (0 : Fin 2) = 0 ∧ win1_1.index t (1 : Fin 2) = 0 :=
  (by decide +kernel : ∀ t : Fin grid1.N, _)

/-! ## The blocks, read at an element -/

/-- An element of the pooled tile at point `t` is the pooled array's, in batch row `t`. -/
theorem pooled_block_apply (c : Dev nD) (t : Fin cfg1.N) (y : S1x256x2048.Idx) (k : S64x256x2048.Idx)
    (hk0 : (k 0).val = t.val + (y 0).val) (hk1 : (k 1).val = (y 1).val) (hk2 : (k 2).val = (y 2).val) :
    (iblk1 V c 0 t : Vec Ideal S1x256x2048 .f32) y = (V c main_call0_v1 : S64x256x2048.Idx → EReal) k := by
  obtain ⟨-, -, -, e0, e1, e2, -⟩ := index_facts t
  unfold iblk1
  rw [View.read_apply]
  show V c main_call0_v1 _ = V c main_call0_v1 _
  congr 1
  funext a
  apply Fin.ext
  match a with
  | ⟨0, _⟩ => show win1_0.index t (0 : Fin 3) * 1 + 1 * (y 0).val = (k 0).val; rw [e0, hk0]; omega
  | ⟨1, _⟩ => show win1_0.index t (1 : Fin 3) * 256 + 1 * (y 1).val = (k 1).val; rw [e1, hk1]; omega
  | ⟨2, _⟩ => show win1_0.index t (2 : Fin 3) * 2048 + 1 * (y 2).val = (k 2).val; rw [e2, hk2]; omega

/-- The pair's block at any point is the whole per-channel pair. -/
theorem pair_block_apply (c : Dev nD) (t : Fin cfg1.N) (y : S256x2.Idx) :
    (iblk1 V c 1 t : Vec Ideal S256x2 .f32) y = (V c main_call0_v5 : S256x2.Idx → EReal) y := by
  obtain ⟨-, -, -, -, -, -, e0, e1⟩ := index_facts t
  unfold iblk1
  rw [View.read_apply]
  show V c main_call0_v5 _ = V c main_call0_v5 _
  congr 1
  funext a
  apply Fin.ext
  match a with
  | ⟨0, _⟩ => show win1_1.index t (0 : Fin 2) * 256 + 1 * (y 0).val = (y 0).val; rw [e0]; omega
  | ⟨1, _⟩ => show win1_1.index t (1 : Fin 2) * 2 + 1 * (y 1).val = (y 1).val; rw [e1]; omega

/-! ## The body's payload at an element -/

/-- The scale is column 0 of the pair, -/
theorem ld_scale (x1 : Vec Ideal S256x2 .f32) (ch : Fin 256) (u : Fin 1) :
    (View.ld x1 r1_1 : S256x1.Idx → EReal) (ix2 ch u) = x1 (ix2 ch (0 : Fin 2)) := by
  show x1 (r1_1.idx (ix2 ch u)) = x1 (ix2 ch (0 : Fin 2))
  congr 1
  funext a
  apply Fin.ext
  have hu : u.val = 0 := by omega
  match a with
  | ⟨0, _⟩ => show 0 + 1 * ch.val = ch.val; omega
  | ⟨1, _⟩ => show 0 + 1 * u.val = 0; omega

/-- the shift column 1. -/
theorem ld_shift (x1 : Vec Ideal S256x2 .f32) (ch : Fin 256) (u : Fin 1) :
    (View.ld x1 r1_2 : S256x1.Idx → EReal) (ix2 ch u) = x1 (ix2 ch (1 : Fin 2)) := by
  show x1 (r1_2.idx (ix2 ch u)) = x1 (ix2 ch (1 : Fin 2))
  congr 1
  funext a
  apply Fin.ext
  have hu : u.val = 0 := by omega
  match a with
  | ⟨0, _⟩ => show 0 + 1 * ch.val = ch.val; omega
  | ⟨1, _⟩ => show 1 + 1 * u.val = 1; omega

/-- One element of the tile the body stores, from the two blocks it loaded. -/
theorem stored_apply (x0 : Vec Ideal S1x256x2048 .f32) (x1 : Vec Ideal S256x2 .f32) (j : S1x256x2048.Idx) :
    k1_pay1 x0 (View.ld x1 r1_1) (View.ld x1 r1_2) j
      = Spec.leaky (x0 j * x1 (ix2 (j 1 : Fin 256) (0 : Fin 2)) + x1 (ix2 (j 1 : Fin 256) (1 : Fin 2))) := by
  obtain ⟨n, ch, l, rfl⟩ : ∃ (n : Fin 1) (ch : Fin 256) (l : Fin 2048), j = ix3 n ch l := ⟨j 0, j 1, j 2, eq_ix3 j⟩
  rw [k1_pay1_apply, ld_scale, ld_shift]

/-! ## What a point writes back -/

/-- What point `t` writes back is tile `t` of `normOf` of the arrays as the region finds them. -/
theorem flushed1_2_eq (c : Dev nD) (t : Fin cfg1.N) :
    (dat1 V c).flushed 2 t
      = ((cfg1.win 2).blk t).view.read (Elt Ideal) (normOf (V c main_call0_v1) (V c main_call0_v5)) := by
  show (cfg1.win 2).cut (grid1.coords t) ((dat1 V c).after 2 t) = _
  rw [after1_2]
  unfold out1_2
  rw [View.canon_unit_zero zero3]
  simp only [View.ld_unit_zero (S := S1x256x2048) zero3]
  obtain ⟨e0, e1, e2, -⟩ := index_facts t
  funext j
  show k1_pay1 (iblk1 V c 0 t) (View.ld (iblk1 V c 1 t) r1_1) (View.ld (iblk1 V c 1 t) r1_2) j
    = normOf (V c main_call0_v1) (V c main_call0_v5) (((cfg1.win 2).blk t).view.emb j)
  refine (stored_apply _ _ j).trans ?_
  have hk0 : ((((cfg1.win 2).blk t).view.emb j : S64x256x2048.Idx) 0).val = t.val + ((j : S1x256x2048.Idx) 0).val := by
    show win1_2.index t (0 : Fin 3) * 1 + 1 * ((j : S1x256x2048.Idx) 0).val = _; rw [e0]; omega
  have hk1 : ((((cfg1.win 2).blk t).view.emb j : S64x256x2048.Idx) 1).val = ((j : S1x256x2048.Idx) 1).val := by
    show win1_2.index t (1 : Fin 3) * 256 + 1 * ((j : S1x256x2048.Idx) 1).val = _; rw [e1]; omega
  have hk2 : ((((cfg1.win 2).blk t).view.emb j : S64x256x2048.Idx) 2).val = ((j : S1x256x2048.Idx) 2).val := by
    show win1_2.index t (2 : Fin 3) * 2048 + 1 * ((j : S1x256x2048.Idx) 2).val = _; rw [e2]; omega
  have hch : ((((cfg1.win 2).blk t).view.emb j : S64x256x2048.Idx) 1 : Fin 256) = ((j : S1x256x2048.Idx) 1 : Fin 256) := Fin.ext hk1
  unfold normOf
  rw [pooled_block_apply V c t j _ hk0 hk1 hk2, hch]
  simp only [pair_block_apply]

/-! ## The tiles cover the array -/

/-- An index of the result array is in point `t`'s tile iff each coordinate is in the tile's range on its axis. -/
theorem mem_tile (t : Fin cfg1.N) (i : S64x256x2048.Idx) :
    i ∈ ((cfg1.win 2).blk t).view.set
      ↔ ∀ a : Fin 3, win1_2.index t a * S1x256x2048.size a ≤ (i a).val ∧ (i a).val < win1_2.index t a * S1x256x2048.size a + S1x256x2048.size a := by
  show i ∈ ((View.whole main_v0).slice (win1_2.rect t)).set ↔ _
  rw [View.set_slice_whole, Rect.mem_set_unit]
  exact Iff.rfl

/-- Row `n` of the batch is tile `n`. -/
theorem covered (i : S64x256x2048.Idx) :
    ∃ t : Fin cfg1.N, (cfg1.win 2).flush t = true ∧ i ∈ ((cfg1.win 2).blk t).view.set := by
  have hi0 : (i 0).val < 64 := (i 0).isLt
  have hi1 : (i 1).val < 256 := (i 1).isLt
  have hi2 : (i 2).val < 2048 := (i 2).isLt
  have hN : cfg1.N = 64 := N_1
  let t : Fin cfg1.N := ⟨(i 0).val, by rw [hN]; omega⟩
  have ht : t.val = (i 0).val := rfl
  obtain ⟨e0, e1, e2, -⟩ := index_facts t
  refine ⟨t, flush1_2 t, ?_⟩
  rw [mem_tile]
  intro a
  match a with
  | ⟨0, _⟩ => show win1_2.index t (0 : Fin 3) * 1 ≤ (i 0).val ∧ (i 0).val < win1_2.index t (0 : Fin 3) * 1 + 1; rw [e0, ht]; omega
  | ⟨1, _⟩ => show win1_2.index t (1 : Fin 3) * 256 ≤ (i 1).val ∧ (i 1).val < win1_2.index t (1 : Fin 3) * 256 + 256; rw [e1]; omega
  | ⟨2, _⟩ => show win1_2.index t (2 : Fin 3) * 2048 ≤ (i 2).val ∧ (i 2).val < win1_2.index t (2 : Fin 3) * 2048 + 2048; rw [e2]; omega

/-! ## The array after the region -/

/-- The result array after the region's last point is `normOf` of the arrays the region read. -/
theorem final1_2 (c : Dev nD) :
    (dat1 V c).arrAt 2 cfg1.N = normOf (V c main_call0_v1) (V c main_call0_v5) :=
  (dat1 V c).arrAt_eq_of_cover 2 (normOf (V c main_call0_v1) (V c main_call0_v5))
    (fun t _ => flushed1_2_eq V c t) covered

/-- `normOf` at an element. -/
theorem normOf_apply (p : S64x256x2048.Idx → EReal) (ss : S256x2.Idx → EReal) (n : Fin 64) (ch : Fin 256) (l : Fin 2048) :
    normOf p ss (ix3 n ch l) = Spec.leaky (p (ix3 n ch l) * ss (ix2 ch (0 : Fin 2)) + ss (ix2 ch (1 : Fin 2))) := rfl

/-- The result array element by element; `p`, `ss` name the two arrays at their literal shapes (each hypothesis
    holds by `rfl`). -/
theorem final1_2_apply (c : Dev nD) (p : S64x256x2048.Idx → EReal) (ss : S256x2.Idx → EReal)
    (hp : p = V c main_call0_v1) (hss : ss = V c main_call0_v5) (n : Fin 64) (ch : Fin 256) (l : Fin 2048) :
    (dat1 V c).arrAt 2 cfg1.N (ix3 n ch l)
      = Spec.leaky (p (ix3 n ch l) * ss (ix2 ch (0 : Fin 2)) + ss (ix2 ch (1 : Fin 2))) := by
  subst hp hss
  rw [final1_2]
  rfl

end Cert.ReferenceIdeal.Hand

end
-- ==== Proof.RefValue.lean ====
/-
  The value of the reference program on the extended reals. Its statistics region leaves, per channel, the scale and
  the shift computed from the sum and the sum of squares over all sixty-four batch rows taken row by row, and leaves
  the pooled array and the stacked parameters as it found them. The normalisation region then leaves, at every element,
  the leaky rectifier of the pooled element times its channel's scale plus the channel's shift: `Spec.out` of the
  pooled element, the channel's two totals and the channel's two parameters, the common result `Spec.result`.
-/
import proofs.«144913_g2000205710372994_pallasbulk_301_4_alg».proof.Proof.RefRun
import proofs.«144913_g2000205710372994_pallasbulk_301_4_alg».proof.Proof.RefStatsValue
import proofs.«144913_g2000205710372994_pallasbulk_301_4_alg».proof.Proof.RefNormValue
import proofs.«144913_g2000205710372994_pallasbulk_301_4_alg».proof.Proof.Result
import Idealize.ShloMosaic.Lib.Pipeline.Value
import Idealize.ShloMosaic.Lib.ValueIdx

set_option maxRecDepth 16384

noncomputable section

namespace Cert.ReferenceIdeal.Hand

open Idealize.ShloMosaic Idealize.ShloMosaic.TcCoe
open Idealize.SL Idealize.SL.Sem
open Idealize.ShloMosaic.Pipeline (Dat Cfg Window)
open Cert.ReferenceIdeal Cert.ReferenceIdeal.Gen

open Idealize.ShloMosaic.ValueIdx

section Run

variable (m : (ℓ : Loc nD τ sig) → Buf (Elt Ideal) ℓ) (ρ : Dev nD → PrngReg)

/-- The statistics region leaves the pooled array as it found it, -/
theorem Ve1_pooled (c : Dev nD) : Ve1 m ρ c main_call0_v1 = Ve0 m ρ c main_call0_v1 :=
  (W2_arr m ρ c 0).trans (((dat0 (Ve0 m ρ) c).arrAt_in 0 rfl _).trans (A_eq0 (Ve0 m ρ) c 0))
/-- the stacked parameters likewise, -/
theorem Ve1_gb (c : Dev nD) : Ve1 m ρ c main_call0_v4 = Ve0 m ρ c main_call0_v4 :=
  (W2_arr m ρ c 1).trans (((dat0 (Ve0 m ρ) c).arrAt_in 1 rfl _).trans (A_eq0 (Ve0 m ρ) c 1))
/-- and the per-channel pair at what its last write-back left. -/
theorem Ve1_stats (c : Dev nD) : Ve1 m ρ c main_call0_v5 = (dat0 (Ve0 m ρ) c).arrAt 2 cfg0.N :=
  W2_arr m ρ c 2

/-- The result array after the run, element by element. -/
theorem value_apply (c : Dev nD) (P : S64x256x2048.Idx → EReal) (gb : S256x2.Idx → EReal)
    (hP : P = Ve0 m ρ c main_call0_v1) (hgb : gb = Ve0 m ρ c main_call0_v4) (n : Fin 64) (ch : Fin 256) (l : Fin 2048) :
    (dat1 (Ve1 m ρ) c).arrAt 2 cfg1.N (ix3 n ch l) = Spec.resultAt P gb n ch l := by
  rw [final1_2_apply (Ve1 m ρ) c P ((dat0 (Ve0 m ρ) c).arrAt 2 cfg0.N) (hP.trans (Ve1_pooled m ρ c).symm)
    (Ve1_stats m ρ c).symm n ch l]
  rw [stats_scale, stats_shift]
  subst hP hgb
  rfl

/-- The result array after the run. -/
theorem value (c : Dev nD) (P : S64x256x2048.Idx → EReal) (gb : S256x2.Idx → EReal)
    (hP : P = Ve0 m ρ c main_call0_v1) (hgb : gb = Ve0 m ρ c main_call0_v4) :
    W3 m ρ c (Proc.devRef .tc main_v0) = Spec.result P gb := by
  refine (W3_arr m ρ c 2).trans ?_
  funext i
  rw [eq_ix3 i]
  exact value_apply m ρ c P gb hP hgb (i 0) (i 1) (i 2)

end Run

end Cert.ReferenceIdeal.Hand

end
-- ==== Proof.HostAgree.lean ====
/-
  Before their first kernel region both programs run the same six host operations, in two different orders and
  under different buffer names: the input `[64, 256, 4096]` is viewed as `[64, 256, 2048, 2]` and reduced by
  `max` over its pairs (from `-∞`) to the pooled `[64, 256, 2048]` array, and `gamma` and `beta` are each made a
  `[256, 1]` column and put side by side as a `[256, 2]` array. Each result is one function of the argument
  arrays, the same function in both programs; so from equal arguments the two programs enter their first
  region with equal pooled arrays and equal `gamma` / `beta` arrays. The functions are named and never opened.
-/
import proofs.«144913_g2000205710372994_pallasbulk_301_4_alg».proof.Proof.KerRun
import proofs.«144913_g2000205710372994_pallasbulk_301_4_alg».proof.Proof.RefRun
import Idealize.ShloMosaic.Lib.StableHlo.Run
import Idealize.ShloMosaic.PureOps.Ideal

set_option maxRecDepth 16384

noncomputable section

namespace Cert.Proof.Hand

open Idealize.ShloMosaic Idealize.ShloMosaic.TcCoe Idealize.SL.Sem
open Idealize.ShloMosaic.StableHlo

/-! ## The two results as functions of the arguments -/

/-- The pooled array from the input: the maximum over each pair of neighbouring positions. -/
def pooledOf (a0 : FVec Ideal Cert.KernelIdeal.S64x256x4096 .f32) : FVec Ideal Cert.KernelIdeal.S64x256x2048 .f32 :=
  Host.reduce FloatOps.maximumf
    (shapeCast Cert.KernelIdeal.S64x256x2048x2 a0 Cert.KernelIdeal.Gen.shapeCasts_S64x256x4096_S64x256x2048x2)
    (constant (F := Ideal) Cert.KernelIdeal.S_ .f32 0xFF800000#32)
    Cert.KernelIdeal.Gen.reducesTo_S64x256x2048x2_S64x256x2048_d3 Cert.KernelIdeal.Gen.h_S_

/-- `gamma` and `beta` as the two columns of one array. -/
def gbOf (a1 a2 : FVec Ideal Cert.KernelIdeal.S256 .f32) : FVec Ideal Cert.KernelIdeal.S256x2 .f32 :=
  concatenate Cert.KernelIdeal.S256x2 1
    [⟨Cert.KernelIdeal.S256x1, broadcastInDim Cert.KernelIdeal.S256x1 ![0] Cert.KernelIdeal.Gen.bcast_S256_S256x1_0 a1⟩,
     ⟨Cert.KernelIdeal.S256x1, broadcastInDim Cert.KernelIdeal.S256x1 ![0] Cert.KernelIdeal.Gen.bcast_S256_S256x1_0 a2⟩]
    Cert.KernelIdeal.Gen.concatenates_S256x1_S256x1_S256x2_d1

/-! ## Each program's buffers at its first region's entry -/

section Kernel
variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

theorem ker_pooled :
    (Cert.KernelIdeal.Hand.Ve0 m ρ c Cert.KernelIdeal.main_call0_v4 : (⟨3, ![64, 256, 2048]⟩ : Shape).Idx → EReal)
      = pooledOf (m ((c.tc : Thread Cert.KernelIdeal.nD Cert.KernelIdeal.τ).loc Cert.KernelIdeal.main_arg0)) := by
  show StableHlo.after Cert.KernelIdeal.Gen.hostOps0 (Cert.KernelIdeal.Hand.W0 m ρ c)
    (Proc.devRef .tc Cert.KernelIdeal.main_call0_v4) = _
  after_results
  -- the stored result is the reduction's value carried along the buffer's type: compare the values, whose
  -- operands agree, without opening the reduction
  refine cast_eq_iff_heq.mpr (heq_of_eq ?_)
  rfl

theorem ker_gb :
    (Cert.KernelIdeal.Hand.Ve0 m ρ c Cert.KernelIdeal.main_call0_v2 : (⟨2, ![256, 2]⟩ : Shape).Idx → EReal)
      = gbOf (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) := by
  show StableHlo.after Cert.KernelIdeal.Gen.hostOps0 (Cert.KernelIdeal.Hand.W0 m ρ c)
    (Proc.devRef .tc Cert.KernelIdeal.main_call0_v2) = _
  after_results
  rfl

end Kernel

section Reference
variable (m' : (ℓ : Loc Cert.ReferenceIdeal.nD Cert.ReferenceIdeal.τ Cert.ReferenceIdeal.sig) → Buf (Elt Ideal) ℓ)
  (ρ' : Dev Cert.ReferenceIdeal.nD → PrngReg) (c : Dev Cert.ReferenceIdeal.nD)

theorem ref_pooled :
    (Cert.ReferenceIdeal.Hand.Ve0 m' ρ' c Cert.ReferenceIdeal.main_call0_v1 : (⟨3, ![64, 256, 2048]⟩ : Shape).Idx → EReal)
      = pooledOf (m' ((c.tc : Thread Cert.ReferenceIdeal.nD Cert.ReferenceIdeal.τ).loc Cert.ReferenceIdeal.main_arg0)) := by
  show StableHlo.after Cert.ReferenceIdeal.Gen.hostOps0 (Cert.ReferenceIdeal.Hand.W0 m' ρ' c)
    (Proc.devRef .tc Cert.ReferenceIdeal.main_call0_v1) = _
  after_results
  refine cast_eq_iff_heq.mpr (heq_of_eq ?_)
  rfl

theorem ref_gb :
    (Cert.ReferenceIdeal.Hand.Ve0 m' ρ' c Cert.ReferenceIdeal.main_call0_v4 : (⟨2, ![256, 2]⟩ : Shape).Idx → EReal)
      = gbOf (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2)) := by
  show StableHlo.after Cert.ReferenceIdeal.Gen.hostOps0 (Cert.ReferenceIdeal.Hand.W0 m' ρ' c)
    (Proc.devRef .tc Cert.ReferenceIdeal.main_call0_v4) = _
  after_results
  rfl

end Reference

/-! ## From equal arguments, equal arrays at the first region's entry -/

section Agree
variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)
  (ρ' : Dev Cert.ReferenceIdeal.nD → PrngReg) (c : Dev Cert.KernelIdeal.nD)

/-- The pooled arrays agree. -/
theorem pooled_agree
    (h0 : m' ((c.tc : Thread Cert.ReferenceIdeal.nD Cert.ReferenceIdeal.τ).loc Cert.ReferenceIdeal.main_arg0)
        = m ((c.tc : Thread Cert.KernelIdeal.nD Cert.KernelIdeal.τ).loc Cert.KernelIdeal.main_arg0)) :
    (Cert.ReferenceIdeal.Hand.Ve0 m' ρ' c Cert.ReferenceIdeal.main_call0_v1 : (⟨3, ![64, 256, 2048]⟩ : Shape).Idx → EReal)
      = Cert.KernelIdeal.Hand.Ve0 m ρ c Cert.KernelIdeal.main_call0_v4 :=
  (ref_pooled m' ρ' c).trans ((congrArg pooledOf h0).trans (ker_pooled m ρ c).symm)

/-- The `gamma` / `beta` arrays agree. -/
theorem gb_agree
    (h1 : m' ((c.tc : Thread Cert.ReferenceIdeal.nD Cert.ReferenceIdeal.τ).loc Cert.ReferenceIdeal.main_arg1)
        = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
        = m ((c.tc : Thread Cert.KernelIdeal.nD Cert.KernelIdeal.τ).loc Cert.KernelIdeal.main_arg2)) :
    (Cert.ReferenceIdeal.Hand.Ve0 m' ρ' c Cert.ReferenceIdeal.main_call0_v4 : (⟨2, ![256, 2]⟩ : Shape).Idx → EReal)
      = Cert.KernelIdeal.Hand.Ve0 m ρ c Cert.KernelIdeal.main_call0_v2 :=
  (ref_gb m' ρ' c).trans ((congrArg₂ gbOf h1 h2).trans (ker_gb m ρ c).symm)

end Agree

end Cert.Proof.Hand

end
-- ==== Proof.Bridge.lean ====
/-
  The two idealised programs, run from memories that agree on the arguments, end with the same result array: each ends
  with `Spec.result` of the pooled array and the stacked parameters it computed on the host, and those are the same
  functions of the arguments in both programs.
-/
import proofs.«144913_g2000205710372994_pallasbulk_301_4_alg».proof.Defs
import proofs.«144913_g2000205710372994_pallasbulk_301_4_alg».proof.Proof.Gen.KernelIdeal
import proofs.«144913_g2000205710372994_pallasbulk_301_4_alg».proof.Proof.Gen.ReferenceIdeal
import proofs.«144913_g2000205710372994_pallasbulk_301_4_alg».proof.Proof.Gen.Pre_finite_inputs
import proofs.«144913_g2000205710372994_pallasbulk_301_4_alg».proof.Proof.KerValue
import proofs.«144913_g2000205710372994_pallasbulk_301_4_alg».proof.Proof.RefValue
import proofs.«144913_g2000205710372994_pallasbulk_301_4_alg».proof.Proof.HostAgree

noncomputable section

namespace Cert.Proof.Hand

open Idealize.ShloMosaic Idealize.ShloMosaic.TcCoe Idealize.SL.Sem

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.result (Cert.KernelIdeal.Hand.Ve0 m ρ c Cert.KernelIdeal.main_call0_v4)
    (Cert.KernelIdeal.Hand.Ve0 m ρ c Cert.KernelIdeal.main_call0_v2), ?_, ?_⟩
  · refine (θ_run Cert.KernelIdeal.defs _ _).mono (fun r h c => ⟨?_, ?_, ?_, ?_⟩) (Cert.KernelIdeal.Hand.run_all m ρ)
    · exact (h c _ (Cert.KernelIdeal.Hand.mem_uc Cert.KernelIdeal.main_v0 (by decide))).trans
        (Cert.KernelIdeal.Hand.value m ρ c _ _ rfl rfl)
    · exact (h c _ (Cert.KernelIdeal.Hand.mem_uc Cert.KernelIdeal.main_arg0 (by decide))).trans (Cert.KernelIdeal.Hand.W3_main_arg0 m ρ c)
    · exact (h c _ (Cert.KernelIdeal.Hand.mem_uc Cert.KernelIdeal.main_arg1 (by decide))).trans (Cert.KernelIdeal.Hand.W3_main_arg1 m ρ c)
    · exact (h c _ (Cert.KernelIdeal.Hand.mem_uc Cert.KernelIdeal.main_arg2 (by decide))).trans (Cert.KernelIdeal.Hand.W3_main_arg2 m ρ c)
  · refine (θ_run Cert.ReferenceIdeal.defs _ _).mono (fun r h c => ⟨?_, ?_, ?_, ?_⟩) (Cert.ReferenceIdeal.Hand.run_all m' ρ')
    · refine (h c _ (Cert.ReferenceIdeal.Hand.mem_uc Cert.ReferenceIdeal.main_v0 (by decide))).trans ?_
      exact Cert.ReferenceIdeal.Hand.value m' ρ' c _ _
        (pooled_agree m ρ m' ρ' c (hagree c).1).symm
        (gb_agree m ρ m' ρ' c (hagree c).2.1 (hagree c).2.2).symm
    · exact (h c _ (Cert.ReferenceIdeal.Hand.mem_uc Cert.ReferenceIdeal.main_arg0 (by decide))).trans (Cert.ReferenceIdeal.Hand.W3_main_arg0 m' ρ' c)
    · exact (h c _ (Cert.ReferenceIdeal.Hand.mem_uc Cert.ReferenceIdeal.main_arg1 (by decide))).trans (Cert.ReferenceIdeal.Hand.W3_main_arg1 m' ρ' c)
    · exact (h c _ (Cert.ReferenceIdeal.Hand.mem_uc Cert.ReferenceIdeal.main_arg2 (by decide))).trans (Cert.ReferenceIdeal.Hand.W3_main_arg2 m' ρ' c)

end Cert.Proof.Hand

end
-- ==== Proof.lean ====
/-
  The certificate's claim. Each program — the kernel program read at words, the same read on the extended reals, and the
  reference program — is the host's pooling of adjacent pairs and stacking of the two parameter vectors followed by two
  kernel regions: a statistics pass that accumulates per-channel sums and sums of squares of the pooled array over the
  grid, and a normalisation pass. The three frames come from each program's whole run (every unscoped buffer named at
  every boundary; no item writes an argument). The idealisation rewrote nothing. On the extended reals both programs end
  with the same array: the kernel program sums the batch rows as two halves of eight tiles of four rows and adds the
  halves, the reference row by row; addition of extended reals is commutative and associative, so the totals agree, and
  from the totals on both compute the same scale, shift and rectified value.
-/
import proofs.«144913_g2000205710372994_pallasbulk_301_4_alg».proof.Defs
import proofs.«144913_g2000205710372994_pallasbulk_301_4_alg».proof.Proof.Gen.Kernel
import proofs.«144913_g2000205710372994_pallasbulk_301_4_alg».proof.Proof.Gen.KernelIdeal
import proofs.«144913_g2000205710372994_pallasbulk_301_4_alg».proof.Proof.Gen.ReferenceIdeal
import proofs.«144913_g2000205710372994_pallasbulk_301_4_alg».proof.Proof.Gen.Pre_finite_inputs
import proofs.«144913_g2000205710372994_pallasbulk_301_4_alg».proof.Proof.BitRun
import proofs.«144913_g2000205710372994_pallasbulk_301_4_alg».proof.Proof.KerRun
import proofs.«144913_g2000205710372994_pallasbulk_301_4_alg».proof.Proof.RefRun
import proofs.«144913_g2000205710372994_pallasbulk_301_4_alg».proof.Proof.Bridge
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Hand.frame m ρ,
  fun m ρ _ => Cert.KernelIdeal.Hand.frame m ρ,
  fun m ρ _ => Cert.ReferenceIdeal.Hand.frame m ρ,
  trivial,
  Cert.Proof.Hand.algebraic⟩

end Cert.Proof

end
